-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x128 : Shape := ⟨2, ![80000, 128]⟩
abbrev S40000x128 : Shape := ⟨2, ![40000, 128]⟩
abbrev S2000000 : Shape := ⟨1, ![2000000]⟩
abbrev S512x128 : Shape := ⟨2, ![512, 128]⟩
abbrev S128 : Shape := ⟨1, ![128]⟩
abbrev S256x128 : Shape := ⟨2, ![256, 128]⟩
abbrev S128x1280 : Shape := ⟨2, ![128, 1280]⟩
abbrev S1280 : Shape := ⟨1, ![1280]⟩
abbrev S1280x64 : Shape := ⟨2, ![1280, 64]⟩
abbrev S64 : Shape := ⟨1, ![64]⟩
abbrev S64x1280 : Shape := ⟨2, ![64, 1280]⟩
abbrev S_ : Shape := ⟨0, ![]⟩

class Facts : Prop where
  bcast_S_S80000x128 : S_.BroadcastsInDim S80000x128 (![] : Fin 0 → Fin S80000x128.rank)
  reducesTo_S80000x128_S_d0_1 : S80000x128.ReducesTo [0, 1] S_
  h_S_ : 0 < S_.numel
  bcast_S_S40000x128 : S_.BroadcastsInDim S40000x128 (![] : Fin 0 → Fin S40000x128.rank)
  reducesTo_S40000x128_S_d0_1 : S40000x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1280 : S_.BroadcastsInDim S128x1280 (![] : Fin 0 → Fin S128x1280.rank)
  reducesTo_S128x1280_S_d0_1 : S128x1280.ReducesTo [0, 1] S_
  bcast_S_S1280 : S_.BroadcastsInDim S1280 (![] : Fin 0 → Fin S1280.rank)
  reducesTo_S1280_S_d0 : S1280.ReducesTo [0] S_
  bcast_S_S1280x64 : S_.BroadcastsInDim S1280x64 (![] : Fin 0 → Fin S1280x64.rank)
  reducesTo_S1280x64_S_d0_1 : S1280x64.ReducesTo [0, 1] S_
  bcast_S_S64 : S_.BroadcastsInDim S64 (![] : Fin 0 → Fin S64.rank)
  reducesTo_S64_S_d0 : S64.ReducesTo [0] S_
  bcast_S_S64x1280 : S_.BroadcastsInDim S64x1280 (![] : Fin 0 → Fin S64x1280.rank)
  reducesTo_S64x1280_S_d0_1 : S64x1280.ReducesTo [0, 1] S_

variable [Facts]

def fn_part5 {F : FTy → Type} [FloatOps F] (main_arg20 : FVec F S64x1280 .f32) (main_arg21 : FVec F S1280 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1280 .f32 := Host.absf main_arg20
  let main_cst_34 : FVec F S_ .f32 := constant S_ .f32 0x7F800000#32
  let main_v90 : FVec F S64x1280 .f32 := broadcastInDim S64x1280 ![] bcast_S_S64x1280 main_cst_34
  let main_v91 : IVec S64x1280 1 := cmpf .olt main_v89 main_v90
  let main_c_35 : IVec S_ 1 := constantI S_ 1 1#1
  let main_v92 : IVec S_ 1 := (fun x v => Host.reduce IntOp.andi x v reducesTo_S64x1280_S_d0_1 h_S_) main_v91 main_c_35
  let main_v93 : IVec S_ 1 := andi main_v88 main_v92
  let main_v94 : FVec F S1280 .f32 := Host.absf main_arg21
  let main_cst_36 : FVec F S_ .f32 := constant S_ .f32 0x7F800000#32
  let main_v95 : FVec F S1280 .f32 := broadcastInDim S1280 ![] bcast_S_S1280 main_cst_36
  let main_v96 : IVec S1280 1 := cmpf .olt main_v94 main_v95
  let main_c_37 : IVec S_ 1 := constantI S_ 1 1#1
  let main_v97 : IVec S_ 1 := (fun x v => Host.reduce IntOp.andi x v reducesTo_S1280_S_d0 h_S_) main_v96 main_c_37
  let main_v98 : IVec S_ 1 := andi main_v93 main_v97
  main_v98

def fn_part4 {F : FTy → Type} [FloatOps F] (main_arg16 : FVec F S128x1280 .f32) (main_arg17 : FVec F S1280 .f32) (main_arg18 : FVec F S1280x64 .f32) (main_arg19 : FVec F S64 .f32) (main_arg20 : FVec F S64x1280 .f32) (main_arg21 : FVec F S1280 .f32) (main_v63 : IVec S_ 1) (main_v67 : IVec S_ 1) : IVec S_ 1 :=
  let main_v68 : IVec S_ 1 := andi main_v63 main_v67
  let main_v69 : FVec F S128x1280 .f32 := Host.absf main_arg16
  let main_cst_26 : FVec F S_ .f32 := constant S_ .f32 0x7F800000#32
  let main_v70 : FVec F S128x1280 .f32 := broadcastInDim S128x1280 ![] bcast_S_S128x1280 main_cst_26
  let main_v71 : IVec S128x1280 1 := cmpf .olt main_v69 main_v70
  let main_c_27 : IVec S_ 1 := constantI S_ 1 1#1
  let main_v72 : IVec S_ 1 := (fun x v => Host.reduce IntOp.andi x v reducesTo_S128x1280_S_d0_1 h_S_) main_v71 main_c_27
  let main_v73 : IVec S_ 1 := andi main_v68 main_v72
  let main_v74 : FVec F S1280 .f32 := Host.absf main_arg17
  let main_cst_28 : FVec F S_ .f32 := constant S_ .f32 0x7F800000#32
  let main_v75 : FVec F S1280 .f32 := broadcastInDim S1280 ![] bcast_S_S1280 main_cst_28
  let main_v76 : IVec S1280 1 := cmpf .olt main_v74 main_v75
  let main_c_29 : IVec S_ 1 := constantI S_ 1 1#1
  let main_v77 : IVec S_ 1 := (fun x v => Host.reduce IntOp.andi x v reducesTo_S1280_S_d0 h_S_) main_v76 main_c_29
  let main_v78 : IVec S_ 1 := andi main_v73 main_v77
  let main_v79 : FVec F S1280x64 .f32 := Host.absf main_arg18
  let main_cst_30 : FVec F S_ .f32 := constant S_ .f32 0x7F800000#32
  let main_v80 : FVec F S1280x64 .f32 := broadcastInDim S1280x64 ![] bcast_S_S1280x64 main_cst_30
  let main_v81 : IVec S1280x64 1 := cmpf .olt main_v79 main_v80
  let main_c_31 : IVec S_ 1 := constantI S_ 1 1#1
  let main_v82 : IVec S_ 1 := (fun x v => Host.reduce IntOp.andi x v reducesTo_S1280x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S64 .f32) (main_arg14 : FVec F S64x1280 .f32) (main_arg15 : FVec F S1280 .f32) (main_arg16 : FVec F S128x1280 .f32) (main_arg17 : FVec F S1280 .f32) (main_arg18 : FVec F S1280x64 .f32) (main_arg19 : FVec F S64 .f32) (main_arg20 : FVec F S64x1280 .f32) (main_arg21 : FVec F S1280 .f32) (main_v48 : IVec S_ 1) (main_v49 : FVec F S1280x64 .f32) (main_v50 : FVec F S1280x64 .f32) : IVec S_ 1 :=
  let main_v51 : IVec S1280x64 1 := cmpf .olt main_v49 main_v50
  let main_c_19 : IVec S_ 1 := constantI S_ 1 1#1
  let main_v52 : IVec S_ 1 := (fun x v => Host.reduce IntOp.andi x v reducesTo_S1280x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1280 .f32 := Host.absf main_arg14
  let main_cst_22 : FVec F S_ .f32 := constant S_ .f32 0x7F800000#32
  let main_v60 : FVec F S64x1280 .f32 := broadcastInDim S64x1280 ![] bcast_S_S64x1280 main_cst_22
  let main_v61 : IVec S64x1280 1 := cmpf .olt main_v59 main_v60
  let main_c_23 : IVec S_ 1 := constantI S_ 1 1#1
  let main_v62 : IVec S_ 1 := (fun x v => Host.reduce IntOp.andi x v reducesTo_S64x1280_S_d0_1 h_S_) main_v61 main_c_23
  let main_v63 : IVec S_ 1 := andi main_v58 main_v62
  let main_v64 : FVec F S1280 .f32 := Host.absf main_arg15
  let main_cst_24 : FVec F S_ .f32 := constant S_ .f32 0x7F800000#32
  let main_v65 : FVec F S1280 .f32 := broadcastInDim S1280 ![] bcast_S_S1280 main_cst_24
  let main_v66 : IVec S1280 1 := cmpf .olt main_v64 main_v65
  let main_c_25 : IVec S_ 1 := constantI S_ 1 1#1
  let main_v67 : IVec S_ 1 := (fun x v => Host.reduce IntOp.andi x v reducesTo_S1280_S_d0 h_S_) main_v66 main_c_25
  fn_part4 (F := F) main_arg16 main_arg17 main_arg18 main_arg19 main_arg20 main_arg21 main_v63 main_v67

def fn_part2 {F : FTy → Type} [FloatOps F] (main_arg9 : FVec F S128 .f32) (main_arg10 : FVec F S128x1280 .f32) (main_arg11 : FVec F S1280 .f32) (main_arg12 : FVec F S1280x64 .f32) (main_arg13 : FVec F S64 .f32) (main_arg14 : FVec F S64x1280 .f32) (main_arg15 : FVec F S1280 .f32) (main_arg16 : FVec F S128x1280 .f32) (main_arg17 : FVec F S1280 .f32) (main_arg18 : FVec F S1280x64 .f32) (main_arg19 : FVec F S64 .f32) (main_arg20 : FVec F S64x1280 .f32) (main_arg21 : FVec F S1280 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1280 .f32 := Host.absf main_arg10
  let main_cst_14 : FVec F S_ .f32 := constant S_ .f32 0x7F800000#32
  let main_v40 : FVec F S128x1280 .f32 := broadcastInDim S128x1280 ![] bcast_S_S128x1280 main_cst_14
  let main_v41 : IVec S128x1280 1 := cmpf .olt main_v39 main_v40
  let main_c_15 : IVec S_ 1 := constantI S_ 1 1#1
  let main_v42 : IVec S_ 1 := (fun x v => Host.reduce IntOp.andi x v reducesTo_S128x1280_S_d0_1 h_S_) main_v41 main_c_15
  let main_v43 : IVec S_ 1 := andi main_v38 main_v42
  let main_v44 : FVec F S1280 .f32 := Host.absf main_arg11
  let main_cst_16 : FVec F S_ .f32 := constant S_ .f32 0x7F800000#32
  let main_v45 : FVec F S1280 .f32 := broadcastInDim S1280 ![] bcast_S_S1280 main_cst_16
  let main_v46 : IVec S1280 1 := cmpf .olt main_v44 main_v45
  let main_c_17 : IVec S_ 1 := constantI S_ 1 1#1
  let main_v47 : IVec S_ 1 := (fun x v => Host.reduce IntOp.andi x v reducesTo_S1280_S_d0 h_S_) main_v46 main_c_17
  let main_v48 : IVec S_ 1 := andi main_v43 main_v47
  let main_v49 : FVec F S1280x64 .f32 := Host.absf main_arg12
  let main_cst_18 : FVec F S_ .f32 := constant S_ .f32 0x7F800000#32
  let main_v50 : FVec F S1280x64 .f32 := broadcastInDim S1280x64 ![] bcast_S_S1280x64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S512x128 .f32) (main_arg7 : FVec F S128 .f32) (main_arg8 : FVec F S256x128 .f32) (main_arg9 : FVec F S128 .f32) (main_arg10 : FVec F S128x1280 .f32) (main_arg11 : FVec F S1280 .f32) (main_arg12 : FVec F S1280x64 .f32) (main_arg13 : FVec F S64 .f32) (main_arg14 : FVec F S64x1280 .f32) (main_arg15 : FVec F S1280 .f32) (main_arg16 : FVec F S128x1280 .f32) (main_arg17 : FVec F S1280 .f32) (main_arg18 : FVec F S1280x64 .f32) (main_arg19 : FVec F S64 .f32) (main_arg20 : FVec F S64x1280 .f32) (main_arg21 : FVec F S1280 .f32) (main_v13 : IVec S_ 1) (main_v16 : IVec S80000x128 1) : IVec S_ 1 :=
  let main_c_5 : IVec S_ 1 := constantI S_ 1 1#1
  let main_v17 : IVec S_ 1 := (fun x v => Host.reduce IntOp.andi x v reducesTo_S80000x128_S_d0_1 h_S_) main_v16 main_c_5
  let main_v18 : IVec S_ 1 := andi main_v13 main_v17
  let main_v19 : FVec F S512x128 .f32 := Host.absf main_arg6
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S80000x128 .f32) (main_arg1 : FVec F S40000x128 .f32) (main_arg2 : FVec F S80000x128 .f32) (main_arg3 : FVec F S80000x128 .f32) (main_arg4 : IVec S2000000 32) (main_arg5 : IVec S2000000 32) (main_arg6 : FVec F S512x128 .f32) (main_arg7 : FVec F S128 .f32) (main_arg8 : FVec F S256x128 .f32) (main_arg9 : FVec F S128 .f32) (main_arg10 : FVec F S128x1280 .f32) (main_arg11 : FVec F S1280 .f32) (main_arg12 : FVec F S1280x64 .f32) (main_arg13 : FVec F S64 .f32) (main_arg14 : FVec F S64x1280 .f32) (main_arg15 : FVec F S1280 .f32) (main_arg16 : FVec F S128x1280 .f32) (main_arg17 : FVec F S1280 .f32) (main_arg18 : FVec F S1280x64 .f32) (main_arg19 : FVec F S64 .f32) (main_arg20 : FVec F S64x1280 .f32) (main_arg21 : FVec F S1280 .f32) : IVec S_ 1 :=
  let main_v0 : FVec F S80000x128 .f32 := Host.absf main_arg0
  let main_cst : FVec F S_ .f32 := constant S_ .f32 0x7F800000#32
  let main_v1 : FVec F S80000x128 .f32 := broadcastInDim S80000x128 ![] bcast_S_S80000x128 main_cst
  let main_v2 : IVec S80000x128 1 := cmpf .olt main_v0 main_v1
  let main_c : IVec S_ 1 := constantI S_ 1 1#1
  let main_v3 : IVec S_ 1 := (fun x v => Host.reduce IntOp.andi x v reducesTo_S80000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S80000x128 .f32 := Host.absf main_arg2
  let main_cst_2 : FVec F S_ .f32 := constant S_ .f32 0x7F800000#32
  let main_v10 : FVec F S80000x128 .f32 := broadcastInDim S80000x128 ![] bcast_S_S80000x128 main_cst_2
  let main_v11 : IVec S80000x128 1 := cmpf .olt main_v9 main_v10
  let main_c_3 : IVec S_ 1 := constantI S_ 1 1#1
  let main_v12 : IVec S_ 1 := (fun x v => Host.reduce IntOp.andi x v reducesTo_S80000x128_S_d0_1 h_S_) main_v11 main_c_3
  let main_v13 : IVec S_ 1 := andi main_v8 main_v12
  let main_v14 : FVec F S80000x128 .f32 := Host.absf main_arg3
  let main_cst_4 : FVec F S_ .f32 := constant S_ .f32 0x7F800000#32
  let main_v15 : FVec F S80000x128 .f32 := broadcastInDim S80000x128 ![] bcast_S_S80000x128 main_cst_4
  let main_v16 : IVec S80000x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S80000x128 : Shape := ⟨2, ![80000, 128]⟩
abbrev S40000x128 : Shape := ⟨2, ![40000, 128]⟩
abbrev S2000000 : Shape := ⟨1, ![2000000]⟩
abbrev S512x128 : Shape := ⟨2, ![512, 128]⟩
abbrev S128 : Shape := ⟨1, ![128]⟩
abbrev S256x128 : Shape := ⟨2, ![256, 128]⟩
abbrev S128x1280 : Shape := ⟨2, ![128, 1280]⟩
abbrev S1280 : Shape := ⟨1, ![1280]⟩
abbrev S1280x64 : Shape := ⟨2, ![1280, 64]⟩
abbrev S64 : Shape := ⟨1, ![64]⟩
abbrev S64x1280 : Shape := ⟨2, ![64, 1280]⟩
abbrev S_ : Shape := ⟨0, ![]⟩
abbrev S2000000x1 : Shape := ⟨2, ![2000000, 1]⟩
abbrev S2000000x128 : Shape := ⟨2, ![2000000, 128]⟩
abbrev S64x128x10 : Shape := ⟨3, ![64, 128, 10]⟩
abbrev S64x10x128 : Shape := ⟨3, ![64, 10, 128]⟩
abbrev S128x10 : Shape := ⟨2, ![128, 10]⟩
abbrev S10x128 : Shape := ⟨2, ![10, 128]⟩
abbrev S1x128 : Shape := ⟨2, ![1, 128]⟩
abbrev S1x1280 : Shape := ⟨2, ![1, 1280]⟩
abbrev S1x64 : Shape := ⟨2, ![1, 64]⟩
abbrev S80000x1280 : Shape := ⟨2, ![80000, 1280]⟩
abbrev S800x128 : Shape := ⟨2, ![800, 128]⟩
abbrev S800x1280 : Shape := ⟨2, ![800, 1280]⟩
abbrev S800x512 : Shape := ⟨2, ![800, 512]⟩
abbrev S800x64 : Shape := ⟨2, ![800, 64]⟩
abbrev S800 : Shape := ⟨1, ![800]⟩
abbrev S800x1 : Shape := ⟨2, ![800, 1]⟩
abbrev S40000x1280 : Shape := ⟨2, ![40000, 1280]⟩
abbrev S800x256 : Shape := ⟨2, ![800, 256]⟩
abbrev S800x10x128 : Shape := ⟨3, ![800, 10, 128]⟩
abbrev S800x10 : Shape := ⟨2, ![800, 10]⟩
abbrev S800x10x1 : Shape := ⟨3, ![800, 10, 1]⟩
abbrev S800x128x10 : Shape := ⟨3, ![800, 128, 10]⟩
abbrev S80000x128x10 : Shape := ⟨3, ![80000, 128, 10]⟩
abbrev S40000x10x128 : Shape := ⟨3, ![40000, 10, 128]⟩
abbrev S800x1x128 : Shape := ⟨3, ![800, 1, 128]⟩

abbrev nBuf : Space → Nat
  | .hbm => 79
  | .vmem => 44
  | .smem => 0
  | _ => 0

abbrev bufTy : (tb : Table) → Fin (tcTables nBuf tb) → BufTy
  | .hbm, ⟨0, _⟩ => ⟨S80000x128, .f32⟩
  | .hbm, ⟨1, _⟩ => ⟨S40000x128, .f32⟩
  | .hbm, ⟨2, _⟩ => ⟨S80000x128, .f32⟩
  | .hbm, ⟨3, _⟩ => ⟨S80000x128, .f32⟩
  | .hbm, ⟨4, _⟩ => ⟨S2000000, .i32⟩
  | .hbm, ⟨5, _⟩ => ⟨S2000000, .i32⟩
  | .hbm, ⟨6, _⟩ => ⟨S512x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x1280, .f32⟩
  | .hbm, ⟨11, _⟩ => ⟨S1280, .f32⟩
  | .hbm, ⟨12, _⟩ => ⟨S1280x64, .f32⟩
  | .hbm, ⟨13, _⟩ => ⟨S64, .f32⟩
  | .hbm, ⟨14, _⟩ => ⟨S64x1280, .f32⟩
  | .hbm, ⟨15, _⟩ => ⟨S1280, .f32⟩
  | .hbm, ⟨16, _⟩ => ⟨S128x1280, .f32⟩
  | .hbm, ⟨17, _⟩ => ⟨S1280, .f32⟩
  | .hbm, ⟨18, _⟩ => ⟨S1280x64, .f32⟩
  | .hbm, ⟨19, _⟩ => ⟨S64, .f32⟩
  | .hbm, ⟨20, _⟩ => ⟨S64x1280, .f32⟩
  | .hbm, ⟨21, _⟩ => ⟨S1280, .f32⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000x128, .f32⟩
  | .hbm, ⟨31, _⟩ => ⟨S_, .f32⟩
  | .hbm, ⟨32, _⟩ => ⟨S80000x128, .f32⟩
  | .hbm, ⟨33, _⟩ => ⟨S2000000x1, .i32⟩
  | .hbm, ⟨34, _⟩ => ⟨S80000x128, .f32⟩
  | .hbm, ⟨35, _⟩ => ⟨S80000x128, .f32⟩
  | .hbm, ⟨36, _⟩ => ⟨S_, .f32⟩
  | .hbm, ⟨37, _⟩ => ⟨S80000x128, .f32⟩
  | .hbm, ⟨38, _⟩ => ⟨S80000x128, .f32⟩
  | .hbm, ⟨39, _⟩ => ⟨S_, .i32⟩
  | .hbm, ⟨40, _⟩ => ⟨S2000000, .i32⟩
  | .hbm, ⟨41, _⟩ => ⟨S2000000, .i1⟩
  | .hbm, ⟨42, _⟩ => ⟨S_, .i32⟩
  | .hbm, ⟨43, _⟩ => ⟨S2000000, .i32⟩
  | .hbm, ⟨44, _⟩ => ⟨S2000000, .i32⟩
  | .hbm, ⟨45, _⟩ => ⟨S2000000, .i32⟩
  | .hbm, ⟨46, _⟩ => ⟨S2000000x1, .i32⟩
  | .hbm, ⟨47, _⟩ => ⟨S2000000x128, .f32⟩
  | .hbm, ⟨48, _⟩ => ⟨S_, .f32⟩
  | .hbm, ⟨49, _⟩ => ⟨S40000x128, .f32⟩
  | .hbm, ⟨50, _⟩ => ⟨S2000000x1, .i32⟩
  | .hbm, ⟨51, _⟩ => ⟨S40000x128, .f32⟩
  | .hbm, ⟨52, _⟩ => ⟨S64x128x10, .f32⟩
  | .hbm, ⟨53, _⟩ => ⟨S64x10x128, .f32⟩
  | .hbm, ⟨54, _⟩ => ⟨S64x1280, .f32⟩
  | .hbm, ⟨55, _⟩ => ⟨S128x10, .f32⟩
  | .hbm, ⟨56, _⟩ => ⟨S10x128, .f32⟩
  | .hbm, ⟨57, _⟩ => ⟨S1280, .f32⟩
  | .hbm, ⟨58, _⟩ => ⟨S1x128, .f32⟩
  | .hbm, ⟨59, _⟩ => ⟨S1x128, .f32⟩
  | .hbm, ⟨60, _⟩ => ⟨S1x1280, .f32⟩
  | .hbm, ⟨61, _⟩ => ⟨S1x64, .f32⟩
  | .hbm, ⟨62, _⟩ => ⟨S1x1280, .f32⟩
  | .hbm, ⟨63, _⟩ => ⟨S1x1280, .f32⟩
  | .hbm, ⟨64, _⟩ => ⟨S1x64, .f32⟩
  | .hbm, ⟨65, _⟩ => ⟨S1x1280, .f32⟩
  | .hbm, ⟨66, _⟩ => ⟨S80000x1280, .f32⟩
  | .hbm, ⟨67, _⟩ => ⟨S1x1280, .f32⟩
  | .hbm, ⟨68, _⟩ => ⟨S40000x1280, .f32⟩
  | .hbm, ⟨69, _⟩ => ⟨S1x1280, .f32⟩
  | .hbm, ⟨70, _⟩ => ⟨S_, .f32⟩
  | .hbm, ⟨71, _⟩ => ⟨S1x1280, .f32⟩
  | .hbm, ⟨72, _⟩ => ⟨S1x1280, .f32⟩
  | .hbm, ⟨73, _⟩ => ⟨S_, .f32⟩
  | .hbm, ⟨74, _⟩ => ⟨S1x1280, .f32⟩
  | .hbm, ⟨75, _⟩ => ⟨S1x1280, .f32⟩
  | .hbm, ⟨76, _⟩ => ⟨S80000x1280, .f32⟩
  | .hbm, ⟨77, _⟩ => ⟨S80000x128x10, .f32⟩
  | .hbm, ⟨78, _⟩ => ⟨S40000x10x128, .f32⟩
  | .local _ .vmem, ⟨0, _⟩ => ⟨S800x128, .f32⟩
  | .local _ .vmem, ⟨1, _⟩ => ⟨S800x128, .f32⟩
  | .local _ .vmem, ⟨2, _⟩ => ⟨S800x128, .f32⟩
  | .local _ .vmem, ⟨3, _⟩ => ⟨S800x128, .f32⟩
  | .local _ .vmem, ⟨4, _⟩ => ⟨S800x128, .f32⟩
  | .local _ .vmem, ⟨5, _⟩ => ⟨S800x128, .f32⟩
  | .local _ .vmem, ⟨6, _⟩ => ⟨S800x128, .f32⟩
  | .local _ .vmem, ⟨7, _⟩ => ⟨S800x128, .f32⟩
  | .local _ .vmem, ⟨8, _⟩ => ⟨S512x128, .f32⟩
  | .local _ .vmem, ⟨9, _⟩ => ⟨S1x128, .f32⟩
  | .local _ .vmem, ⟨10, _⟩ => ⟨S128x1280, .f32⟩
  | .local _ .vmem, ⟨11, _⟩ => ⟨S1x1280, .f32⟩
  | .local _ .vmem, ⟨12, _⟩ => ⟨S1280x64, .f32⟩
  | .local _ .vmem, ⟨13, _⟩ => ⟨S1x64, .f32⟩
  | .local _ .vmem, ⟨14, _⟩ => ⟨S64x1280, .f32⟩
  | .local _ .vmem, ⟨15, _⟩ => ⟨S1x1280, .f32⟩
  | .local _ .vmem, ⟨16, _⟩ => ⟨S800x1280, .f32⟩
  | .local _ .vmem, ⟨17, _⟩ => ⟨S800x1280, .f32⟩
  | .local _ .vmem, ⟨18, _⟩ => ⟨S1x1280, .f32⟩
  | .local _ .vmem, ⟨19, _⟩ => ⟨S800x128, .f32⟩
  | .local _ .vmem, ⟨20, _⟩ => ⟨S800x128, .f32⟩
  | .local _ .vmem, ⟨21, _⟩ => ⟨S800x128, .f32⟩
  | .local _ .vmem, ⟨22, _⟩ => ⟨S800x128, .f32⟩
  | .local _ .vmem, ⟨23, _⟩ => ⟨S256x128, .f32⟩
  | .local _ .vmem, ⟨24, _⟩ => ⟨S1x128, .f32⟩
  | .local _ .vmem, ⟨25, _⟩ => ⟨S128x1280, .f32⟩
  | .local _ .vmem, ⟨26, _⟩ => ⟨S1x1280, .f32⟩
  | .local _ .vmem, ⟨27, _⟩ => ⟨S1280x64, .f32⟩
  | .local _ .vmem, ⟨28, _⟩ => ⟨S1x64, .f32⟩
  | .local _ .vmem, ⟨29, _⟩ => ⟨S64x1280, .f32⟩
  | .local _ .vmem, ⟨30, _⟩ => ⟨S1x1280, .f32⟩
  | .local _ .vmem, ⟨31, _⟩ => ⟨S800x1280, .f32⟩
  | .local _ .vmem, ⟨32, _⟩ => ⟨S800x1280, .f32⟩
  | .local _ .vmem, ⟨33, _⟩ => ⟨S1x1280, .f32⟩
  | .local _ .vmem, ⟨34, _⟩ => ⟨S800x1280, .f32⟩
  | .local _ .vmem, ⟨35, _⟩ => ⟨S800x1280, .f32⟩
  | .local _ .vmem, ⟨36, _⟩ => ⟨S1x1280, .f32⟩
  | .local _ .vmem, ⟨37, _⟩ => ⟨S800x1280, .f32⟩
  | .local _ .vmem, ⟨38, _⟩ => ⟨S800x1280, .f32⟩
  | .local _ .vmem, ⟨39, _⟩ => ⟨S800x1280, .f32⟩
  | .local _ .vmem, ⟨40, _⟩ => ⟨S800x1280, .f32⟩
  | .local _ .vmem, ⟨41, _⟩ => ⟨S1x1280, .f32⟩
  | .local _ .vmem, ⟨42, _⟩ => ⟨S800x10x128, .f32⟩
  | .local _ .vmem, ⟨43, _⟩ => ⟨S800x10x128, .f32⟩
  | _, _ => ⟨S80000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37_0 : Ref sig .tc := ⟨.hbm, 66, rfl⟩
abbrev main_v37_1 : Ref sig .tc := ⟨.hbm, 67, rfl⟩
abbrev main_v38_0 : Ref sig .tc := ⟨.hbm, 68, rfl⟩
abbrev main_v38_1 : Ref sig .tc := ⟨.hbm, 69, rfl⟩
abbrev main_cst_5 : Ref sig .tc := ⟨.hbm, 70, rfl⟩
abbrev main_v39 : Ref sig .tc := ⟨.hbm, 71, rfl⟩
abbrev main_v40 : Ref sig .tc := ⟨.hbm, 72, rfl⟩
abbrev main_cst_6 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg2_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg2_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem10_1 : DmaSem sig := 32
abbrev cc1_sem11_0 : DmaSem sig := 33
abbrev cc2_sem0_0 : DmaSem sig := 34
abbrev cc2_sem0_1 : DmaSem sig := 35
abbrev cc2_sem1_0 : DmaSem sig := 36
abbrev cc2_sem2_0 : DmaSem sig := 37
abbrev cc2_sem2_1 : DmaSem sig := 38
abbrev cc3_sem0_0 : DmaSem sig := 39
abbrev cc3_sem0_1 : DmaSem sig := 40
abbrev cc3_sem1_0 : DmaSem sig := 41
abbrev cc3_sem2_0 : DmaSem sig := 42
abbrev cc3_sem2_1 : DmaSem sig := 43

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S800x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1280x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S800x1280 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S800x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S800x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1280 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1280 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1280x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x1280 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1280 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S800x1280 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1x1280 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S800x1280 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1280 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S800x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S800x1280 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1280 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S800x10x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S80000x128 : S_.BroadcastsInDim S80000x128 (![] : Fin 0 → Fin S80000x128.rank)
  bcast_S_S40000x128 : S_.BroadcastsInDim S40000x128 (![] : Fin 0 → Fin S40000x128.rank)
  shapeCasts_S64x1280_S64x128x10 : S64x1280.ShapeCasts S64x128x10
  transposes_S64x128x10_S64x10x128_0_2_1 : S64x128x10.Transposes [0, 2, 1] S64x10x128
  shapeCasts_S64x10x128_S64x1280 : S64x10x128.ShapeCasts S64x1280
  shapeCasts_S1280_S128x10 : S1280.ShapeCasts S128x10
  transposes_S128x10_S10x128_1_0 : S128x10.Transposes [1, 0] S10x128
  shapeCasts_S10x128_S1280 : S10x128.ShapeCasts S1280
  shapeCasts_S128_S1x128 : S128.ShapeCasts S1x128
  shapeCasts_S1280_S1x1280 : S1280.ShapeCasts S1x1280
  shapeCasts_S64_S1x64 : S64.ShapeCasts S1x64
  inb_S1x1280_S1x1280_0_0 : ∀ a, (![0, 0] : Fin 2 → Nat) a + S1x1280.size a ≤ S1x1280.size a
  h_S1x1280 : 0 < S1x1280.numel
  inb_S800x128_S800x128_0_0 : ∀ a, (![0, 0] : Fin 2 → Nat) a + S800x128.size a ≤ S800x128.size a
  h_S800x128 : 0 < S800x128.numel
  shapeCasts_S800x128_S800x128 : S800x128.ShapeCasts S800x128
  concatenates_S800x128_S800x128_S800x128_S800x128_S800x512_d1 : Shape.Concatenates [S800x128, S800x128, S800x128, S800x128] S800x512 1
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S800x128 : S1x128.Broadcasts S800x128
  inb_S128x1280_S128x1280_0_0 : ∀ a, (![0, 0] : Fin 2 → Nat) a + S128x1280.size a ≤ S128x1280.size a
  h_S128x1280 : 0 < S128x1280.numel
  shapeCasts_S1x1280_S1x1280 : S1x1280.ShapeCasts S1x1280
  broadcasts_S1x1280_S800x1280 : S1x1280.Broadcasts S800x1280
  inb_S1280x64_S1280x64_0_0 : ∀ a, (![0, 0] : Fin 2 → Nat) a + S1280x64.size a ≤ S1280x64.size a
  h_S1280x64 : 0 < S1280x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S800x64 : S1x64.Broadcasts S800x64
  inb_S64x1280_S64x1280_0_0 : ∀ a, (![0, 0] : Fin 2 → Nat) a + S64x1280.size a ≤ S64x1280.size a
  h_S64x1280 : 0 < S64x1280.numel
  shapeCasts_S64x1280_S64x1280 : S64x1280.ShapeCasts S64x1280
  reduces_S800x1280_S800 : S800x1280.Reduces [1] S800
  shapeCasts_S800_S800x1 : S800.ShapeCasts S800x1
  broadcasts_S800x1_S800x1280 : S800x1.Broadcasts S800x1280
  inb_S800x1280_S800x1280_0_0 : ∀ a, (![0, 0] : Fin 2 → Nat) a + S800x1280.size a ≤ S800x1280.size a
  h_S800x1280 : 0 < S800x1280.numel
  reduces_S800x1280_S1280 : S800x1280.Reduces [0] S1280
  concatenates_S800x128_S800x128_S800x256_d1 : Shape.Concatenates [S800x128, S800x128] S800x256 1
  inb_S256x128_S256x128_0_0 : ∀ a, (![0, 0] : Fin 2 → Nat) a + S256x128.size a ≤ S256x128.size a
  h_S256x128 : 0 < S256x128.numel
  bcast_S_S1x1280 : S_.BroadcastsInDim S1x1280 (![] : Fin 0 → Fin S1x1280.rank)
  shapeCasts_S800x1280_S800x1280 : S800x1280.ShapeCasts S800x1280
  shapeCasts_S800x1280_S800x10x128 : S800x1280.ShapeCasts S800x10x128
  reduces_S800x10x128_S800x10 : S800x10x128.Reduces [2] S800x10
  shapeCasts_S800x10_S800x10x1 : S800x10.ShapeCasts S800x10x1
  broadcasts_S800x10x1_S800x10x128 : S800x10x1.Broadcasts S800x10x128
  transposes_S800x10x128_p0_2_1_S800x128x10 : S800x10x128.Transposes [0, 2, 1] S800x128x10
  shapeCasts_S800x128x10_S800x1280 : S800x128x10.ShapeCasts S800x1280
  shapeCasts_S80000x1280_S80000x128x10 : S80000x1280.ShapeCasts S80000x128x10
  reduces_S800x10x128_S800x128 : S800x10x128.Reduces [1] S800x128
  shapeCasts_S800x128_S800x1x128 : S800x128.ShapeCasts S800x1x128
  broadcasts_S800x1x128_S800x10x128 : S800x1x128.Broadcasts S800x10x128
  inb_S800x10x128_S800x10x128_0_0_0 : ∀ a, (![0, 0, 0] : Fin 3 → Nat) a + S800x10x128.size a ≤ S800x10x128.size a
  h_S800x10x128 : 0 < S800x10x128.numel
  gather_S40000x128_S2000000x1_S2000000x128_1_0_n_n_0_1_1128_wf : GatherDims.WF S40000x128 S2000000x1 S2000000x128 [1] [0] [] [0] [] 1 ![1, 128]
  scatter_S80000x128_S2000000x1_S2000000x128_1_0_0_1_wf : ScatterDims.WF S80000x128 S2000000x1 S2000000x128 [1] [0] [0] 1
  gather_S80000x128_S2000000x1_S2000000x128_1_0_n_n_0_1_1128_wf : GatherDims.WF S80000x128 S2000000x1 S2000000x128 [1] [0] [] [0] [] 1 ![1, 128]
  scatter_S40000x128_S2000000x1_S2000000x128_1_0_0_1_wf : ScatterDims.WF S40000x128 S2000000x1 S2000000x128 [1] [0] [0] 1
  dot_S800x512_S512x128_S800x128_1_0_0_1_n_n_wf : DotDims.WF S800x512 S512x128 S800x128 [1] [0] [0] [1] [] []
  dot_S800x128_S128x1280_S800x1280_1_0_0_1_n_n_wf : DotDims.WF S800x128 S128x1280 S800x1280 [1] [0] [0] [1] [] []
  dot_S800x1280_S1280x64_S800x64_1_0_0_1_n_n_wf : DotDims.WF S800x1280 S1280x64 S800x64 [1] [0] [0] [1] [] []
  dot_S800x64_S64x1280_S800x1280_1_0_0_1_n_n_wf : DotDims.WF S800x64 S64x1280 S800x1280 [1] [0] [0] [1] [] []
  dot_S800x256_S256x128_S800x128_1_0_0_1_n_n_wf : DotDims.WF S800x256 S256x128 S800x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x128.size a ≤ S80000x128.size a
  hwx0_0 : ∀ i : grid0.Coords, EltTy.bits .f32 = 32 ∨ (Rect.block (s := S80000x128) S800x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x128.size a ≤ S80000x128.size a
  hwx0_1 : ∀ i : grid0.Coords, EltTy.bits .f32 = 32 ∨ (Rect.block (s := S80000x128) S800x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x128.size a ≤ S80000x128.size a
  hwx0_2 : ∀ i : grid0.Coords, EltTy.bits .f32 = 32 ∨ (Rect.block (s := S80000x128) S800x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S800x128.size a ≤ S80000x128.size a
  hwx0_3 : ∀ i : grid0.Coords, EltTy.bits .f32 = 32 ∨ (Rect.block (s := S80000x128) S800x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1280.size a ≤ S128x1280.size a
  hwx0_6 : ∀ i : grid0.Coords, EltTy.bits .f32 = 32 ∨ (Rect.block (s := S128x1280) S128x1280.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1280.size a ≤ S1x1280.size a
  hwx0_7 : ∀ i : grid0.Coords, EltTy.bits .f32 = 32 ∨ (Rect.block (s := S1x1280) S1x1280.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1280x64.size a ≤ S1280x64.size a
  hwx0_8 : ∀ i : grid0.Coords, EltTy.bits .f32 = 32 ∨ (Rect.block (s := S1280x64) S1280x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x1280.size a ≤ S64x1280.size a
  hwx0_10 : ∀ i : grid0.Coords, EltTy.bits .f32 = 32 ∨ (Rect.block (s := S64x1280) S64x1280.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1280.size a ≤ S1x1280.size a
  hwx0_11 : ∀ i : grid0.Coords, EltTy.bits .f32 = 32 ∨ (Rect.block (s := S1x1280) S1x1280.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S800x1280.size a ≤ S80000x1280.size a
  hwx0_12 : ∀ i : grid0.Coords, EltTy.bits .f32 = 32 ∨ (Rect.block (s := S80000x1280) S800x1280.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1280.size a ≤ S1x1280.size a
  hwx0_13 : ∀ i : grid0.Coords, EltTy.bits .f32 = 32 ∨ (Rect.block (s := S1x1280) S1x1280.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S800x128.size a ≤ S40000x128.size a
  hwx1_0 : ∀ i : grid1.Coords, EltTy.bits .f32 = 32 ∨ (Rect.block (s := S40000x128) S800x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S800x128.size a ≤ S40000x128.size a
  hwx1_1 : ∀ i : grid1.Coords, EltTy.bits .f32 = 32 ∨ (Rect.block (s := S40000x128) S800x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1280.size a ≤ S128x1280.size a
  hwx1_4 : ∀ i : grid1.Coords, EltTy.bits .f32 = 32 ∨ (Rect.block (s := S128x1280) S128x1280.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1280.size a ≤ S1x1280.size a
  hwx1_5 : ∀ i : grid1.Coords, EltTy.bits .f32 = 32 ∨ (Rect.block (s := S1x1280) S1x1280.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1280x64.size a ≤ S1280x64.size a
  hwx1_6 : ∀ i : grid1.Coords, EltTy.bits .f32 = 32 ∨ (Rect.block (s := S1280x64) S1280x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x1280.size a ≤ S64x1280.size a
  hwx1_8 : ∀ i : grid1.Coords, EltTy.bits .f32 = 32 ∨ (Rect.block (s := S64x1280) S64x1280.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1280.size a ≤ S1x1280.size a
  hwx1_9 : ∀ i : grid1.Coords, EltTy.bits .f32 = 32 ∨ (Rect.block (s := S1x1280) S1x1280.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S800x1280.size a ≤ S40000x1280.size a
  hwx1_10 : ∀ i : grid1.Coords, EltTy.bits .f32 = 32 ∨ (Rect.block (s := S40000x1280) S800x1280.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1280.size a ≤ S1x1280.size a
  hwx1_11 : ∀ i : grid1.Coords, EltTy.bits .f32 = 32 ∨ (Rect.block (s := S1x1280) S1x1280.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S800x1280.size a ≤ S80000x1280.size a
  hwx2_0 : ∀ i : grid2.Coords, EltTy.bits .f32 = 32 ∨ (Rect.block (s := S80000x1280) S800x1280.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1280.size a ≤ S1x1280.size a
  hwx2_1 : ∀ i : grid2.Coords, EltTy.bits .f32 = 32 ∨ (Rect.block (s := S1x1280) S1x1280.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S800x1280.size a ≤ S80000x1280.size a
  hwx2_2 : ∀ i : grid2.Coords, EltTy.bits .f32 = 32 ∨ (Rect.block (s := S80000x1280) S800x1280.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S800x1280.size a ≤ S40000x1280.size a
  hwx3_0 : ∀ i : grid3.Coords, EltTy.bits .f32 = 32 ∨ (Rect.block (s := S40000x1280) S800x1280.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1280.size a ≤ S1x1280.size a
  hwx3_1 : ∀ i : grid3.Coords, EltTy.bits .f32 = 32 ∨ (Rect.block (s := S1x1280) S1x1280.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S800x10x128.size a ≤ S40000x10x128.size a
  hwx3_2 : ∀ i : grid3.Coords, EltTy.bits .f32 = 32 ∨ (Rect.block (s := S40000x10x128) S800x10x128.size (cc3_transform_2 i) (hinb3_2 i)).WholeWords (EltTy.packing .f32)

variable [Facts₀]

def gather_S40000x128_S2000000x1_S2000000x128_1_0_n_n_0_1_1128 : GatherDims S40000x128 S2000000x1 S2000000x128 where
  offsetDims := [1]
  collapsedSliceDims := [0]
  operandBatchingDims := []
  startIndicesBatchingDims := []
  startIndexMap := [0]
  indexVectorDim := 1
  sliceSizes := ![1, 128]
  wf := gather_S40000x128_S2000000x1_S2000000x128_1_0_n_n_0_1_1128_wf
def scatter_S80000x128_S2000000x1_S2000000x128_1_0_0_1 : ScatterDims S80000x128 S2000000x1 S2000000x128 where
  updateWindowDims := [1]
  insertedWindowDims := [0]
  scatterDimsToOperandDims := [0]
  indexVectorDim := 1
  wf := scatter_S80000x128_S2000000x1_S2000000x128_1_0_0_1_wf
def gather_S80000x128_S2000000x1_S2000000x128_1_0_n_n_0_1_1128 : GatherDims S80000x128 S2000000x1 S2000000x128 where
  offsetDims := [1]
  collapsedSliceDims := [0]
  operandBatchingDims := []
  startIndicesBatchingDims := []
  startIndexMap := [0]
  indexVectorDim := 1
  sliceSizes := ![1, 128]
  wf := gather_S80000x128_S2000000x1_S2000000x128_1_0_n_n_0_1_1128_wf
def scatter_S40000x128_S2000000x1_S2000000x128_1_0_0_1 : ScatterDims S40000x128 S2000000x1 S2000000x128 where
  updateWindowDims := [1]
  insertedWindowDims := [0]
  scatterDimsToOperandDims := [0]
  indexVectorDim := 1
  wf := scatter_S40000x128_S2000000x1_S2000000x128_1_0_0_1_wf
def dot_S800x512_S512x128_S800x128_1_0_0_1_n_n : DotDims S800x512 S512x128 S800x128 where
  lhsContracting := [1]
  rhsContracting := [0]
  lhsNonContracting := [0]
  rhsNonContracting := [1]
  lhsBatch := []
  rhsBatch := []
  wf := dot_S800x512_S512x128_S800x128_1_0_0_1_n_n_wf
def dot_S800x128_S128x1280_S800x1280_1_0_0_1_n_n : DotDims S800x128 S128x1280 S800x1280 where
  lhsContracting := [1]
  rhsContracting := [0]
  lhsNonContracting := [0]
  rhsNonContracting := [1]
  lhsBatch := []
  rhsBatch := []
  wf := dot_S800x128_S128x1280_S800x1280_1_0_0_1_n_n_wf
def dot_S800x1280_S1280x64_S800x64_1_0_0_1_n_n : DotDims S800x1280 S1280x64 S800x64 where
  lhsContracting := [1]
  rhsContracting := [0]
  lhsNonContracting := [0]
  rhsNonContracting := [1]
  lhsBatch := []
  rhsBatch := []
  wf := dot_S800x1280_S1280x64_S800x64_1_0_0_1_n_n_wf
def dot_S800x64_S64x1280_S800x1280_1_0_0_1_n_n : DotDims S800x64 S64x1280 S800x1280 where
  lhsContracting := [1]
  rhsContracting := [0]
  lhsNonContracting := [0]
  rhsNonContracting := [1]
  lhsBatch := []
  rhsBatch := []
  wf := dot_S800x64_S64x1280_S800x1280_1_0_0_1_n_n_wf
def dot_S800x256_S256x128_S800x128_1_0_0_1_n_n : DotDims S800x256 S256x128 S800x128 where
  lhsContracting := [1]
  rhsContracting := [0]
  lhsNonContracting := [0]
  rhsNonContracting := [1]
  lhsBatch := []
  rhsBatch := []
  wf := dot_S800x256_S256x128_S800x128_1_0_0_1_n_n_wf

abbrev win0_0 : Pipeline.Window sig grid0 :=
  Pipeline.Window.ofSpec (Memref.whole main_arg0) S800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S800x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S800x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S800x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128x1280.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S1x1280.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S1280x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S64x1280.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v33) S1x1280.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v37_0) S800x1280.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v37_1) S1x1280.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg1) S800x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S800x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg16) S128x1280.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x1280.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg18) S1280x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg20) S64x1280.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S1x1280.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v38_0) S800x1280.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v38_1) S1x1280.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v37_0) S800x1280.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x1280.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S800x1280.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38_0) S800x1280.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1x1280.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S800x10x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S80000x128 : Shape := ⟨2, ![80000, 128]⟩
abbrev S40000x128 : Shape := ⟨2, ![40000, 128]⟩
abbrev S2000000 : Shape := ⟨1, ![2000000]⟩
abbrev S512x128 : Shape := ⟨2, ![512, 128]⟩
abbrev S128 : Shape := ⟨1, ![128]⟩
abbrev S256x128 : Shape := ⟨2, ![256, 128]⟩
abbrev S128x1280 : Shape := ⟨2, ![128, 1280]⟩
abbrev S1280 : Shape := ⟨1, ![1280]⟩
abbrev S1280x64 : Shape := ⟨2, ![1280, 64]⟩
abbrev S64 : Shape := ⟨1, ![64]⟩
abbrev S64x1280 : Shape := ⟨2, ![64, 1280]⟩
abbrev S_ : Shape := ⟨0, ![]⟩
abbrev S2000000x1 : Shape := ⟨2, ![2000000, 1]⟩
abbrev S2000000x128 : Shape := ⟨2, ![2000000, 128]⟩
abbrev S80000x512 : Shape := ⟨2, ![80000, 512]⟩
abbrev S1x128 : Shape := ⟨2, ![1, 128]⟩
abbrev S40000x256 : Shape := ⟨2, ![40000, 256]⟩
abbrev S80000x1280 : Shape := ⟨2, ![80000, 1280]⟩
abbrev S1x1280 : Shape := ⟨2, ![1, 1280]⟩
abbrev S80000x64 : Shape := ⟨2, ![80000, 64]⟩
abbrev S1x64 : Shape := ⟨2, ![1, 64]⟩
abbrev S80000 : Shape := ⟨1, ![80000]⟩
abbrev S80000x1 : Shape := ⟨2, ![80000, 1]⟩
abbrev S80000x128x10 : Shape := ⟨3, ![80000, 128, 10]⟩
abbrev S40000x1280 : Shape := ⟨2, ![40000, 1280]⟩
abbrev S40000x64 : Shape := ⟨2, ![40000, 64]⟩
abbrev S40000 : Shape := ⟨1, ![40000]⟩
abbrev S40000x1 : Shape := ⟨2, ![40000, 1]⟩
abbrev S40000x10x128 : Shape := ⟨3, ![40000, 10, 128]⟩
abbrev S128x10 : Shape := ⟨2, ![128, 10]⟩
abbrev S10x128 : Shape := ⟨2, ![10, 128]⟩
abbrev S1x128x10 : Shape := ⟨3, ![1, 128, 10]⟩
abbrev S80000x10 : Shape := ⟨2, ![80000, 10]⟩
abbrev S80000x1x10 : Shape := ⟨3, ![80000, 1, 10]⟩
abbrev S1x10x128 : Shape := ⟨3, ![1, 10, 128]⟩
abbrev S40000x1x128 : Shape := ⟨3, ![40000, 1, 128]⟩

abbrev nBuf : Space → Nat
  | .hbm => 156
  | .vmem => 0
  | .smem => 0
  | _ => 0

abbrev hbmTy0_0 (i : Nat) : BufTy := match i % 128 with
  | 0 => ⟨S80000x128, .f32⟩
  | 1 => ⟨S40000x128, .f32⟩
  | 2 => ⟨S80000x128, .f32⟩
  | 3 => ⟨S80000x128, .f32⟩
  | 4 => ⟨S2000000, .i32⟩
  | 5 => ⟨S2000000, .i32⟩
  | 6 => ⟨S512x128, .f32⟩
  | 7 => ⟨S128, .f32⟩
  | 8 => ⟨S256x128, .f32⟩
  | 9 => ⟨S128, .f32⟩
  | 10 => ⟨S128x1280, .f32⟩
  | 11 => ⟨S1280, .f32⟩
  | 12 => ⟨S1280x64, .f32⟩
  | 13 => ⟨S64, .f32⟩
  | 14 => ⟨S64x1280, .f32⟩
  | 15 => ⟨S1280, .f32⟩
  | 16 => ⟨S128x1280, .f32⟩
  | 17 => ⟨S1280, .f32⟩
  | 18 => ⟨S1280x64, .f32⟩
  | 19 => ⟨S64, .f32⟩
  | 20 => ⟨S64x1280, .f32⟩
  | 21 => ⟨S1280, .f32⟩
  | 22 => ⟨S_, .i32⟩
  | 23 => ⟨S2000000, .i32⟩
  | 24 => ⟨S2000000, .i1⟩
  | 25 => ⟨S_, .i32⟩
  | 26 => ⟨S2000000, .i32⟩
  | 27 => ⟨S2000000, .i32⟩
  | 28 => ⟨S2000000, .i32⟩
  | 29 => ⟨S2000000x1, .i32⟩
  | 30 => ⟨S2000000x128, .f32⟩
  | 31 => ⟨S_, .f32⟩
  | 32 => ⟨S80000x128, .f32⟩
  | 33 => ⟨S2000000x1, .i32⟩
  | 34 => ⟨S80000x128, .f32⟩
  | 35 => ⟨S80000x512, .f32⟩
  | 36 => ⟨S80000x128, .f32⟩
  | 37 => ⟨S1x128, .f32⟩
  | 38 => ⟨S80000x128, .f32⟩
  | 39 => ⟨S80000x128, .f32⟩
  | 40 => ⟨S80000x128, .f32⟩
  | 41 => ⟨S_, .f32⟩
  | 42 => ⟨S80000x128, .f32⟩
  | 43 => ⟨S80000x128, .f32⟩
  | 44 => ⟨S_, .i32⟩
  | 45 => ⟨S2000000, .i32⟩
  | 46 => ⟨S2000000, .i1⟩
  | 47 => ⟨S_, .i32⟩
  | 48 => ⟨S2000000, .i32⟩
  | 49 => ⟨S2000000, .i32⟩
  | 50 => ⟨S2000000, .i32⟩
  | 51 => ⟨S2000000x1, .i32⟩
  | 52 => ⟨S2000000x128, .f32⟩
  | 53 => ⟨S_, .f32⟩
  | 54 => ⟨S40000x128, .f32⟩
  | 55 => ⟨S2000000x1, .i32⟩
  | 56 => ⟨S40000x128, .f32⟩
  | 57 => ⟨S40000x256, .f32⟩
  | 58 => ⟨S40000x128, .f32⟩
  | 59 => ⟨S1x128, .f32⟩
  | 60 => ⟨S40000x128, .f32⟩
  | 61 => ⟨S40000x128, .f32⟩
  | 62 => ⟨S80000x1280, .f32⟩
  | 63 => ⟨S1x1280, .f32⟩
  | 64 => ⟨S80000x1280, .f32⟩
  | 65 => ⟨S80000x1280, .f32⟩
  | 66 => ⟨S80000x1280, .f32⟩
  | 67 => ⟨S80000x64, .f32⟩
  | 68 => ⟨S1x64, .f32⟩
  | 69 => ⟨S80000x64, .f32⟩
  | 70 => ⟨S80000x64, .f32⟩
  | 71 => ⟨S80000x64, .f32⟩
  | 72 => ⟨S80000x1280, .f32⟩
  | 73 => ⟨S1x1280, .f32⟩
  | 74 => ⟨S80000x1280, .f32⟩
  | 75 => ⟨S80000x1280, .f32⟩
  | 76 => ⟨S80000x1280, .f32⟩
  | 77 => ⟨S_, .f32⟩
  | 78 => ⟨S80000, .f32⟩
  | 79 => ⟨S80000x1, .f32⟩
  | 80 => ⟨S80000x1, .f32⟩
  | 81 => ⟨S_, .f32⟩
  | 82 => ⟨S80000x1, .f32⟩
  | 83 => ⟨S80000x1, .f32⟩
  | 84 => ⟨S80000x1280, .f32⟩
  | 85 => ⟨S80000x1280, .f32⟩
  | 86 => ⟨S80000x128x10, .f32⟩
  | 87 => ⟨S40000x1280, .f32⟩
  | 88 => ⟨S1x1280, .f32⟩
  | 89 => ⟨S40000x1280, .f32⟩
  | 90 => ⟨S40000x1280, .f32⟩
  | 91 => ⟨S40000x1280, .f32⟩
  | 92 => ⟨S40000x64, .f32⟩
  | 93 => ⟨S1x64, .f32⟩
  | 94 => ⟨S40000x64, .f32⟩
  | 95 => ⟨S40000x64, .f32⟩
  | 96 => ⟨S40000x64, .f32⟩
  | 97 => ⟨S40000x1280, .f32⟩
  | 98 => ⟨S1x1280, .f32⟩
  | 99 => ⟨S40000x1280, .f32⟩
  | 100 => ⟨S40000x1280, .f32⟩
  | 101 => ⟨S40000x1280, .f32⟩
  | 102 => ⟨S_, .f32⟩
  | 103 => ⟨S40000, .f32⟩
  | 104 => ⟨S40000x1, .f32⟩
  | 105 => ⟨S40000x1, .f32⟩
  | 106 => ⟨S_, .f32⟩
  | 107 => ⟨S40000x1, .f32⟩
  | 108 => ⟨S40000x1, .f32⟩
  | 109 => ⟨S40000x1280, .f32⟩
  | 110 => ⟨S40000x1280, .f32⟩
  | 111 => ⟨S40000x10x128, .f32⟩
  | 112 => ⟨S_, .f32⟩
  | 113 => ⟨S128x10, .f32⟩
  | 114 => ⟨S_, .f32⟩
  | 115 => ⟨S128x10, .f32⟩
  | 116 => ⟨S128x10, .f32⟩
  | 117 => ⟨S_, .f32⟩
  | 118 => ⟨S10x128, .f32⟩
  | 119 => ⟨S_, .f32⟩
  | 120 => ⟨S10x128, .f32⟩
  | 121 => ⟨S10x128, .f32⟩
  | 122 => ⟨S1x128x10, .f32⟩
  | 123 => ⟨S80000x128x10, .f32⟩
  | 124 => ⟨S80000x128x10, .f32⟩
  | 125 => ⟨S_, .f32⟩
  | 126 => ⟨S80000x10, .f32⟩
  | 127 => ⟨S_, .f32⟩
  | _ => ⟨S80000x128, .f32⟩

abbrev hbmTy0_1 (i : Nat) : BufTy := match i % 128 with
  | 0 => ⟨S80000x10, .f32⟩
  | 1 => ⟨S80000x10, .f32⟩
  | 2 => ⟨S80000x1x10, .f32⟩
  | 3 => ⟨S80000x128x10, .f32⟩
  | 4 => ⟨S80000x128x10, .f32⟩
  | 5 => ⟨S80000x128x10, .f32⟩
  | 6 => ⟨S_, .f32⟩
  | 7 => ⟨S80000x10, .f32⟩
  | 8 => ⟨S80000x1x10, .f32⟩
  | 9 => ⟨S80000x128x10, .f32⟩
  | 10 => ⟨S80000x128x10, .f32⟩
  | 11 => ⟨S1x10x128, .f32⟩
  | 12 => ⟨S40000x10x128, .f32⟩
  | 13 => ⟨S40000x10x128, .f32⟩
  | 14 => ⟨S_, .f32⟩
  | 15 => ⟨S40000x128, .f32⟩
  | 16 => ⟨S_, .f32⟩
  | 17 => ⟨S40000x128, .f32⟩
  | 18 => ⟨S40000x128, .f32⟩
  | 19 => ⟨S40000x1x128, .f32⟩
  | 20 => ⟨S40000x10x128, .f32⟩
  | 21 => ⟨S40000x10x128, .f32⟩
  | 22 => ⟨S40000x10x128, .f32⟩
  | 23 => ⟨S_, .f32⟩
  | 24 => ⟨S40000x128, .f32⟩
  | 25 => ⟨S40000x1x128, .f32⟩
  | 26 => ⟨S40000x10x128, .f32⟩
  | 27 => ⟨S40000x10x128, .f32⟩
  | _ => ⟨S80000x128, .f32⟩

abbrev hbmTy (i : Nat) : BufTy := match i / 128 with
  | 0 => hbmTy0_0 i
  | 1 => hbmTy0_1 i
  | _ => ⟨S80000x128, .f32⟩

abbrev bufTy : (tb : Table) → Fin (tcTables nBuf tb) → BufTy
  | .hbm, ⟨i, _⟩ => hbmTy i
  | _, _ => ⟨S80000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_c_2 : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call0_v0 : Ref sig .tc := ⟨.hbm, 76, rfl⟩
abbrev main_call0_cst : Ref sig .tc := ⟨.hbm, 77, rfl⟩
abbrev main_call0_v1 : Ref sig .tc := ⟨.hbm, 78, rfl⟩
abbrev main_call0_v2 : Ref sig .tc := ⟨.hbm, 79, rfl⟩
abbrev main_v47 : Ref sig .tc := ⟨.hbm, 80, rfl⟩
abbrev main_cst_5 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call1_v0 : Ref sig .tc := ⟨.hbm, 101, rfl⟩
abbrev main_call1_cst : Ref sig .tc := ⟨.hbm, 102, rfl⟩
abbrev main_call1_v1 : Ref sig .tc := ⟨.hbm, 103, rfl⟩
abbrev main_call1_v2 : Ref sig .tc := ⟨.hbm, 104, rfl⟩
abbrev main_v67 : Ref sig .tc := ⟨.hbm, 105, rfl⟩
abbrev main_cst_6 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_7 : Ref sig .tc := ⟨.hbm, 112, rfl⟩
abbrev main_v73 : Ref sig .tc := ⟨.hbm, 113, rfl⟩
abbrev main_cst_8 : Ref sig .tc := ⟨.hbm, 114, rfl⟩
abbrev main_v74 : Ref sig .tc := ⟨.hbm, 115, rfl⟩
abbrev main_v75 : Ref sig .tc := ⟨.hbm, 116, rfl⟩
abbrev main_cst_9 : Ref sig .tc := ⟨.hbm, 117, rfl⟩
abbrev main_v76 : Ref sig .tc := ⟨.hbm, 118, rfl⟩
abbrev main_cst_10 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_11 : Ref sig .tc := ⟨.hbm, 125, rfl⟩
abbrev main_v82 : Ref sig .tc := ⟨.hbm, 126, rfl⟩
abbrev main_cst_12 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_13 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_14 : Ref sig .tc := ⟨.hbm, 142, rfl⟩
abbrev main_v96 : Ref sig .tc := ⟨.hbm, 143, rfl⟩
abbrev main_cst_15 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_16 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S80000x128 : S_.BroadcastsInDim S80000x128 (![] : Fin 0 → Fin S80000x128.rank)
  concatenates_S80000x128_S80000x128_S80000x128_S80000x128_S80000x512_d1 : Shape.Concatenates [S80000x128, S80000x128, S80000x128, S80000x128] S80000x512 1
  bcast_S128_S1x128_1 : S128.BroadcastsInDim S1x128 (![1] : Fin 1 → Fin S1x128.rank)
  bcast_S1x128_S80000x128_0_1 : S1x128.BroadcastsInDim S80000x128 (![0, 1] : Fin 2 → Fin S80000x128.rank)
  bcast_S_S40000x128 : S_.BroadcastsInDim S40000x128 (![] : Fin 0 → Fin S40000x128.rank)
  concatenates_S40000x128_S40000x128_S40000x256_d1 : Shape.Concatenates [S40000x128, S40000x128] S40000x256 1
  bcast_S1x128_S40000x128_0_1 : S1x128.BroadcastsInDim S40000x128 (![0, 1] : Fin 2 → Fin S40000x128.rank)
  bcast_S1280_S1x1280_1 : S1280.BroadcastsInDim S1x1280 (![1] : Fin 1 → Fin S1x1280.rank)
  bcast_S1x1280_S80000x1280_0_1 : S1x1280.BroadcastsInDim S80000x1280 (![0, 1] : Fin 2 → Fin S80000x1280.rank)
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  reducesTo_S80000x1280_S80000_d1 : S80000x1280.ReducesTo [1] S80000
  h_S_ : 0 < S_.numel
  bcast_S80000_S80000x1_0 : S80000.BroadcastsInDim S80000x1 (![0] : Fin 1 → Fin S80000x1.rank)
  bcast_S_S80000x1 : S_.BroadcastsInDim S80000x1 (![] : Fin 0 → Fin S80000x1.rank)
  bcast_S80000x1_S80000x1280_0_1 : S80000x1.BroadcastsInDim S80000x1280 (![0, 1] : Fin 2 → Fin S80000x1280.rank)
  shapeCasts_S80000x1280_S80000x128x10 : S80000x1280.ShapeCasts S80000x128x10
  bcast_S1x1280_S40000x1280_0_1 : S1x1280.BroadcastsInDim S40000x1280 (![0, 1] : Fin 2 → Fin S40000x1280.rank)
  bcast_S1x64_S40000x64_0_1 : S1x64.BroadcastsInDim S40000x64 (![0, 1] : Fin 2 → Fin S40000x64.rank)
  reducesTo_S40000x1280_S40000_d1 : S40000x1280.ReducesTo [1] S40000
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x1280_0_1 : S40000x1.BroadcastsInDim S40000x1280 (![0, 1] : Fin 2 → Fin S40000x1280.rank)
  shapeCasts_S40000x1280_S40000x10x128 : S40000x1280.ShapeCasts S40000x10x128
  reducesTo_S80000x128x10_S128x10_d0 : S80000x128x10.ReducesTo [0] S128x10
  bcast_S_S128x10 : S_.BroadcastsInDim S128x10 (![] : Fin 0 → Fin S128x10.rank)
  reducesTo_S40000x10x128_S10x128_d0 : S40000x10x128.ReducesTo [0] S10x128
  bcast_S_S10x128 : S_.BroadcastsInDim S10x128 (![] : Fin 0 → Fin S10x128.rank)
  bcast_S128x10_S1x128x10_1_2 : S128x10.BroadcastsInDim S1x128x10 (![1, 2] : Fin 2 → Fin S1x128x10.rank)
  bcast_S1x128x10_S80000x128x10_0_1_2 : S1x128x10.BroadcastsInDim S80000x128x10 (![0, 1, 2] : Fin 3 → Fin S80000x128x10.rank)
  reducesTo_S80000x128x10_S80000x10_d1 : S80000x128x10.ReducesTo [1] S80000x10
  bcast_S_S80000x10 : S_.BroadcastsInDim S80000x10 (![] : Fin 0 → Fin S80000x10.rank)
  bcast_S80000x10_S80000x1x10_0_2 : S80000x10.BroadcastsInDim S80000x1x10 (![0, 2] : Fin 2 → Fin S80000x1x10.rank)
  bcast_S80000x1x10_S80000x128x10_0_1_2 : S80000x1x10.BroadcastsInDim S80000x128x10 (![0, 1, 2] : Fin 3 → Fin S80000x128x10.rank)
  bcast_S10x128_S1x10x128_1_2 : S10x128.BroadcastsInDim S1x10x128 (![1, 2] : Fin 2 → Fin S1x10x128.rank)
  bcast_S1x10x128_S40000x10x128_0_1_2 : S1x10x128.BroadcastsInDim S40000x10x128 (![0, 1, 2] : Fin 3 → Fin S40000x10x128.rank)
  reducesTo_S40000x10x128_S40000x128_d1 : S40000x10x128.ReducesTo [1] S40000x128
  bcast_S40000x128_S40000x1x128_0_2 : S40000x128.BroadcastsInDim S40000x1x128 (![0, 2] : Fin 2 → Fin S40000x1x128.rank)
  bcast_S40000x1x128_S40000x10x128_0_1_2 : S40000x1x128.BroadcastsInDim S40000x10x128 (![0, 1, 2] : Fin 3 → Fin S40000x10x128.rank)
  gather_S40000x128_S2000000x1_S2000000x128_1_0_n_n_0_1_1128_wf : GatherDims.WF S40000x128 S2000000x1 S2000000x128 [1] [0] [] [0] [] 1 ![1, 128]
  scatter_S80000x128_S2000000x1_S2000000x128_1_0_0_1_wf : ScatterDims.WF S80000x128 S2000000x1 S2000000x128 [1] [0] [0] 1
  dot_S80000x512_S512x128_S80000x128_1_0_0_1_n_n_wf : DotDims.WF S80000x512 S512x128 S80000x128 [1] [0] [0] [1] [] []
  gather_S80000x128_S2000000x1_S2000000x128_1_0_n_n_0_1_1128_wf : GatherDims.WF S80000x128 S2000000x1 S2000000x128 [1] [0] [] [0] [] 1 ![1, 128]
  scatter_S40000x128_S2000000x1_S2000000x128_1_0_0_1_wf : ScatterDims.WF S40000x128 S2000000x1 S2000000x128 [1] [0] [0] 1
  dot_S40000x256_S256x128_S40000x128_1_0_0_1_n_n_wf : DotDims.WF S40000x256 S256x128 S40000x128 [1] [0] [0] [1] [] []
  dot_S80000x128_S128x1280_S80000x1280_1_0_0_1_n_n_wf : DotDims.WF S80000x128 S128x1280 S80000x1280 [1] [0] [0] [1] [] []
  dot_S80000x1280_S1280x64_S80000x64_1_0_0_1_n_n_wf : DotDims.WF S80000x1280 S1280x64 S80000x64 [1] [0] [0] [1] [] []
  dot_S80000x64_S64x1280_S80000x1280_1_0_0_1_n_n_wf : DotDims.WF S80000x64 S64x1280 S80000x1280 [1] [0] [0] [1] [] []
  dot_S40000x128_S128x1280_S40000x1280_1_0_0_1_n_n_wf : DotDims.WF S40000x128 S128x1280 S40000x1280 [1] [0] [0] [1] [] []
  dot_S40000x1280_S1280x64_S40000x64_1_0_0_1_n_n_wf : DotDims.WF S40000x1280 S1280x64 S40000x64 [1] [0] [0] [1] [] []
  dot_S40000x64_S64x1280_S40000x1280_1_0_0_1_n_n_wf : DotDims.WF S40000x64 S64x1280 S40000x1280 [1] [0] [0] [1] [] []

variable [Facts₀]

def gather_S40000x128_S2000000x1_S2000000x128_1_0_n_n_0_1_1128 : GatherDims S40000x128 S2000000x1 S2000000x128 where
  offsetDims := [1]
  collapsedSliceDims := [0]
  operandBatchingDims := []
  startIndicesBatchingDims := []
  startIndexMap := [0]
  indexVectorDim := 1
  sliceSizes := ![1, 128]
  wf := gather_S40000x128_S2000000x1_S2000000x128_1_0_n_n_0_1_1128_wf
def scatter_S80000x128_S2000000x1_S2000000x128_1_0_0_1 : ScatterDims S80000x128 S2000000x1 S2000000x128 where
  updateWindowDims := [1]
  insertedWindowDims := [0]
  scatterDimsToOperandDims := [0]
  indexVectorDim := 1
  wf := scatter_S80000x128_S2000000x1_S2000000x128_1_0_0_1_wf
def dot_S80000x512_S512x128_S80000x128_1_0_0_1_n_n : DotDims S80000x512 S512x128 S80000x128 where
  lhsContracting := [1]
  rhsContracting := [0]
  lhsNonContracting := [0]
  rhsNonContracting := [1]
  lhsBatch := []
  rhsBatch := []
  wf := dot_S80000x512_S512x128_S80000x128_1_0_0_1_n_n_wf
def gather_S80000x128_S2000000x1_S2000000x128_1_0_n_n_0_1_1128 : GatherDims S80000x128 S2000000x1 S2000000x128 where
  offsetDims := [1]
  collapsedSliceDims := [0]
  operandBatchingDims := []
  startIndicesBatchingDims := []
  startIndexMap := [0]
  indexVectorDim := 1
  sliceSizes := ![1, 128]
  wf := gather_S80000x128_S2000000x1_S2000000x128_1_0_n_n_0_1_1128_wf
def scatter_S40000x128_S2000000x1_S2000000x128_1_0_0_1 : ScatterDims S40000x128 S2000000x1 S2000000x128 where
  updateWindowDims := [1]
  insertedWindowDims := [0]
  scatterDimsToOperandDims := [0]
  indexVectorDim := 1
  wf := scatter_S40000x128_S2000000x1_S2000000x128_1_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def dot_S80000x128_S128x1280_S80000x1280_1_0_0_1_n_n : DotDims S80000x128 S128x1280 S80000x1280 where
  lhsContracting := [1]
  rhsContracting := [0]
  lhsNonContracting := [0]
  rhsNonContracting := [1]
  lhsBatch := []
  rhsBatch := []
  wf := dot_S80000x128_S128x1280_S80000x1280_1_0_0_1_n_n_wf
def dot_S80000x1280_S1280x64_S80000x64_1_0_0_1_n_n : DotDims S80000x1280 S1280x64 S80000x64 where
  lhsContracting := [1]
  rhsContracting := [0]
  lhsNonContracting := [0]
  rhsNonContracting := [1]
  lhsBatch := []
  rhsBatch := []
  wf := dot_S80000x1280_S1280x64_S80000x64_1_0_0_1_n_n_wf
def dot_S80000x64_S64x1280_S80000x1280_1_0_0_1_n_n : DotDims S80000x64 S64x1280 S80000x1280 where
  lhsContracting := [1]
  rhsContracting := [0]
  lhsNonContracting := [0]
  rhsNonContracting := [1]
  lhsBatch := []
  rhsBatch := []
  wf := dot_S80000x64_S64x1280_S80000x1280_1_0_0_1_n_n_wf
def dot_S40000x128_S128x1280_S40000x1280_1_0_0_1_n_n : DotDims S40000x128 S128x1280 S40000x1280 where
  lhsContracting := [1]
  rhsContracting := [0]
  lhsNonContracting := [0]
  rhsNonContracting := [1]
  lhsBatch := []
  rhsBatch := []
  wf := dot_S40000x128_S128x1280_S40000x1280_1_0_0_1_n_n_wf
def dot_S40000x1280_S1280x64_S40000x64_1_0_0_1_n_n : DotDims S40000x1280 S1280x64 S40000x64 where
  lhsContracting := [1]
  rhsContracting := [0]
  lhsNonContracting := [0]
  rhsNonContracting := [1]
  lhsBatch := []
  rhsBatch := []
  wf := dot_S40000x1280_S1280x64_S40000x64_1_0_0_1_n_n_wf
def dot_S40000x64_S64x1280_S40000x1280_1_0_0_1_n_n : DotDims S40000x64 S64x1280 S40000x1280 where
  lhsContracting := [1]
  rhsContracting := [0]
  lhsNonContracting := [0]
  rhsNonContracting := [1]
  lhsBatch := []
  rhsBatch := []
  wf := dot_S40000x64_S64x1280_S40000x1280_1_0_0_1_n_n_wf

class Facts : Prop extends Facts₀ where

variable [Facts]
-- ==== Proof.Spec.lean ====
import Idealize.ShloMosaic.PureOps.Ideal
import Idealize.ShloMosaic.Lib.ValueIdx

/-!
  The two results as functions of the argument arrays, entry by entry, on the extended reals.

  A row of features goes through an affine map, two affine maps each followed by tanh, a third affine map, and is
  then divided by its Euclidean length (kept at least a small constant). The rows' mean is added back to every row,
  and a softmax is taken along one of the two axes the 1280 columns split into (128 × 10 for users, 10 × 128 for
  items).
-/

noncomputable section

namespace Cert.Spec

open Idealize.ShloMosaic Idealize.ShloMosaic.ValueIdx

/-- An `a × b` array of extended reals. -/
abbrev Mat (a b : ℕ) := (⟨2, ![a, b]⟩ : Shape).Idx → EReal

/-- Row `r` of a matrix, as a function of the column. -/
def row {a b : ℕ} (X : Mat a b) (r : Fin a) : Fin b → EReal := fun q => X (ix2 r q)

/-- A vector of `b` entries as a function of the position. -/
def vec {b : ℕ} (x : (⟨1, ![b]⟩ : Shape).Idx → EReal) : Fin b → EReal := fun q => x (ix1 q)

/-- `x · W + b` for one row `x`. -/
def affine {K N : ℕ} (x : Fin K → EReal) (W : Mat K N) (b : Fin N → EReal) : Fin N → EReal :=
  fun n => (∑ k : Fin K, x k * W (ix2 k n)) + b n

/-- Four rows of 128 entries side by side. -/
def cat4 (x0 x1 x2 x3 : Fin 128 → EReal) : Fin 512 → EReal := fun q =>
  if h0 : q.val < 128 then x0 ⟨q.val, h0⟩
  else if h1 : q.val < 256 then x1 ⟨q.val - 128, by omega⟩
  else if h2 : q.val < 384 then x2 ⟨q.val - 256, by omega⟩
  else x3 ⟨q.val - 384, by have := q.isLt; omega⟩

/-- Two rows of 128 entries side by side. -/
def cat2 (x0 x1 : Fin 128 → EReal) : Fin 256 → EReal := fun q =>
  if h0 : q.val < 128 then x0 ⟨q.val, h0⟩ else x1 ⟨q.val - 128, by have := q.isLt; omega⟩

/-- Two affine maps each followed by tanh, then a third affine map. -/
def mlp3 (x : Fin 128 → EReal) (w1 : Mat 128 1280) (b1 : Fin 1280 → EReal) (w2 : Mat 1280 64) (b2 : Fin 64 → EReal)
    (w3 : Mat 64 1280) (b3 : Fin 1280 → EReal) : Fin 1280 → EReal :=
  affine (fun h => Ideal.tanh (affine (fun j => Ideal.tanh (affine x w1 b1 j)) w2 b2 h)) w3 b3

/-- The least length a row is divided by. -/
def eps : EReal := Ideal.ofBits .f32 0x2B8CBCCC#32

/-- A vector over its Euclidean length, the length kept at least `eps`. -/
def unitize (v : Fin 1280 → EReal) : Fin 1280 → EReal :=
  fun j => Ideal.div (v j) (max (Ideal.sqrt (∑ q : Fin 1280, v q * v q)) eps)

/-- A user's row before the mean is added: the four feature rows side by side through the first affine map, then the
    three layers, then division by the length. -/
def userRow (f0 f1 f2 f3 : Fin 128 → EReal) (Wu : Mat 512 128) (bu : Fin 128 → EReal)
    (w1 : Mat 128 1280) (b1 : Fin 1280 → EReal) (w2 : Mat 1280 64) (b2 : Fin 64 → EReal)
    (w3 : Mat 64 1280) (b3 : Fin 1280 → EReal) : Fin 1280 → EReal :=
  unitize (mlp3 (affine (cat4 f0 f1 f2 f3) Wu bu) w1 b1 w2 b2 w3 b3)

/-- An item's row likewise, from two feature rows. -/
def itemRow (f0 f1 : Fin 128 → EReal) (Wi : Mat 256 128) (bi : Fin 128 → EReal)
    (w1 : Mat 128 1280) (b1 : Fin 1280 → EReal) (w2 : Mat 1280 64) (b2 : Fin 64 → EReal)
    (w3 : Mat 64 1280) (b3 : Fin 1280 → EReal) : Fin 1280 → EReal :=
  unitize (mlp3 (affine (cat2 f0 f1) Wi bi) w1 b1 w2 b2 w3 b3)

/-- Column `d * 10 + k` of the 1280: the 128 × 10 split. -/
def dk (d : Fin 128) (k : Fin 10) : Fin 1280 := ⟨d.val * 10 + k.val, by have := d.isLt; have := k.isLt; omega⟩

/-- Column `k * 128 + d` of the 1280: the 10 × 128 split. -/
def kd (k : Fin 10) (d : Fin 128) : Fin 1280 := ⟨k.val * 128 + d.val, by have := d.isLt; have := k.isLt; omega⟩

/-- The softmax of a finite family at one position: the exponential of the entry less the greatest entry, over the
    sum of these exponentials. -/
def gate {n : ℕ} (s : Fin n → EReal) (i : Fin n) : EReal :=
  Ideal.div (Ideal.exp (s i - Finset.univ.fold max ⊥ s))
    (∑ i' : Fin n, Ideal.exp (s i' - Finset.univ.fold max ⊥ s))

/-- The number of users and of items, as the floats the programs divide by. -/
def cU : EReal := Ideal.ofBits .f32 0x479C4000#32
def cI : EReal := Ideal.ofBits .f32 0x471C4000#32

/-- The mean over the rows of column `j`, as "the sum over the count". -/
def colMean {N : ℕ} (M : Fin N → Fin 1280 → EReal) (c : EReal) (j : Fin 1280) : EReal :=
  Ideal.div (∑ u : Fin N, M u j) c

/-- The users' result at `(u, d, k)`: softmax over `d` of the row's entries `(d, k)` plus the column means. -/
def userOut {N : ℕ} (M : Fin N → Fin 1280 → EReal) (u : Fin N) (d : Fin 128) (k : Fin 10) : EReal :=
  gate (fun d' => M u (dk d' k) + colMean M cU (dk d' k)) d

/-- The items' result at `(i, k, d)`: softmax over `k` of the row's entries `(k, d)` plus the column means. -/
def itemOut {N : ℕ} (M : Fin N → Fin 1280 → EReal) (i : Fin N) (k : Fin 10) (d : Fin 128) : EReal :=
  gate (fun k' => M i (kd k' d) + colMean M cI (kd k' d)) k

end Cert.Spec

end
-- ==== Proof.SpecIdx.lean ====
import proofs.«173914_j18305150615650_2_alg».proof.Proof.Spec

/-!
  Arrays written from functions of their coordinates, and the two ways a column of the 1280 splits.
-/

noncomputable section

namespace Cert.Spec

open Idealize.ShloMosaic Idealize.ShloMosaic.ValueIdx

/-- The `a × b` array whose entry `(p, q)` is `f p q`. -/
def arr2 {a b : ℕ} (f : Fin a → Fin b → EReal) : (⟨2, ![a, b]⟩ : Shape).Idx → EReal :=
  fun i => f ⟨(i 0).val, (i 0).isLt⟩ ⟨(i 1).val, (i 1).isLt⟩

theorem arr2_ix2 {a b : ℕ} (f : Fin a → Fin b → EReal) (p : Fin a) (q : Fin b) : arr2 f (ix2 p q) = f p q := rfl

/-- The `a × b × c` array whose entry `(p, q, r)` is `f p q r`. -/
def arr3 {a b c : ℕ} (f : Fin a → Fin b → Fin c → EReal) : (⟨3, ![a, b, c]⟩ : Shape).Idx → EReal :=
  fun i => f ⟨(i 0).val, (i 0).isLt⟩ ⟨(i 1).val, (i 1).isLt⟩ ⟨(i 2).val, (i 2).isLt⟩

theorem arr3_ix3 {a b c : ℕ} (f : Fin a → Fin b → Fin c → EReal) (p : Fin a) (q : Fin b) (r : Fin c) :
    arr3 f (ix3 p q r) = f p q r := rfl

/-- The two coordinates of a column in the 128 × 10 split. -/
def dkD (j : Fin 1280) : Fin 128 := ⟨j.val / 10, by have := j.isLt; omega⟩
def dkK (j : Fin 1280) : Fin 10 := ⟨j.val % 10, Nat.mod_lt _ (by decide)⟩

/-- The two coordinates of a column in the 10 × 128 split. -/
def kdK (j : Fin 1280) : Fin 10 := ⟨j.val / 128, by have := j.isLt; omega⟩
def kdD (j : Fin 1280) : Fin 128 := ⟨j.val % 128, Nat.mod_lt _ (by decide)⟩

theorem dkD_dk (d : Fin 128) (k : Fin 10) : dkD (dk d k) = d := by
  apply Fin.ext; show (d.val * 10 + k.val) / 10 = d.val; have := k.isLt; omega
theorem dkK_dk (d : Fin 128) (k : Fin 10) : dkK (dk d k) = k := by
  apply Fin.ext; show (d.val * 10 + k.val) % 10 = k.val; have := k.isLt; omega
theorem kdK_kd (k : Fin 10) (d : Fin 128) : kdK (kd k d) = k := by
  apply Fin.ext; show (k.val * 128 + d.val) / 128 = k.val; have := d.isLt; omega
theorem kdD_kd (k : Fin 10) (d : Fin 128) : kdD (kd k d) = d := by
  apply Fin.ext; show (k.val * 128 + d.val) % 128 = d.val; have := d.isLt; omega
theorem dk_dkD_dkK (j : Fin 1280) : dk (dkD j) (dkK j) = j := by
  apply Fin.ext; show j.val / 10 * 10 + j.val % 10 = j.val; omega
theorem kd_kdK_kdD (j : Fin 1280) : kd (kdK j) (kdD j) = j := by
  apply Fin.ext; show j.val / 128 * 128 + j.val % 128 = j.val; omega

/-- Row `t * R + r` of `T * R` rows: row `r` of tile `t`. -/
def tileRow {T R : ℕ} (t : Fin T) (r : Fin R) : Fin (T * R) :=
  ⟨t.val * R + r.val, by
    have h1 := t.isLt; have h2 := r.isLt
    calc t.val * R + r.val < t.val * R + R := by omega
      _ = (t.val + 1) * R := by ring
      _ ≤ T * R := Nat.mul_le_mul_right R h1⟩

end Cert.Spec

end
-- ==== Proof.SpecLaws.lean ====
import proofs.«173914_j18305150615650_2_alg».proof.Proof.Spec

/-!
  Facts about the specification alone: the two ways the 1280 columns split into 128 × 10 and 10 × 128, the
  permutation of columns that carries one splitting to the other, the invariance of a normalised row under that
  permutation, sums over rows cut into equal tiles, and two small facts about folds of max.
-/

noncomputable section

namespace Cert.SpecLaws

open Cert.Spec Idealize.ShloMosaic Idealize.ShloMosaic.ValueIdx

/-! ### The two splittings of the 1280 columns -/

theorem dk_val (d : Fin 128) (k : Fin 10) : (dk d k).val = d.val * 10 + k.val := rfl

theorem kd_val (k : Fin 10) (d : Fin 128) : (kd k d).val = k.val * 128 + d.val := rfl

/-- Every column is d * 10 + k with d < 128 and k < 10: quotient and remainder by 10. -/
theorem exists_dk (j : Fin 1280) : ∃ (d : Fin 128) (k : Fin 10), j = dk d k :=
  ⟨⟨j.val / 10, by have := j.isLt; omega⟩, ⟨j.val % 10, by omega⟩, by
    apply Fin.ext; simp only [dk_val]; omega⟩

/-- Every column is k * 128 + d with k < 10 and d < 128: quotient and remainder by 128. -/
theorem exists_kd (j : Fin 1280) : ∃ (k : Fin 10) (d : Fin 128), j = kd k d :=
  ⟨⟨j.val / 128, by have := j.isLt; omega⟩, ⟨j.val % 128, by omega⟩, by
    apply Fin.ext; simp only [kd_val]; omega⟩

/-! ### The column permutation sending k * 128 + d to d * 10 + k -/

/-- The permutation of the 1280 columns sending k * 128 + d to d * 10 + k; its inverse sends d * 10 + k
    back to k * 128 + d. -/
def perm : Fin 1280 ≃ Fin 1280 where
  toFun j := dk ⟨j.val % 128, by omega⟩ ⟨j.val / 128, by have := j.isLt; omega⟩
  invFun j := kd ⟨j.val % 10, by omega⟩ ⟨j.val / 10, by have := j.isLt; omega⟩
  left_inv j := by
    apply Fin.ext
    simp only [dk_val, kd_val]
    have := j.isLt
    omega
  right_inv j := by
    apply Fin.ext
    simp only [dk_val, kd_val]
    have := j.isLt
    omega

theorem perm_kd (k : Fin 10) (d : Fin 128) : perm (kd k d) = dk d k := by
  apply Fin.ext
  show (dk ⟨(kd k d).val % 128, _⟩ ⟨(kd k d).val / 128, _⟩).val = (dk d k).val
  simp only [dk_val, kd_val]
  have := k.isLt
  have := d.isLt
  omega

/-! ### A row with the last layer's columns permuted is the row permuted -/

/-- An affine map whose weight columns and bias entries are those of another one moved by the permutation gives
    the other one's output moved by the permutation. -/
theorem affine_perm {K : ℕ} (x : Fin K → EReal) (w3 w3p : Mat K 1280) (b3 b3p : Fin 1280 → EReal)
    (hw : ∀ (h : Fin K) (k : Fin 10) (d : Fin 128), w3p (ix2 h (kd k d)) = w3 (ix2 h (dk d k)))
    (hb : ∀ (k : Fin 10) (d : Fin 128), b3p (kd k d) = b3 (dk d k)) (q : Fin 1280) :
    affine x w3p b3p q = affine x w3 b3 (perm q) := by
  obtain ⟨k, d, rfl⟩ := exists_kd q
  rw [perm_kd]
  unfold affine
  rw [hb k d]
  exact congrArg (· + b3 (dk d k)) (Finset.sum_congr rfl fun h _ => by rw [hw h k d])

/-- The three-layer map with its last layer's columns permuted. -/
theorem mlp3_perm (x : Fin 128 → EReal) (w1 : Mat 128 1280) (b1 : Fin 1280 → EReal) (w2 : Mat 1280 64)
    (b2 : Fin 64 → EReal) (w3 w3p : Mat 64 1280) (b3 b3p : Fin 1280 → EReal)
    (hw : ∀ (h : Fin 64) (k : Fin 10) (d : Fin 128), w3p (ix2 h (kd k d)) = w3 (ix2 h (dk d k)))
    (hb : ∀ (k : Fin 10) (d : Fin 128), b3p (kd k d) = b3 (dk d k)) (q : Fin 1280) :
    mlp3 x w1 b1 w2 b2 w3p b3p q = mlp3 x w1 b1 w2 b2 w3 b3 (perm q) :=
  affine_perm _ w3 w3p b3 b3p hw hb q

/-- Dividing by the Euclidean length commutes with a permutation of the entries: the sum of squares runs over all
    entries and does not see the permutation. -/
theorem unitize_perm (v vp : Fin 1280 → EReal) (h : ∀ q, vp q = v (perm q)) (q : Fin 1280) :
    unitize vp q = unitize v (perm q) := by
  have hfun : vp = fun q => v (perm q) := funext h
  subst hfun
  have hs : (∑ q' : Fin 1280, v (perm q') * v (perm q')) = ∑ q' : Fin 1280, v q' * v q' :=
    Equiv.sum_comp perm (fun q => v q * v q)
  show Ideal.div (v (perm q)) (max (Ideal.sqrt (∑ q' : Fin 1280, v (perm q') * v (perm q'))) eps)
    = Ideal.div (v (perm q)) (max (Ideal.sqrt (∑ q' : Fin 1280, v q' * v q')) eps)
  rw [hs]

theorem userRow_perm (f0 f1 f2 f3 : Fin 128 → EReal) (Wu : Mat 512 128) (bu : Fin 128 → EReal)
    (w1 : Mat 128 1280) (b1 : Fin 1280 → EReal) (w2 : Mat 1280 64) (b2 : Fin 64 → EReal)
    (w3 w3p : Mat 64 1280) (b3 b3p : Fin 1280 → EReal)
    (hw : ∀ (h : Fin 64) (k : Fin 10) (d : Fin 128), w3p (ix2 h (kd k d)) = w3 (ix2 h (dk d k)))
    (hb : ∀ (k : Fin 10) (d : Fin 128), b3p (kd k d) = b3 (dk d k)) (k : Fin 10) (d : Fin 128) :
    userRow f0 f1 f2 f3 Wu bu w1 b1 w2 b2 w3p b3p (kd k d)
      = userRow f0 f1 f2 f3 Wu bu w1 b1 w2 b2 w3 b3 (dk d k) := by
  rw [← perm_kd k d]
  exact unitize_perm _ _ (fun q => mlp3_perm _ w1 b1 w2 b2 w3 w3p b3 b3p hw hb q) (kd k d)

/-- The same for an item's row (two feature rows instead of four). -/
theorem itemRow_perm (f0 f1 : Fin 128 → EReal) (Wi : Mat 256 128) (bi : Fin 128 → EReal)
    (w1 : Mat 128 1280) (b1 : Fin 1280 → EReal) (w2 : Mat 1280 64) (b2 : Fin 64 → EReal)
    (w3 w3p : Mat 64 1280) (b3 b3p : Fin 1280 → EReal)
    (hw : ∀ (h : Fin 64) (k : Fin 10) (d : Fin 128), w3p (ix2 h (kd k d)) = w3 (ix2 h (dk d k)))
    (hb : ∀ (k : Fin 10) (d : Fin 128), b3p (kd k d) = b3 (dk d k)) (k : Fin 10) (d : Fin 128) :
    itemRow f0 f1 Wi bi w1 b1 w2 b2 w3p b3p (kd k d)
      = itemRow f0 f1 Wi bi w1 b1 w2 b2 w3 b3 (dk d k) := by
  rw [← perm_kd k d]
  exact unitize_perm _ _ (fun q => mlp3_perm _ w1 b1 w2 b2 w3 w3p b3 b3p hw hb q) (kd k d)

/-! ### Sums over rows cut into tiles -/

/-- Row r of tile t, of T tiles of R rows, is one of the T * R rows. -/
theorem tile_lt {T R t : ℕ} (h : t < T) (r : Fin R) : t * R + r.val < T * R := by
  have h1 : (t + 1) * R ≤ T * R := Nat.mul_le_mul_right R h
  rw [Nat.add_mul, Nat.one_mul] at h1
  have := r.isLt
  omega

/-- The sum of f over the R rows of tile t (zero past the last tile). -/
def tileSum (T R : ℕ) (f : Fin (T * R) → EReal) (t : ℕ) : EReal :=
  if h : t < T then ∑ r : Fin R, f ⟨t * R + r.val, tile_lt h r⟩ else 0

/-- Summing tile by tile is summing over all rows: a row is t * R + r for a unique tile t and row r in it. -/
theorem sum_tiles (T R : ℕ) (f : Fin (T * R) → EReal) :
    ∑ t ∈ Finset.range T, tileSum T R f t = ∑ u : Fin (T * R), f u := by
  rw [Finset.sum_range, ← Equiv.sum_comp finProdFinEquiv f, Fintype.sum_prod_type]
  refine Finset.sum_congr rfl fun t _ => ?_
  rw [tileSum, dif_pos t.isLt]
  refine Finset.sum_congr rfl fun r _ => ?_
  refine congrArg f (Fin.ext ?_)
  show t.val * R + r.val = r.val + R * t.val
  rw [Nat.mul_comm, Nat.add_comm]

/-- 100 tiles of 800 rows. -/
theorem sum_tiles_users (f : Fin 80000 → EReal) :
    ∑ t ∈ Finset.range 100, (if h : t < 100 then ∑ r : Fin 800, f ⟨t * 800 + r.val, by omega⟩ else 0)
      = ∑ u : Fin 80000, f u :=
  sum_tiles 100 800 f

/-- 50 tiles of 800 rows. -/
theorem sum_tiles_items (f : Fin 40000 → EReal) :
    ∑ t ∈ Finset.range 50, (if h : t < 50 then ∑ r : Fin 800, f ⟨t * 800 + r.val, by omega⟩ else 0)
      = ∑ u : Fin 40000, f u :=
  sum_tiles 50 800 f

/-! ### The float word of minus infinity -/

theorem ofBits_neg_inf : Ideal.ofBits .f32 0xFF800000#32 = (⊥ : EReal) := by
  simp [Ideal.ofBits, Ideal.ieee]

/-! ### Folds of max over a finite family -/

theorem fold_max_bot_congr {n : ℕ} (s s' : Fin n → EReal) (h : ∀ i, s i = s' i) :
    Finset.univ.fold max ⊥ s = Finset.univ.fold max ⊥ s' := by
  have hs : s = s' := funext h
  rw [hs]

theorem max_bot_fold {n : ℕ} (s : Fin n → EReal) :
    max ⊥ (Finset.univ.fold max ⊥ s) = Finset.univ.fold max ⊥ s :=
  max_bot_left _

end Cert.SpecLaws

end
-- ==== Proof.HostLayout.lean ====
import proofs.«173914_j18305150615650_2_alg».proof.Proof.SpecIdx
import Idealize.ShloMosaic.Lib.Pipeline.Value
import Idealize.ShloMosaic.Lib.ValueLayout
import Idealize.ShloMosaic.Lib.IdealHost

/-!
  The host's layout steps read at an index: a reshape keeps the row-major position, a transpose swaps two
  coordinates, so the chain "split the 1280 columns as 128 × 10, swap the two, merge as 10 × 128" moves column
  d * 10 + k to column k * 128 + d.
-/

noncomputable section

namespace Cert.HostLayout

open Cert.Spec Idealize.ShloMosaic Idealize.ShloMosaic.ValueIdx

section
variable {α : Type}

/-- The 64 × 1280 weights with each row's columns split 128 × 10, the two swapped, and merged again: column
    k * 128 + d of the result is column d * 10 + k of the operand. -/
theorem w3_perm_apply (x : (⟨2, ![64, 1280]⟩ : Shape).Idx → α)
    (h1 : (⟨2, ![64, 1280]⟩ : Shape).ShapeCasts ⟨3, ![64, 128, 10]⟩)
    (h2 : (⟨3, ![64, 128, 10]⟩ : Shape).Transposes [0, 2, 1] ⟨3, ![64, 10, 128]⟩)
    (h3 : (⟨3, ![64, 10, 128]⟩ : Shape).ShapeCasts ⟨2, ![64, 1280]⟩)
    (h : Fin 64) (k : Fin 10) (d : Fin 128) :
    shapeCast ⟨2, ![64, 1280]⟩
        (transpose ⟨3, ![64, 10, 128]⟩ [0, 2, 1] (shapeCast ⟨3, ![64, 128, 10]⟩ x h1) h2) h3 (ix2 h (kd k d))
      = x (ix2 h (dk d k)) := by
  refine (shapeCast_apply _ h3 (ix2 h (kd k d)) (ix3 h k d) ?_).trans ?_
  · rw [Shape.rowMajor_val_three, Shape.rowMajor_val_two]
    show (h.val * 10 + k.val) * 128 + d.val = h.val * 1280 + (k.val * 128 + d.val)
    omega
  refine (transpose_ix3_021_apply _ h2 h k d).trans ?_
  refine shapeCast_apply x h1 (ix3 h d k) (ix2 h (dk d k)) ?_
  rw [Shape.rowMajor_val_two, Shape.rowMajor_val_three]
  show h.val * 1280 + (d.val * 10 + k.val) = (h.val * 128 + d.val) * 10 + k.val
  omega

/-- The 1280 biases split 128 × 10, the two swapped, merged, and given a leading unit axis: entry
    (0, k * 128 + d) of the result is entry d * 10 + k of the operand. -/
theorem b3_perm_apply (x : (⟨1, ![1280]⟩ : Shape).Idx → α)
    (h1 : (⟨1, ![1280]⟩ : Shape).ShapeCasts ⟨2, ![128, 10]⟩)
    (h2 : (⟨2, ![128, 10]⟩ : Shape).Transposes [1, 0] ⟨2, ![10, 128]⟩)
    (h3 : (⟨2, ![10, 128]⟩ : Shape).ShapeCasts ⟨1, ![1280]⟩)
    (h4 : (⟨1, ![1280]⟩ : Shape).ShapeCasts ⟨2, ![1, 1280]⟩)
    (k : Fin 10) (d : Fin 128) :
    shapeCast ⟨2, ![1, 1280]⟩
        (shapeCast ⟨1, ![1280]⟩ (transpose ⟨2, ![10, 128]⟩ [1, 0] (shapeCast ⟨2, ![128, 10]⟩ x h1) h2) h3) h4
        (ix2 (0 : Fin 1) (kd k d))
      = x (ix1 (dk d k)) := by
  refine (shapeCast_a_1a_apply _ h4 (0 : Fin 1) (kd k d)).trans ?_
  refine (shapeCast_apply _ h3 (ix1 (kd k d)) (ix2 k d) ?_).trans ?_
  · rw [Shape.rowMajor_val_two, Shape.rowMajor_val_one]
    show k.val * 128 + d.val = k.val * 128 + d.val
    rfl
  refine (transpose_ix2_apply _ h2 k d).trans ?_
  refine shapeCast_apply x h1 (ix2 d k) (ix1 (dk d k)) ?_
  rw [Shape.rowMajor_val_one, Shape.rowMajor_val_two]
  show d.val * 10 + k.val = d.val * 10 + k.val
  rfl

/-- A vector given a leading unit axis reads the same entries. -/
theorem row_cast_apply {n : ℕ} (x : (⟨1, ![n]⟩ : Shape).Idx → α)
    (h : (⟨1, ![n]⟩ : Shape).ShapeCasts ⟨2, ![1, n]⟩) (q : Fin n) :
    shapeCast ⟨2, ![1, n]⟩ x h (ix2 (0 : Fin 1) q) = x (ix1 q) :=
  shapeCast_a_1a_apply x h (0 : Fin 1) q

/-- The 80000 × 1280 result with its columns split 128 × 10: entry (u, d, k) is entry (u, d * 10 + k). -/
theorem out_cast_apply (x : (⟨2, ![80000, 1280]⟩ : Shape).Idx → α)
    (h : (⟨2, ![80000, 1280]⟩ : Shape).ShapeCasts ⟨3, ![80000, 128, 10]⟩)
    (u : Fin 80000) (d : Fin 128) (k : Fin 10) :
    shapeCast ⟨3, ![80000, 128, 10]⟩ x h (ix3 u d k) = x (ix2 u (dk d k)) := by
  refine shapeCast_apply x h (ix3 u d k) (ix2 u (dk d k)) ?_
  rw [Shape.rowMajor_val_two, Shape.rowMajor_val_three]
  show u.val * 1280 + (d.val * 10 + k.val) = (u.val * 128 + d.val) * 10 + k.val
  omega

end

/-- A 1 × 1280 row divided entrywise by a float constant broadcast to its shape. -/
theorem mean_row_apply (x : (⟨2, ![1, 1280]⟩ : Shape).Idx → EReal) (w : BitVec 32)
    (h : (⟨0, ![]⟩ : Shape).BroadcastsInDim ⟨2, ![1, 1280]⟩ ![]) (j : Fin 1280) :
    Host.divf (F := Ideal) (φ := .f32) x
        (broadcastInDim ⟨2, ![1, 1280]⟩ ![] h (constant (F := Ideal) ⟨0, ![]⟩ .f32 w)) (ix2 (0 : Fin 1) j)
      = Ideal.div (x (ix2 (0 : Fin 1) j)) (Ideal.ofBits .f32 w) := by
  refine (hostDivf_apply _ _ _).trans ?_
  refine congrArg (Ideal.div (x (ix2 (0 : Fin 1) j))) ?_
  exact (broadcastInDim_scalar_apply h _ _).trans (constant_apply (φ := .f32) w ix0)

end Cert.HostLayout

end
-- ==== Proof.KChain.lean ====
import proofs.«173914_j18305150615650_2_alg».proof.Proof.Gen.KernelIdeal.Frame
import proofs.«173914_j18305150615650_2_alg».proof.Proof.Gen.ReferenceIdeal.Read
import proofs.«173914_j18305150615650_2_alg».proof.Proof.SpecIdx
import proofs.«173914_j18305150615650_2_alg».proof.Proof.HostLayout
import Idealize.ShloMosaic.Lib.Pipeline.Value
import Idealize.ShloMosaic.Lib.StableHlo.Run

/-!
  The buffers the four grid launches read and write, followed through the program.

  Between the launches the host computes: before the first, the two neighbour sums, the third layer's columns
  permuted and the bias vectors as rows; between the second and the third, each accumulator row divided by the number
  of rows; after the third, the users' output viewed as 80000 × 128 × 10. A launch changes only its own output arrays
  and a stretch of host operations only the buffers it writes, so each buffer a launch reads is what the step that
  wrote it left.
-/

set_option maxRecDepth 16384

noncomputable section

namespace Cert.KernelIdeal.Chain

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## The arguments the first two launches read -/

/-- Argument 0 at the first launch's entry is the launch memory's. -/
theorem V1_arg0 : V1 m ρ c main_arg0 = m ((c : Thread nD τ).loc main_arg0) :=
  (show StableHlo.after hostOps0 (W0 m ρ c) (Proc.devRef .tc main_arg0) = W0 m ρ c (Proc.devRef .tc main_arg0) from
    StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- Argument 2 at the first launch's entry is the launch memory's. -/
theorem V1_arg2 : V1 m ρ c main_arg2 = m ((c : Thread nD τ).loc main_arg2) :=
  (show StableHlo.after hostOps0 (W0 m ρ c) (Proc.devRef .tc main_arg2) = W0 m ρ c (Proc.devRef .tc main_arg2) from
    StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- Argument 3 at the first launch's entry is the launch memory's. -/
theorem V1_arg3 : V1 m ρ c main_arg3 = m ((c : Thread nD τ).loc main_arg3) :=
  (show StableHlo.after hostOps0 (W0 m ρ c) (Proc.devRef .tc main_arg3) = W0 m ρ c (Proc.devRef .tc main_arg3) from
    StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- Argument 6 at the first launch's entry is the launch memory's. -/
theorem V1_arg6 : V1 m ρ c main_arg6 = m ((c : Thread nD τ).loc main_arg6) :=
  (show StableHlo.after hostOps0 (W0 m ρ c) (Proc.devRef .tc main_arg6) = W0 m ρ c (Proc.devRef .tc main_arg6) from
    StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- Argument 10 at the first launch's entry is the launch memory's. -/
theorem V1_arg10 : V1 m ρ c main_arg10 = m ((c : Thread nD τ).loc main_arg10) :=
  (show StableHlo.after hostOps0 (W0 m ρ c) (Proc.devRef .tc main_arg10) = W0 m ρ c (Proc.devRef .tc main_arg10) from
    StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- Argument 12 at the first launch's entry is the launch memory's. -/
theorem V1_arg12 : V1 m ρ c main_arg12 = m ((c : Thread nD τ).loc main_arg12) :=
  (show StableHlo.after hostOps0 (W0 m ρ c) (Proc.devRef .tc main_arg12) = W0 m ρ c (Proc.devRef .tc main_arg12) from
    StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- Argument 1 at the second launch's entry is the launch memory's. -/
theorem V2_arg1 : V2 m ρ c main_arg1 = m ((c : Thread nD τ).loc main_arg1) :=
  (W2_of_ne m ρ c main_arg1 (by decide)).trans
    ((show StableHlo.after hostOps0 (W0 m ρ c) (Proc.devRef .tc main_arg1) = W0 m ρ c (Proc.devRef .tc main_arg1) from
      StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-- Argument 8 at the second launch's entry is the launch memory's. -/
theorem V2_arg8 : V2 m ρ c main_arg8 = m ((c : Thread nD τ).loc main_arg8) :=
  (W2_of_ne m ρ c main_arg8 (by decide)).trans
    ((show StableHlo.after hostOps0 (W0 m ρ c) (Proc.devRef .tc main_arg8) = W0 m ρ c (Proc.devRef .tc main_arg8) from
      StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-- Argument 16 at the second launch's entry is the launch memory's. -/
theorem V2_arg16 : V2 m ρ c main_arg16 = m ((c : Thread nD τ).loc main_arg16) :=
  (W2_of_ne m ρ c main_arg16 (by decide)).trans
    ((show StableHlo.after hostOps0 (W0 m ρ c) (Proc.devRef .tc main_arg16) = W0 m ρ c (Proc.devRef .tc main_arg16) from
      StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-- Argument 18 at the second launch's entry is the launch memory's. -/
theorem V2_arg18 : V2 m ρ c main_arg18 = m ((c : Thread nD τ).loc main_arg18) :=
  (W2_of_ne m ρ c main_arg18 (by decide)).trans
    ((show StableHlo.after hostOps0 (W0 m ρ c) (Proc.devRef .tc main_arg18) = W0 m ρ c (Proc.devRef .tc main_arg18) from
      StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-- Argument 20 at the second launch's entry is the launch memory's. -/
theorem V2_arg20 : V2 m ρ c main_arg20 = m ((c : Thread nD τ).loc main_arg20) :=
  (W2_of_ne m ρ c main_arg20 (by decide)).trans
    ((show StableHlo.after hostOps0 (W0 m ρ c) (Proc.devRef .tc main_arg20) = W0 m ρ c (Proc.devRef .tc main_arg20) from
      StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-! ## What the host prepared before the first launch -/

/-- The launch arguments the host's layout steps read, as functions of their indices. -/
abbrev a7 : S128.Idx → EReal := m ((c : Thread nD τ).loc main_arg7)
abbrev a9 : S128.Idx → EReal := m ((c : Thread nD τ).loc main_arg9)
abbrev a11 : S1280.Idx → EReal := m ((c : Thread nD τ).loc main_arg11)
abbrev a13 : S64.Idx → EReal := m ((c : Thread nD τ).loc main_arg13)
abbrev a14 : S64x1280.Idx → EReal := m ((c : Thread nD τ).loc main_arg14)
abbrev a15 : S1280.Idx → EReal := m ((c : Thread nD τ).loc main_arg15)
abbrev a17 : S1280.Idx → EReal := m ((c : Thread nD τ).loc main_arg17)
abbrev a19 : S64.Idx → EReal := m ((c : Thread nD τ).loc main_arg19)
abbrev a21 : S1280.Idx → EReal := m ((c : Thread nD τ).loc main_arg21)

/-- The buffers the host wrote, at the first launch's entry, as functions of their indices. -/
abbrev b29 : S1x128.Idx → EReal := V1 m ρ c main_v29
abbrev b31 : S1x1280.Idx → EReal := V1 m ρ c main_v31
abbrev b32 : S1x64.Idx → EReal := V1 m ρ c main_v32
abbrev b25 : S64x1280.Idx → EReal := V1 m ρ c main_v25
abbrev b33 : S1x1280.Idx → EReal := V1 m ρ c main_v33
/-- … and at the second launch's entry. -/
abbrev b30 : S1x128.Idx → EReal := V2 m ρ c main_v30
abbrev b34 : S1x1280.Idx → EReal := V2 m ρ c main_v34
abbrev b35 : S1x64.Idx → EReal := V2 m ρ c main_v35
abbrev b36 : S1x1280.Idx → EReal := V2 m ρ c main_v36

/-- The users' neighbour sums: the same gather and scatter-add the reference makes. -/
theorem V1_v9 : V1 m ρ c main_v9 = Cert.ReferenceIdeal.Read.val_main_v9 (F := Ideal)
    (m ((c : Thread nD τ).loc main_arg1)) (m ((c : Thread nD τ).loc main_arg4)) (m ((c : Thread nD τ).loc main_arg5)) := by
  show StableHlo.after hostOps0 (W0 m ρ c) (Proc.devRef .tc main_v9) = _
  after_results_simp
  unfold Cert.ReferenceIdeal.Read.val_main_v9 Cert.ReferenceIdeal.Read.val_main_v8 Cert.ReferenceIdeal.Read.val_main_v7
    Cert.ReferenceIdeal.Read.val_main_cst Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_c_0 Cert.ReferenceIdeal.Read.val_main_v1 Cert.ReferenceIdeal.Read.val_main_v0
    Cert.ReferenceIdeal.Read.val_main_c
  rfl

/-- The items' neighbour sums, at the second launch's entry: the same average, gather and scatter-add the reference
    makes. -/
theorem V2_v22 : V2 m ρ c main_v22 = Cert.ReferenceIdeal.Read.val_main_v27 (F := Ideal)
    (m ((c : Thread nD τ).loc main_arg0)) (m ((c : Thread nD τ).loc main_arg3)) (m ((c : Thread nD τ).loc main_arg4))
    (m ((c : Thread nD τ).loc main_arg5)) := by
  refine (W2_of_ne m ρ c main_v22 (by decide)).trans ?_
  show StableHlo.after hostOps0 (W0 m ρ c) (Proc.devRef .tc main_v22) = _
  after_results_simp
  unfold Cert.ReferenceIdeal.Read.val_main_v27 Cert.ReferenceIdeal.Read.val_main_v26 Cert.ReferenceIdeal.Read.val_main_v25
    Cert.ReferenceIdeal.Read.val_main_cst_4 Cert.ReferenceIdeal.Read.val_main_v24 Cert.ReferenceIdeal.Read.val_main_v23
    Cert.ReferenceIdeal.Read.val_main_v22 Cert.ReferenceIdeal.Read.val_main_v21 Cert.ReferenceIdeal.Read.val_main_v20
    Cert.ReferenceIdeal.Read.val_main_c_3 Cert.ReferenceIdeal.Read.val_main_v19 Cert.ReferenceIdeal.Read.val_main_v18
    Cert.ReferenceIdeal.Read.val_main_c_2 Cert.ReferenceIdeal.Read.val_main_v17 Cert.ReferenceIdeal.Read.val_main_v16
    Cert.ReferenceIdeal.Read.val_main_cst_1 Cert.ReferenceIdeal.Read.val_main_v15
  rfl

/-- The first affine map's bias as a row: the users' bias vector, entry by entry. -/
theorem V1_v29_apply (q : Fin 128) : b29 m ρ c (ix2 (0 : Fin 1) q) = a7 m c (ix1 q) := by
  have e : b29 m ρ c = shapeCast S1x128 (a7 m c) shapeCasts_S128_S1x128 := by
    show StableHlo.after hostOps0 (W0 m ρ c) (Proc.devRef .tc main_v29) = _
    after_results_simp
    rfl
  exact (congrFun e _).trans (Cert.HostLayout.row_cast_apply _ _ q)

/-- The first tanh layer's bias as a row. -/
theorem V1_v31_apply (q : Fin 1280) : b31 m ρ c (ix2 (0 : Fin 1) q) = a11 m c (ix1 q) := by
  have e : b31 m ρ c = shapeCast S1x1280 (a11 m c) shapeCasts_S1280_S1x1280 := by
    show StableHlo.after hostOps0 (W0 m ρ c) (Proc.devRef .tc main_v31) = _
    after_results_simp
    rfl
  exact (congrFun e _).trans (Cert.HostLayout.row_cast_apply _ _ q)

/-- The second tanh layer's bias as a row. -/
theorem V1_v32_apply (q : Fin 64) : b32 m ρ c (ix2 (0 : Fin 1) q) = a13 m c (ix1 q) := by
  have e : b32 m ρ c = shapeCast S1x64 (a13 m c) shapeCasts_S64_S1x64 := by
    show StableHlo.after hostOps0 (W0 m ρ c) (Proc.devRef .tc main_v32) = _
    after_results_simp
    rfl
  exact (congrFun e _).trans (Cert.HostLayout.row_cast_apply _ _ q)

/-- The users' third-layer weights with each row's columns regrouped from 128 × 10 to 10 × 128. -/
theorem V1_v25_apply (h : Fin 64) (k : Fin 10) (d : Fin 128) : b25 m ρ c (ix2 h (kd k d)) = a14 m c (ix2 h (dk d k)) := by
  have e : b25 m ρ c = shapeCast S64x1280 (transpose S64x10x128 [0, 2, 1]
      (shapeCast S64x128x10 (a14 m c) shapeCasts_S64x1280_S64x128x10) transposes_S64x128x10_S64x10x128_0_2_1)
      shapeCasts_S64x10x128_S64x1280 := by
    show StableHlo.after hostOps0 (W0 m ρ c) (Proc.devRef .tc main_v25) = _
    after_results_simp
    rfl
  exact (congrFun e _).trans (Cert.HostLayout.w3_perm_apply _ _ _ _ h k d)

/-- The users' third-layer bias regrouped the same way, as a row. -/
theorem V1_v33_apply (k : Fin 10) (d : Fin 128) : b33 m ρ c (ix2 (0 : Fin 1) (kd k d)) = a15 m c (ix1 (dk d k)) := by
  have e : b33 m ρ c = shapeCast S1x1280 (shapeCast S1280 (transpose S10x128 [1, 0]
      (shapeCast S128x10 (a15 m c) shapeCasts_S1280_S128x10) transposes_S128x10_S10x128_1_0) shapeCasts_S10x128_S1280)
      shapeCasts_S1280_S1x1280 := by
    show StableHlo.after hostOps0 (W0 m ρ c) (Proc.devRef .tc main_v33) = _
    after_results_simp
    rfl
  exact (congrFun e _).trans (Cert.HostLayout.b3_perm_apply _ _ _ _ _ k d)

/-- The items' first bias as a row, at the second launch's entry. -/
theorem V2_v30_apply (q : Fin 128) : b30 m ρ c (ix2 (0 : Fin 1) q) = a9 m c (ix1 q) := by
  have e : b30 m ρ c = shapeCast S1x128 (a9 m c) shapeCasts_S128_S1x128 := by
    refine (W2_of_ne m ρ c main_v30 (by decide)).trans ?_
    show StableHlo.after hostOps0 (W0 m ρ c) (Proc.devRef .tc main_v30) = _
    after_results_simp
    rfl
  exact (congrFun e _).trans (Cert.HostLayout.row_cast_apply _ _ q)

/-- The items' first tanh layer's bias as a row. -/
theorem V2_v34_apply (q : Fin 1280) : b34 m ρ c (ix2 (0 : Fin 1) q) = a17 m c (ix1 q) := by
  have e : b34 m ρ c = shapeCast S1x1280 (a17 m c) shapeCasts_S1280_S1x1280 := by
    refine (W2_of_ne m ρ c main_v34 (by decide)).trans ?_
    show StableHlo.after hostOps0 (W0 m ρ c) (Proc.devRef .tc main_v34) = _
    after_results_simp
    rfl
  exact (congrFun e _).trans (Cert.HostLayout.row_cast_apply _ _ q)

/-- The items' second tanh layer's bias as a row. -/
theorem V2_v35_apply (q : Fin 64) : b35 m ρ c (ix2 (0 : Fin 1) q) = a19 m c (ix1 q) := by
  have e : b35 m ρ c = shapeCast S1x64 (a19 m c) shapeCasts_S64_S1x64 := by
    refine (W2_of_ne m ρ c main_v35 (by decide)).trans ?_
    show StableHlo.after hostOps0 (W0 m ρ c) (Proc.devRef .tc main_v35) = _
    after_results_simp
    rfl
  exact (congrFun e _).trans (Cert.HostLayout.row_cast_apply _ _ q)

/-- The items' third-layer bias as a row. -/
theorem V2_v36_apply (q : Fin 1280) : b36 m ρ c (ix2 (0 : Fin 1) q) = a21 m c (ix1 q) := by
  have e : b36 m ρ c = shapeCast S1x1280 (a21 m c) shapeCasts_S1280_S1x1280 := by
    refine (W2_of_ne m ρ c main_v36 (by decide)).trans ?_
    show StableHlo.after hostOps0 (W0 m ρ c) (Proc.devRef .tc main_v36) = _
    after_results_simp
    rfl
  exact (congrFun e _).trans (Cert.HostLayout.row_cast_apply _ _ q)

/-! ## Between the launches -/

/-- The two accumulator rows the first two launches leave, the users' block array the third launch leaves, as functions
    of their indices. -/
abbrev acc0 : S1x1280.Idx → EReal := (dat0 (V1 m ρ) c).arrAt 13 cfg0.N
abbrev acc1 : S1x1280.Idx → EReal := (dat1 (V2 m ρ) c).arrAt 11 cfg1.N
abbrev out2 : S80000x1280.Idx → EReal := (dat2 (V4 m ρ) c).arrAt 2 cfg2.N

/-- The column means the host computes, and the users' result it views as 80000 × 128 × 10. -/
abbrev b40 : S1x1280.Idx → EReal := V4 m ρ c main_v40
abbrev b42 : S1x1280.Idx → EReal := V6 m ρ c main_v42
abbrev b44 : S80000x128x10.Idx → EReal := W7 m ρ c (Proc.devRef .tc main_v44)

/-- The users' rows, at the third launch's entry, are what the first launch left. -/
theorem V4_v37_0 : V4 m ρ c main_v37_0 = (dat0 (V1 m ρ) c).arrAt 12 cfg0.N :=
  calc V4 m ρ c main_v37_0
    _ = W3 m ρ c (Proc.devRef .tc main_v37_0) := StableHlo.after_of_forall_not_mem (b := Proc.devRef .tc main_v37_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v37_0) := W3_of_ne m ρ c main_v37_0 (by decide)
    _ = (dat0 (V1 m ρ) c).arrAt 12 cfg0.N := W2_arr m ρ c 12

/-- The users' column means: the accumulator row the first launch left, over the number of users. -/
theorem V4_v40_apply (j : Fin 1280) : b40 m ρ c (ix2 (0 : Fin 1) j) = Ideal.div (acc0 m ρ c (ix2 (0 : Fin 1) j)) cU := by
  have e : b40 m ρ c = Host.divf (F := Ideal) (φ := .f32) (acc0 m ρ c)
      (broadcastInDim S1x1280 ![] bcast_S_S1x1280 (constant (F := Ideal) S_ .f32 0x479C4000#32)) := by
    show StableHlo.after hostOps2 (W3 m ρ c) (Proc.devRef .tc main_v40) = _
    after_results_simp
    exact congrArg (fun x => Host.divf (F := Ideal) (φ := .f32) x
      (broadcastInDim S1x1280 ![] bcast_S_S1x1280 (constant (F := Ideal) S_ .f32 0x479C4000#32)))
      ((W3_of_ne m ρ c main_v37_1 (by decide)).trans (W2_arr m ρ c 13))
  exact (congrFun e _).trans (Cert.HostLayout.mean_row_apply _ _ _ j)

/-- The items' rows, at the fourth launch's entry, are what the second launch left. -/
theorem V6_v38_0 : V6 m ρ c main_v38_0 = (dat1 (V2 m ρ) c).arrAt 10 cfg1.N :=
  calc V6 m ρ c main_v38_0
    _ = W5 m ρ c (Proc.devRef .tc main_v38_0) := StableHlo.after_of_forall_not_mem (b := Proc.devRef .tc main_v38_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v38_0) := W5_of_ne m ρ c main_v38_0 (by decide)
    _ = W3 m ρ c (Proc.devRef .tc main_v38_0) := StableHlo.after_of_forall_not_mem (b := Proc.devRef .tc main_v38_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (V2 m ρ) c).arrAt 10 cfg1.N := W3_arr m ρ c 10

/-- The items' column means: the accumulator row the second launch left, over the number of items. -/
theorem V6_v42_apply (j : Fin 1280) : b42 m ρ c (ix2 (0 : Fin 1) j) = Ideal.div (acc1 m ρ c (ix2 (0 : Fin 1) j)) cI := by
  have e : b42 m ρ c = Host.divf (F := Ideal) (φ := .f32) (acc1 m ρ c)
      (broadcastInDim S1x1280 ![] bcast_S_S1x1280 (constant (F := Ideal) S_ .f32 0x471C4000#32)) := by
    refine (StableHlo.after_of_forall_not_mem (b := Proc.devRef .tc main_v42) _ _ (List.forall_iff_forall_mem.mp (by
        simp only [hostOps3, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))).trans ?_
    refine (W5_of_ne m ρ c main_v42 (by decide)).trans ?_
    show StableHlo.after hostOps2 (W3 m ρ c) (Proc.devRef .tc main_v42) = _
    after_results_simp
    exact congrArg (fun x => Host.divf (F := Ideal) (φ := .f32) x
      (broadcastInDim S1x1280 ![] bcast_S_S1x1280 (constant (F := Ideal) S_ .f32 0x471C4000#32)))
      (W3_arr m ρ c 11)
  exact (congrFun e _).trans (Cert.HostLayout.mean_row_apply _ _ _ j)

/-! ## The two results -/

/-- The users' result: the block array the third launch left, its 1280 columns viewed as 128 × 10. -/
theorem W7_v44_apply (u : Fin 80000) (d : Fin 128) (k : Fin 10) : b44 m ρ c (ix3 u d k) = out2 m ρ c (ix2 u (dk d k)) := by
  have e : b44 m ρ c = shapeCast S80000x128x10 (out2 m ρ c) shapeCasts_S80000x1280_S80000x128x10 := by
    refine (W7_of_ne m ρ c main_v44 (by decide)).trans ?_
    show StableHlo.after hostOps3 (W5 m ρ c) (Proc.devRef .tc main_v44) = _
    after_results_simp
    exact congrArg (fun x => shapeCast S80000x128x10 x shapeCasts_S80000x1280_S80000x128x10) (W5_arr m ρ c 2)
  exact (congrFun e _).trans (Cert.HostLayout.out_cast_apply _ _ u d k)

/-- The items' result is the block array the fourth launch left. -/
theorem W7_v45 : W7 m ρ c (Proc.devRef .tc main_v45) = (dat3 (V6 m ρ) c).arrAt 2 cfg3.N := W7_arr m ρ c 2

end Cert.KernelIdeal.Chain

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«173914_j18305150615650_2_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibPayRows.lean ====
/-
  Rows of a block read entry by entry, at the extended reals.

  * blocks of 128 columns laid side by side: a row of the result is the blocks' rows side by side;
  * an affine layer, computed as a matrix product into a zero accumulator plus a one-row bias repeated down the rows:
    row `p` of the result is `x · W + b` for the row `x` of the left operand;
  * a block divided, row by row, by the row's Euclidean length kept at least a small constant;
  * the sum of a block's rows added to a one-row accumulator.
-/
import Idealize.ShloMosaic.Lib.ValueIdx
import Idealize.ShloMosaic.Lib.ValueLayout
import Idealize.ShloMosaic.Lib.Pipeline.Value
import Idealize.ShloMosaic.PureOps.Ideal.Laws
import proofs.«173914_j18305150615650_2_alg».proof.Proof.Spec
import proofs.«173914_j18305150615650_2_alg».proof.Proof.LibMatmulRows
import proofs.«173914_j18305150615650_2_alg».proof.Proof.LibRowOps
import proofs.«173914_j18305150615650_2_alg».proof.Proof.LibColumn

noncomputable section

namespace Cert.LibPayRows

open Idealize.ShloMosaic Idealize.ShloMosaic.ValueIdx Cert.Spec

/-! ## Blocks side by side -/

section four
variable {α : Type} {a : ℕ} (x0 x1 x2 x3 : (⟨2, ![a, 128]⟩ : Shape).Idx → α)
    (h : Shape.Concatenates [(⟨2, ![a, 128]⟩ : Shape), ⟨2, ![a, 128]⟩, ⟨2, ![a, 128]⟩, ⟨2, ![a, 128]⟩] ⟨2, ![a, 512]⟩ 1)
    (r : Fin a) (q : Fin 512) (c : Fin 128)

/-- Four blocks of 128 columns side by side, read at a column of the first block. -/
theorem concat4_at0 (hc : 0 + c.val = q.val) :
    concatenate ⟨2, ![a, 512]⟩ 1 [⟨⟨2, ![a, 128]⟩, x0⟩, ⟨⟨2, ![a, 128]⟩, x1⟩, ⟨⟨2, ![a, 128]⟩, x2⟩, ⟨⟨2, ![a, 128]⟩, x3⟩] h (ix2 r q) = x0 (ix2 r c) := by
  refine concatenate_apply_piece (t := ⟨2, ![a, 512]⟩) (1 : Fin 2) [⟨⟨2, ![a, 128]⟩, x0⟩, ⟨⟨2, ![a, 128]⟩, x1⟩, ⟨⟨2, ![a, 128]⟩, x2⟩, ⟨⟨2, ![a, 128]⟩, x3⟩] h (ix2 r q) 0 (by simp) ⟨2, ![a, 128]⟩ x0 rfl rfl 0 rfl (ix2 r c) ?_ hc
  intro b hb
  match b with
  | ⟨0, _⟩ => rfl
  | ⟨1, _⟩ => exact absurd rfl hb

/-- … a column of the second block. -/
theorem concat4_at1 (hc : 128 + c.val = q.val) :
    concatenate ⟨2, ![a, 512]⟩ 1 [⟨⟨2, ![a, 128]⟩, x0⟩, ⟨⟨2, ![a, 128]⟩, x1⟩, ⟨⟨2, ![a, 128]⟩, x2⟩, ⟨⟨2, ![a, 128]⟩, x3⟩] h (ix2 r q) = x1 (ix2 r c) := by
  refine concatenate_apply_piece (t := ⟨2, ![a, 512]⟩) (1 : Fin 2) [⟨⟨2, ![a, 128]⟩, x0⟩, ⟨⟨2, ![a, 128]⟩, x1⟩, ⟨⟨2, ![a, 128]⟩, x2⟩, ⟨⟨2, ![a, 128]⟩, x3⟩] h (ix2 r q) 1 (by simp) ⟨2, ![a, 128]⟩ x1 rfl rfl 128 rfl (ix2 r c) ?_ hc
  intro b hb
  match b with
  | ⟨0, _⟩ => rfl
  | ⟨1, _⟩ => exact absurd rfl hb

/-- … a column of the third block. -/
theorem concat4_at2 (hc : 256 + c.val = q.val) :
    concatenate ⟨2, ![a, 512]⟩ 1 [⟨⟨2, ![a, 128]⟩, x0⟩, ⟨⟨2, ![a, 128]⟩, x1⟩, ⟨⟨2, ![a, 128]⟩, x2⟩, ⟨⟨2, ![a, 128]⟩, x3⟩] h (ix2 r q) = x2 (ix2 r c) := by
  refine concatenate_apply_piece (t := ⟨2, ![a, 512]⟩) (1 : Fin 2) [⟨⟨2, ![a, 128]⟩, x0⟩, ⟨⟨2, ![a, 128]⟩, x1⟩, ⟨⟨2, ![a, 128]⟩, x2⟩, ⟨⟨2, ![a, 128]⟩, x3⟩] h (ix2 r q) 2 (by simp) ⟨2, ![a, 128]⟩ x2 rfl rfl 256 rfl (ix2 r c) ?_ hc
  intro b hb
  match b with
  | ⟨0, _⟩ => rfl
  | ⟨1, _⟩ => exact absurd rfl hb

/-- … a column of the fourth block. -/
theorem concat4_at3 (hc : 384 + c.val = q.val) :
    concatenate ⟨2, ![a, 512]⟩ 1 [⟨⟨2, ![a, 128]⟩, x0⟩, ⟨⟨2, ![a, 128]⟩, x1⟩, ⟨⟨2, ![a, 128]⟩, x2⟩, ⟨⟨2, ![a, 128]⟩, x3⟩] h (ix2 r q) = x3 (ix2 r c) := by
  refine concatenate_apply_piece (t := ⟨2, ![a, 512]⟩) (1 : Fin 2) [⟨⟨2, ![a, 128]⟩, x0⟩, ⟨⟨2, ![a, 128]⟩, x1⟩, ⟨⟨2, ![a, 128]⟩, x2⟩, ⟨⟨2, ![a, 128]⟩, x3⟩] h (ix2 r q) 3 (by simp) ⟨2, ![a, 128]⟩ x3 rfl rfl 384 rfl (ix2 r c) ?_ hc
  intro b hb
  match b with
  | ⟨0, _⟩ => rfl
  | ⟨1, _⟩ => exact absurd rfl hb

end four

section two
variable {α : Type} {a : ℕ} (x0 x1 : (⟨2, ![a, 128]⟩ : Shape).Idx → α)
    (h : Shape.Concatenates [(⟨2, ![a, 128]⟩ : Shape), ⟨2, ![a, 128]⟩] ⟨2, ![a, 256]⟩ 1)
    (r : Fin a) (q : Fin 256) (c : Fin 128)

/-- Two blocks of 128 columns side by side, read at a column of the first block. -/
theorem concat2_at0 (hc : 0 + c.val = q.val) :
    concatenate ⟨2, ![a, 256]⟩ 1 [⟨⟨2, ![a, 128]⟩, x0⟩, ⟨⟨2, ![a, 128]⟩, x1⟩] h (ix2 r q) = x0 (ix2 r c) := by
  refine concatenate_apply_piece (t := ⟨2, ![a, 256]⟩) (1 : Fin 2) [⟨⟨2, ![a, 128]⟩, x0⟩, ⟨⟨2, ![a, 128]⟩, x1⟩] h (ix2 r q) 0 (by simp) ⟨2, ![a, 128]⟩ x0 rfl rfl 0 rfl (ix2 r c) ?_ hc
  intro b hb
  match b with
  | ⟨0, _⟩ => rfl
  | ⟨1, _⟩ => exact absurd rfl hb

/-- … a column of the second block. -/
theorem concat2_at1 (hc : 128 + c.val = q.val) :
    concatenate ⟨2, ![a, 256]⟩ 1 [⟨⟨2, ![a, 128]⟩, x0⟩, ⟨⟨2, ![a, 128]⟩, x1⟩] h (ix2 r q) = x1 (ix2 r c) := by
  refine concatenate_apply_piece (t := ⟨2, ![a, 256]⟩) (1 : Fin 2) [⟨⟨2, ![a, 128]⟩, x0⟩, ⟨⟨2, ![a, 128]⟩, x1⟩] h (ix2 r q) 1 (by simp) ⟨2, ![a, 128]⟩ x1 rfl rfl 128 rfl (ix2 r c) ?_ hc
  intro b hb
  match b with
  | ⟨0, _⟩ => rfl
  | ⟨1, _⟩ => exact absurd rfl hb

end two

/-- Row `r` of four blocks side by side is the four rows side by side. -/
theorem concat4_row {a : ℕ} (x0 x1 x2 x3 : Mat a 128)
    (h : Shape.Concatenates [(⟨2, ![a, 128]⟩ : Shape), ⟨2, ![a, 128]⟩, ⟨2, ![a, 128]⟩, ⟨2, ![a, 128]⟩] ⟨2, ![a, 512]⟩ 1)
    (r : Fin a) (q : Fin 512) :
    concatenate ⟨2, ![a, 512]⟩ 1 [⟨⟨2, ![a, 128]⟩, x0⟩, ⟨⟨2, ![a, 128]⟩, x1⟩, ⟨⟨2, ![a, 128]⟩, x2⟩, ⟨⟨2, ![a, 128]⟩, x3⟩] h (ix2 r q) = cat4 (row x0 r) (row x1 r) (row x2 r) (row x3 r) q := by
  have hq := q.isLt
  unfold cat4
  by_cases h0 : q.val < 128
  · rw [dif_pos h0]
    exact concat4_at0 x0 x1 x2 x3 h r q ⟨q.val, h0⟩ (Nat.zero_add _)
  · rw [dif_neg h0]
    by_cases h1 : q.val < 256
    · rw [dif_pos h1]
      exact concat4_at1 x0 x1 x2 x3 h r q ⟨q.val - 128, by omega⟩ (by show 128 + (q.val - 128) = q.val; omega)
    · rw [dif_neg h1]
      by_cases h2 : q.val < 384
      · rw [dif_pos h2]
        exact concat4_at2 x0 x1 x2 x3 h r q ⟨q.val - 256, by omega⟩ (by show 256 + (q.val - 256) = q.val; omega)
      · rw [dif_neg h2]
        exact concat4_at3 x0 x1 x2 x3 h r q ⟨q.val - 384, by omega⟩ (by show 384 + (q.val - 384) = q.val; omega)

/-- Row `r` of two blocks side by side is the two rows side by side. -/
theorem concat2_row {a : ℕ} (x0 x1 : Mat a 128)
    (h : Shape.Concatenates [(⟨2, ![a, 128]⟩ : Shape), ⟨2, ![a, 128]⟩] ⟨2, ![a, 256]⟩ 1)
    (r : Fin a) (q : Fin 256) :
    concatenate ⟨2, ![a, 256]⟩ 1 [⟨⟨2, ![a, 128]⟩, x0⟩, ⟨⟨2, ![a, 128]⟩, x1⟩] h (ix2 r q) = cat2 (row x0 r) (row x1 r) q := by
  have hq := q.isLt
  unfold cat2
  by_cases h0 : q.val < 128
  · rw [dif_pos h0]
    exact concat2_at0 x0 x1 h r q ⟨q.val, h0⟩ (Nat.zero_add _)
  · rw [dif_neg h0]
    exact concat2_at1 x0 x1 h r q ⟨q.val - 128, by omega⟩ (by show 128 + (q.val - 128) = q.val; omega)

/-! ## A one-row bias repeated down the rows -/

/-- A `1 × c` row (cast to its own shape) repeated along `a` rows reads, at `(p, n)`, the row's entry `n`. -/
theorem bias_rows_apply {α : Type} {a c : ℕ} (v : (⟨2, ![1, c]⟩ : Shape).Idx → α) (hs : (⟨2, ![1, c]⟩ : Shape).ShapeCasts ⟨2, ![1, c]⟩)
    (hb : (⟨2, ![1, c]⟩ : Shape).Broadcasts ⟨2, ![a, c]⟩) (p : Fin a) (n : Fin c) :
    broadcastTo ⟨2, ![a, c]⟩ (shapeCast ⟨2, ![1, c]⟩ v hs) hb (ix2 p n) = v (ix2 (0 : Fin 1) n) :=
  (broadcastTo_1b_ab_apply _ hb p n).trans (congrFun (shapeCast_self v hs) _)

/-! ## An affine layer -/

/-- A product of an `a × b` block by a `b × c` matrix into a zero accumulator, plus a one-row bias repeated down the
    rows, read at `(p, n)`: `x · W + b` at `n`, for any reading `x` of the left operand's row `p`, `W'` of the matrix and
    `b'` of the bias row. -/
theorem layer_apply {a b c : ℕ} {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (W : FVec Ideal ⟨2, ![b, c]⟩ φ₂) (bias : FVec Ideal ⟨2, ![1, c]⟩ .f32)
    (hb : (⟨2, ![1, c]⟩ : Shape).Broadcasts ⟨2, ![a, c]⟩) (p : Fin a) (n : Fin c)
    (x : Fin b → EReal) (W' : Mat b c) (b' : Fin c → EReal)
    (hx : ∀ k, A (ix2 p k) = x k) (hW : ∀ k n, W (ix2 k n) = W' (ix2 k n)) (hbias : ∀ n, bias (ix2 (0 : Fin 1) n) = b' n) :
    addf (FloatOps.matmul d none A W (constant ⟨2, ![a, c]⟩ .f32 0x00000000#32)) (broadcastTo ⟨2, ![a, c]⟩ bias hb) (ix2 p n)
      = affine x W' b' n := by
  show FloatOps.matmul d none A W (constant ⟨2, ![a, c]⟩ .f32 0x00000000#32) (ix2 p n) + broadcastTo ⟨2, ![a, c]⟩ bias hb (ix2 p n)
      = (∑ k : Fin b, x k * W' (ix2 k n)) + b' n
  rw [Cert.LibMatmulRows.matmul_rows_apply d hlc hrc hln hrn hlb hrb A W p n, broadcastTo_1b_ab_apply bias hb p n, hbias n]
  refine congrArg (· + b' n) (Finset.sum_congr rfl fun k _ => ?_)
  rw [hx k, hW k n]

/-! ## A row over its length -/

/-- A block divided by the column of its rows' lengths, each kept at least the small constant, read at `(r, j)`: the
    row over its length. -/
theorem unitize_rows_apply {a : ℕ} (X : FVec Ideal ⟨2, ![a, 1280]⟩ .f32)
    (hred : (⟨2, ![a, 1280]⟩ : Shape).Reduces [1] ⟨1, ![a]⟩) (hφ : FKind.Formats .f32)
    (hacc : (0x00000000#32 : BitVec (FTy.bits .f32)) = FKind.add.neutral .f32 hφ)
    (hcast : (⟨1, ![a]⟩ : Shape).ShapeCasts ⟨2, ![a, 1]⟩) (hbc : (⟨2, ![a, 1]⟩ : Shape).Broadcasts ⟨2, ![a, 1280]⟩)
    (r : Fin a) (j : Fin 1280) :
    divf X (broadcastTo ⟨2, ![a, 1280]⟩
        (maximumf (sqrt (shapeCast ⟨2, ![a, 1]⟩ (multiReduction .add [1] ⟨1, ![a]⟩ (mulf X X) 0x00000000#32 hred hφ hacc) hcast))
          (broadcast ⟨2, ![a, 1]⟩ (FloatOps.ofBits (F := Ideal) .f32 0x2B8CBCCC#32))) hbc) (ix2 r j)
      = unitize (fun q => X (ix2 r q)) j := by
  show Ideal.div (X (ix2 r j)) (broadcastTo ⟨2, ![a, 1280]⟩
        (maximumf (sqrt (shapeCast ⟨2, ![a, 1]⟩ (multiReduction .add [1] ⟨1, ![a]⟩ (mulf X X) 0x00000000#32 hred hφ hacc) hcast))
          (broadcast ⟨2, ![a, 1]⟩ (FloatOps.ofBits (F := Ideal) .f32 0x2B8CBCCC#32))) hbc (ix2 r j))
      = Ideal.div (X (ix2 r j)) (max (Ideal.sqrt (∑ q : Fin 1280, X (ix2 r q) * X (ix2 r q))) eps)
  refine congrArg (Ideal.div (X (ix2 r j))) ?_
  refine (Cert.LibColumn.broadcastTo_a1_ab_apply _ hbc r j).trans ?_
  show max (Ideal.sqrt (shapeCast ⟨2, ![a, 1]⟩ (multiReduction .add [1] ⟨1, ![a]⟩ (mulf X X) 0x00000000#32 hred hφ hacc) hcast (ix2 r (0 : Fin 1)))) eps
      = max (Ideal.sqrt (∑ q : Fin 1280, X (ix2 r q) * X (ix2 r q))) eps
  refine congrArg (fun t => max (Ideal.sqrt t) eps) ?_
  refine (Cert.LibColumn.shapeCast_a_a1_apply _ hcast r (0 : Fin 1)).trans ?_
  exact Cert.LibRowOps.multiReduction_row_apply (mulf X X) 0x00000000#32 hred hφ hacc r

/-! ## The rows' sum added to a one-row accumulator -/

/-- The index a reduction over the rows lifts `(j)` and the position `k` to is `(k, j)`. -/
theorem lift_col {a b : ℕ} (h : (⟨2, ![a, b]⟩ : Shape).Reduces [0] ⟨1, ![b]⟩) (j : Fin b) (k : Fin a) :
    h.lift (ix1 j) k = ix2 k j := by
  funext c
  apply Fin.ext
  show h.liftVal (ix1 j) k.val c = (ix2 k j c).val
  match c with
  | ⟨0, _⟩ => simp [Shape.Reduces.liftVal]
  | ⟨1, _⟩ => simp [Shape.Reduces.liftVal]

/-- A sum of an `a × b` block over its rows, at column `j`: the sum of the column's entries. -/
theorem multiReduction_col_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_col h j k))

/-- A one-row accumulator plus the sum of a block's rows (the sum cast to one row), read at column `j`. -/
theorem colsum_acc_apply {a b : ℕ} (X : FVec Ideal ⟨2, ![a, b]⟩ .f32) (v : FVec Ideal ⟨2, ![1, b]⟩ .f32)
    (hs : (⟨2, ![1, b]⟩ : Shape).ShapeCasts ⟨2, ![1, b]⟩)
    (hred : (⟨2, ![a, b]⟩ : Shape).Reduces [0] ⟨1, ![b]⟩) (hφ : FKind.Formats .f32)
    (hacc : (0x00000000#32 : BitVec (FTy.bits .f32)) = FKind.add.neutral .f32 hφ)
    (hcast : (⟨1, ![b]⟩ : Shape).ShapeCasts ⟨2, ![1, b]⟩) (j : Fin b) :
    addf (shapeCast ⟨2, ![1, b]⟩ v hs)
        (shapeCast ⟨2, ![1, b]⟩ (multiReduction .add [0] ⟨1, ![b]⟩ X 0x00000000#32 hred hφ hacc) hcast) (ix2 (0 : Fin 1) j)
      = v (ix2 (0 : Fin 1) j) + ∑ k : Fin a, X (ix2 k j) := by
  show shapeCast ⟨2, ![1, b]⟩ v hs (ix2 (0 : Fin 1) j)
      + shapeCast ⟨2, ![1, b]⟩ (multiReduction .add [0] ⟨1, ![b]⟩ X 0x00000000#32 hred hφ hacc) hcast (ix2 (0 : Fin 1) j)
      = v (ix2 (0 : Fin 1) j) + ∑ k : Fin a, X (ix2 k j)
  rw [shapeCast_self v hs, shapeCast_a_1a_apply _ hcast (0 : Fin 1) j, multiReduction_col_apply X 0x00000000#32 hred hφ hacc j]

end Cert.LibPayRows

end
-- ==== Proof.KPayU.lean ====
/-
  The first kernel's arithmetic, entry by entry, at the extended reals.

  One block of 800 users: the four feature blocks side by side go through the first affine map, two affine maps each
  followed by tanh, a third affine map, and every row is divided by its Euclidean length (kept at least a small
  constant). Entry `(r, j)` of the block the kernel stores is entry `j` of the specification's `userRow` of the four
  feature rows `r`; the one-row accumulator it stores gains, at column `j`, the sum of these over the 800 rows; and
  the accumulator starts from zero.
-/
import proofs.«173914_j18305150615650_2_alg».proof.Proof.Gen.KernelIdeal.Skeleton
import proofs.«173914_j18305150615650_2_alg».proof.Proof.Spec
import proofs.«173914_j18305150615650_2_alg».proof.Proof.LibPayRows

noncomputable section

namespace Cert.KPayU

open Cert.KernelIdeal Cert.KernelIdeal.Gen Cert.Spec Idealize.ShloMosaic Idealize.ShloMosaic.ValueIdx

/-- The bias of the second tanh layer, repeated down the 800 rows. -/
theorem pay5_apply (v30 : Vec Ideal S1x64 .f32) (r : Fin 800) (h : Fin 64) :
    k0_pay5 (F := Ideal) v30 (ix2 r h) = v30 (ix2 (0 : Fin 1) h) :=
  Cert.LibPayRows.bias_rows_apply v30 shapeCasts_S1x64_S1x64 broadcasts_S1x64_S800x64 r h

variable (v3 v4 v5 v6 : Vec Ideal S800x128 .f32) (v10 : Vec Ideal S512x128 .f32) (v13 : Vec Ideal S1x128 .f32)
  (v18 : Vec Ideal S128x1280 .f32) (v21 : Vec Ideal S1x1280 .f32) (v27 : Vec Ideal S1280x64 .f32) (v30 : Vec Ideal S1x64 .f32)
  (v36 : Vec Ideal S64x1280 .f32) (v40 : Vec Ideal S1x1280 .f32)

/-- The second tanh layer's product, before its bias: at `(r, h)`, the sum over the 1280 hidden units of the first
    layer's tanh times the weight. -/
theorem pay4_apply (r : Fin 800) (h : Fin 64) :
    k0_pay4 (F := Ideal) v3 v4 v5 v6 v10 v13 v18 v21 v27 (ix2 r h)
      = ∑ k : Fin 1280, Ideal.tanh (affine (affine (cat4 (row v3 r) (row v4 r) (row v5 r) (row v6 r)) v10 (row v13 0))
          v18 (row v21 0) k) * v27 (ix2 k h) := by
  unfold k0_pay4
  refine (Cert.LibMatmulRows.matmul_rows_apply dot_S800x1280_S1280x64_S800x64_1_0_0_1_n_n rfl rfl rfl rfl rfl rfl _ _ r h).trans ?_
  refine Finset.sum_congr rfl fun k _ => congrArg (· * v27 (ix2 k h)) (congrArg Ideal.tanh ?_)
  refine Cert.LibPayRows.layer_apply dot_S800x128_S128x1280_S800x1280_1_0_0_1_n_n rfl rfl rfl rfl rfl rfl _ _ _ _ r k _ v18 (row v21 0)
    (fun k' => ?_) (fun _ _ => rfl) (fun n => congrFun (shapeCast_self v21 shapeCasts_S1x1280_S1x1280) (ix2 (0 : Fin 1) n))
  refine Cert.LibPayRows.layer_apply dot_S800x512_S512x128_S800x128_1_0_0_1_n_n rfl rfl rfl rfl rfl rfl _ _ _ _ r k' _ v10 (row v13 0)
    (fun q => ?_) (fun _ _ => rfl) (fun n => congrFun (shapeCast_self v13 shapeCasts_S1x128_S1x128) (ix2 (0 : Fin 1) n))
  refine (Cert.LibPayRows.concat4_row (a := 800) v3 v4 v5 (shapeCast S800x128 v6 shapeCasts_S800x128_S800x128)
    concatenates_S800x128_S800x128_S800x128_S800x128_S800x512_d1 r q).trans ?_
  rw [shapeCast_self v6 shapeCasts_S800x128_S800x128]

/-- THE STORED BLOCK at `(r, j)`: the specification's row of user `r` at `j`. -/
theorem meta_apply (r : Fin 800) (j : Fin 1280) :
    k0_pay1 (F := Ideal) (k0_pay4 v3 v4 v5 v6 v10 v13 v18 v21 v27) (k0_pay5 v30) v36 v40 (ix2 r j)
      = userRow (row v3 r) (row v4 r) (row v5 r) (row v6 r) v10 (row v13 0) v18 (row v21 0) v27 (row v30 0) v36 (row v40 0) j := by
  unfold k0_pay1
  refine (Cert.LibPayRows.unitize_rows_apply _ reduces_S800x1280_S800 _ _ shapeCasts_S800_S800x1 broadcasts_S800x1_S800x1280 r j).trans ?_
  unfold userRow mlp3
  refine congrArg (fun v => unitize v j) (funext fun q => ?_)
  refine Cert.LibPayRows.layer_apply dot_S800x64_S64x1280_S800x1280_1_0_0_1_n_n rfl rfl rfl rfl rfl rfl _ _ _ _ r q _ v36 (row v40 0)
    (fun h => ?_) (fun k n => congrFun (shapeCast_self v36 shapeCasts_S64x1280_S64x1280) (ix2 k n))
    (fun n => congrFun (shapeCast_self v40 shapeCasts_S1x1280_S1x1280) (ix2 (0 : Fin 1) n))
  show Ideal.tanh (k0_pay4 (F := Ideal) v3 v4 v5 v6 v10 v13 v18 v21 v27 (ix2 r h) + k0_pay5 (F := Ideal) v30 (ix2 r h)) = _
  rw [pay4_apply, pay5_apply]
  rfl

/-- THE STORED ACCUMULATOR at column `j`: what it held plus the sum of the 800 rows' entries `j`. -/
theorem acc_apply (v53 : Vec Ideal S1x1280 .f32) (j : Fin 1280) :
    k0_pay2 (F := Ideal) (k0_pay4 v3 v4 v5 v6 v10 v13 v18 v21 v27) (k0_pay5 v30) v36 v40 v53 (ix2 (0 : Fin 1) j)
      = v53 (ix2 (0 : Fin 1) j) + ∑ r : Fin 800, userRow (row v3 r) (row v4 r) (row v5 r) (row v6 r) v10 (row v13 0) v18 (row v21 0)
          v27 (row v30 0) v36 (row v40 0) j := by
  unfold k0_pay2
  refine (Cert.LibPayRows.colsum_acc_apply _ v53 shapeCasts_S1x1280_S1x1280 reduces_S800x1280_S1280 _ _ shapeCasts_S1280_S1x1280 j).trans ?_
  exact congrArg (v53 (ix2 (0 : Fin 1) j) + ·) (Finset.sum_congr rfl fun r _ => meta_apply v3 v4 v5 v6 v10 v13 v18 v21 v27 v30 v36 v40 r j)

/-- The accumulator's first value: zero in every column. -/
theorem zero_apply (j : Fin 1280) : k0_pay3 (F := Ideal) (ix2 (0 : Fin 1) j) = 0 := Ideal.ofBits_zero_f32

end Cert.KPayU

end
-- ==== Proof.KCases0.lean ====
import proofs.«173914_j18305150615650_2_alg».proof.Proof.Gen.KernelIdeal.Frame
import Idealize.ShloMosaic.Lib.Pipeline.Value
import Idealize.ShloMosaic.Lib.Tactic

/-!
  The first grid launch (users' rows), case by case: what the body leaves in its two output buffers.

  At every point the body stores the block of normalized rows computed from the point's input blocks; into the one-row
  accumulator it stores the accumulator's previous contents plus the column sums of that block, the previous contents
  being the zero row at the first point (where the body has just stored it) and what the point before left otherwise.
  Each buffer is covered by one store through the whole buffer (the accumulator's, at the first point, by the zero
  row's store and then the sum's), so what it holds afterwards is that store's value; the loads read whole buffers.
-/

set_option maxRecDepth 16384

noncomputable section

namespace Cert.KernelIdeal.Cases0

open Cert.KernelIdeal Cert.KernelIdeal.Gen
open Idealize.ShloMosaic Idealize.ShloMosaic.TcCoe Idealize.SL.Sem
open Idealize.ShloMosaic.Pipeline (Dat)
open Idealize.ShloMosaic.Tactic

variable {F : FTy → Type} [FloatOps F]

/-- The zero offsets of a whole-buffer access. -/
theorem hz : (![0, 0] : Fin 2 → Nat) = fun _ => 0 := funext fun a => by fin_cases a <;> rfl

/-- First point: the rows' buffer holds the block of normalized rows. -/
theorem out_A_12 (c : Dev nD) (i : grid0.Coords) (a1 : Memref sig .tc .vmem S800x128 .f32) (h1 : a1.IsWhole) (a2 : Memref sig .tc .vmem S800x128 .f32) (h2 : a2.IsWhole) (a3 : Memref sig .tc .vmem S800x128 .f32) (h3 : a3.IsWhole) (a4 : Memref sig .tc .vmem S800x128 .f32) (h4 : a4.IsWhole) (a5 : Memref sig .tc .vmem S512x128 .f32) (h5 : a5.IsWhole) (a6 : Memref sig .tc .vmem S1x128 .f32) (h6 : a6.IsWhole) (a7 : Memref sig .tc .vmem S128x1280 .f32) (h7 : a7.IsWhole) (a8 : Memref sig .tc .vmem S1x1280 .f32) (h8 : a8.IsWhole) (a9 : Memref sig .tc .vmem S1280x64 .f32) (h9 : a9.IsWhole) (a10 : Memref sig .tc .vmem S1x64 .f32) (h10 : a10.IsWhole) (a11 : Memref sig .tc .vmem S64x1280 .f32) (h11 : a11.IsWhole) (a12 : Memref sig .tc .vmem S1x1280 .f32) (h12 : a12.IsWhole) (a13 : Memref sig .tc .vmem S800x1280 .f32) (h13 : a13.IsWhole) (a14 : Memref sig .tc .vmem S1x1280 .f32) (h14 : a14.IsWhole) (hc : cond0_0 i) (x0 : Vec F S800x128 .f32) (x1 : Vec F S800x128 .f32) (x2 : Vec F S800x128 .f32) (x3 : Vec F S800x128 .f32) (x4 : Vec F S512x128 .f32) (x5 : Vec F S1x128 .f32) (x6 : Vec F S128x1280 .f32) (x7 : Vec F S1x1280 .f32) (x8 : Vec F S1280x64 .f32) (x9 : Vec F S1x64 .f32) (x10 : Vec F S64x1280 .f32) (x11 : Vec F S1x1280 .f32) :
    out0_A_12 c i a1 h1 a2 h2 a3 h3 a4 h4 a5 h5 a6 h6 a7 h7 a8 h8 a9 h9 a10 h10 a11 h11 a12 h12 a13 h13 a14 h14 hc x0 x1 x2 x3 x4 x5 x6 x7 x8 x9 x10 x11 = k0_pay1 (k0_pay4 x0 x1 x2 x3 x4 x5 x6 x7 x8) (k0_pay5 x9) x10 x11 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc x0 x1 x2 x3 x4 x5 x6 x7 x8 x9 x10 x11)]
  unfold kernelRun0_A
  dsimp only
  rw [View.canon_unit_zero hz]
  sl_unfold_run_names
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S800x128) hz, View.ld_unit_zero (S := S512x128) hz, View.ld_unit_zero (S := S1x128) hz, View.ld_unit_zero (S := S128x1280) hz, View.ld_unit_zero (S := S1x1280) hz, View.ld_unit_zero (S := S1280x64) hz, View.ld_unit_zero (S := S1x64) hz, View.ld_unit_zero (S := S64x1280) hz]

/-- First point: the accumulator holds the zero row plus the block's column sums. -/
theorem out_A_13 (c : Dev nD) (i : grid0.Coords) (a1 : Memref sig .tc .vmem S800x128 .f32) (h1 : a1.IsWhole) (a2 : Memref sig .tc .vmem S800x128 .f32) (h2 : a2.IsWhole) (a3 : Memref sig .tc .vmem S800x128 .f32) (h3 : a3.IsWhole) (a4 : Memref sig .tc .vmem S800x128 .f32) (h4 : a4.IsWhole) (a5 : Memref sig .tc .vmem S512x128 .f32) (h5 : a5.IsWhole) (a6 : Memref sig .tc .vmem S1x128 .f32) (h6 : a6.IsWhole) (a7 : Memref sig .tc .vmem S128x1280 .f32) (h7 : a7.IsWhole) (a8 : Memref sig .tc .vmem S1x1280 .f32) (h8 : a8.IsWhole) (a9 : Memref sig .tc .vmem S1280x64 .f32) (h9 : a9.IsWhole) (a10 : Memref sig .tc .vmem S1x64 .f32) (h10 : a10.IsWhole) (a11 : Memref sig .tc .vmem S64x1280 .f32) (h11 : a11.IsWhole) (a12 : Memref sig .tc .vmem S1x1280 .f32) (h12 : a12.IsWhole) (a13 : Memref sig .tc .vmem S800x1280 .f32) (h13 : a13.IsWhole) (a14 : Memref sig .tc .vmem S1x1280 .f32) (h14 : a14.IsWhole) (hc : cond0_0 i) (x0 : Vec F S800x128 .f32) (x1 : Vec F S800x128 .f32) (x2 : Vec F S800x128 .f32) (x3 : Vec F S800x128 .f32) (x4 : Vec F S512x128 .f32) (x5 : Vec F S1x128 .f32) (x6 : Vec F S128x1280 .f32) (x7 : Vec F S1x1280 .f32) (x8 : Vec F S1280x64 .f32) (x9 : Vec F S1x64 .f32) (x10 : Vec F S64x1280 .f32) (x11 : Vec F S1x1280 .f32) :
    out0_A_13 c i a1 h1 a2 h2 a3 h3 a4 h4 a5 h5 a6 h6 a7 h7 a8 h8 a9 h9 a10 h10 a11 h11 a12 h12 a13 h13 a14 h14 hc x0 x1 x2 x3 x4 x5 x6 x7 x8 x9 x10 x11 = k0_pay2 (k0_pay4 x0 x1 x2 x3 x4 x5 x6 x7 x8) (k0_pay5 x9) x10 x11 (k0_pay3 (F := F)) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 hc x0 x1 x2 x3 x4 x5 x6 x7 x8 x9 x10 x11)]
  unfold kernelRun0_A
  dsimp only
  rw [View.canon_cons_unit_zero (S := S1x1280) hz]
  sl_unfold_run_names
  rw [View.readCov_unit_zero (S := S1x1280) _ hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S800x128) hz, View.ld_unit_zero (S := S512x128) hz, View.ld_unit_zero (S := S1x128) hz, View.ld_unit_zero (S := S128x1280) hz, View.ld_unit_zero (S := S1x1280) hz, View.ld_unit_zero (S := S1280x64) hz, View.ld_unit_zero (S := S1x64) hz, View.ld_unit_zero (S := S64x1280) hz]

/-- A later point: the rows' buffer holds the block of normalized rows. -/
theorem out_B_12 (c : Dev nD) (i : grid0.Coords) (a1 : Memref sig .tc .vmem S800x128 .f32) (h1 : a1.IsWhole) (a2 : Memref sig .tc .vmem S800x128 .f32) (h2 : a2.IsWhole) (a3 : Memref sig .tc .vmem S800x128 .f32) (h3 : a3.IsWhole) (a4 : Memref sig .tc .vmem S800x128 .f32) (h4 : a4.IsWhole) (a5 : Memref sig .tc .vmem S512x128 .f32) (h5 : a5.IsWhole) (a6 : Memref sig .tc .vmem S1x128 .f32) (h6 : a6.IsWhole) (a7 : Memref sig .tc .vmem S128x1280 .f32) (h7 : a7.IsWhole) (a8 : Memref sig .tc .vmem S1x1280 .f32) (h8 : a8.IsWhole) (a9 : Memref sig .tc .vmem S1280x64 .f32) (h9 : a9.IsWhole) (a10 : Memref sig .tc .vmem S1x64 .f32) (h10 : a10.IsWhole) (a11 : Memref sig .tc .vmem S64x1280 .f32) (h11 : a11.IsWhole) (a12 : Memref sig .tc .vmem S1x1280 .f32) (h12 : a12.IsWhole) (a13 : Memref sig .tc .vmem S800x1280 .f32) (h13 : a13.IsWhole) (a14 : Memref sig .tc .vmem S1x1280 .f32) (h14 : a14.IsWhole) (hc : ¬cond0_0 i) (x0 : Vec F S800x128 .f32) (x1 : Vec F S800x128 .f32) (x2 : Vec F S800x128 .f32) (x3 : Vec F S800x128 .f32) (x4 : Vec F S512x128 .f32) (x5 : Vec F S1x128 .f32) (x6 : Vec F S128x1280 .f32) (x7 : Vec F S1x1280 .f32) (x8 : Vec F S1280x64 .f32) (x9 : Vec F S1x64 .f32) (x10 : Vec F S64x1280 .f32) (x11 : Vec F S1x1280 .f32) (xo13 : Vec F S1x1280 .f32) :
    out0_B_12 c i a1 h1 a2 h2 a3 h3 a4 h4 a5 h5 a6 h6 a7 h7 a8 h8 a9 h9 a10 h10 a11 h11 a12 h12 a13 h13 a14 h14 hc x0 x1 x2 x3 x4 x5 x6 x7 x8 x9 x10 x11 xo13 = k0_pay1 (k0_pay4 x0 x1 x2 x3 x4 x5 x6 x7 x8) (k0_pay5 x9) x10 x11 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc x0 x1 x2 x3 x4 x5 x6 x7 x8 x9 x10 x11 xo13)]
  unfold kernelRun0_B
  dsimp only
  rw [View.canon_unit_zero hz]
  sl_unfold_run_names
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S800x128) hz, View.ld_unit_zero (S := S512x128) hz, View.ld_unit_zero (S := S1x128) hz, View.ld_unit_zero (S := S128x1280) hz, View.ld_unit_zero (S := S1x1280) hz, View.ld_unit_zero (S := S1280x64) hz, View.ld_unit_zero (S := S1x64) hz, View.ld_unit_zero (S := S64x1280) hz]

/-- A later point: the accumulator holds what the point before left plus the block's column sums. -/
theorem out_B_13 (c : Dev nD) (i : grid0.Coords) (a1 : Memref sig .tc .vmem S800x128 .f32) (h1 : a1.IsWhole) (a2 : Memref sig .tc .vmem S800x128 .f32) (h2 : a2.IsWhole) (a3 : Memref sig .tc .vmem S800x128 .f32) (h3 : a3.IsWhole) (a4 : Memref sig .tc .vmem S800x128 .f32) (h4 : a4.IsWhole) (a5 : Memref sig .tc .vmem S512x128 .f32) (h5 : a5.IsWhole) (a6 : Memref sig .tc .vmem S1x128 .f32) (h6 : a6.IsWhole) (a7 : Memref sig .tc .vmem S128x1280 .f32) (h7 : a7.IsWhole) (a8 : Memref sig .tc .vmem S1x1280 .f32) (h8 : a8.IsWhole) (a9 : Memref sig .tc .vmem S1280x64 .f32) (h9 : a9.IsWhole) (a10 : Memref sig .tc .vmem S1x64 .f32) (h10 : a10.IsWhole) (a11 : Memref sig .tc .vmem S64x1280 .f32) (h11 : a11.IsWhole) (a12 : Memref sig .tc .vmem S1x1280 .f32) (h12 : a12.IsWhole) (a13 : Memref sig .tc .vmem S800x1280 .f32) (h13 : a13.IsWhole) (a14 : Memref sig .tc .vmem S1x1280 .f32) (h14 : a14.IsWhole) (hc : ¬cond0_0 i) (x0 : Vec F S800x128 .f32) (x1 : Vec F S800x128 .f32) (x2 : Vec F S800x128 .f32) (x3 : Vec F S800x128 .f32) (x4 : Vec F S512x128 .f32) (x5 : Vec F S1x128 .f32) (x6 : Vec F S128x1280 .f32) (x7 : Vec F S1x1280 .f32) (x8 : Vec F S1280x64 .f32) (x9 : Vec F S1x64 .f32) (x10 : Vec F S64x1280 .f32) (x11 : Vec F S1x1280 .f32) (xo13 : Vec F S1x1280 .f32) :
    out0_B_13 c i a1 h1 a2 h2 a3 h3 a4 h4 a5 h5 a6 h6 a7 h7 a8 h8 a9 h9 a10 h10 a11 h11 a12 h12 a13 h13 a14 h14 hc x0 x1 x2 x3 x4 x5 x6 x7 x8 x9 x10 x11 xo13 = k0_pay2 (k0_pay4 x0 x1 x2 x3 x4 x5 x6 x7 x8) (k0_pay5 x9) x10 x11 xo13 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 hc x0 x1 x2 x3 x4 x5 x6 x7 x8 x9 x10 x11 xo13)]
  unfold kernelRun0_B
  dsimp only
  rw [View.canon_unit_zero hz]
  sl_unfold_run_names
  simp only [View.readAt_eq_ld, h1.read_unread, h2.read_unread, h3.read_unread, h4.read_unread, h5.read_unread, h6.read_unread, h7.read_unread, h8.read_unread, h9.read_unread, h10.read_unread, h11.read_unread, h12.read_unread, h14.read_unread,
    View.ld_unit_zero (S := S800x128) hz, View.ld_unit_zero (S := S512x128) hz, View.ld_unit_zero (S := S1x128) hz, View.ld_unit_zero (S := S128x1280) hz, View.ld_unit_zero (S := S1x1280) hz, View.ld_unit_zero (S := S1280x64) hz, View.ld_unit_zero (S := S1x64) hz, View.ld_unit_zero (S := S64x1280) hz]

end Cert.KernelIdeal.Cases0

end
-- ==== Proof.KBlocks0.lean ====
import proofs.«173914_j18305150615650_2_alg».proof.Proof.Gen.KernelIdeal.Frame
import proofs.«173914_j18305150615650_2_alg».proof.Proof.SpecIdx
import proofs.«173914_j18305150615650_2_alg».proof.Proof.SpecLaws
import proofs.«173914_j18305150615650_2_alg».proof.Proof.KPayU
import proofs.«173914_j18305150615650_2_alg».proof.Proof.KCases0
import Idealize.ShloMosaic.Lib.Pipeline.Value

/-!
  The first grid launch (users' rows), block by block, as two arrays.

  Point `t` of the grid reads rows `800 t … 800 t + 799` of the four feature arrays and all of the weights, writes the
  same rows of the 80000 × 1280 output — row `u` is the user's row through the affine map, the three layers and the
  division by its length — and adds the block's column sums to a one-row accumulator that starts from zero at the
  first point and is written back after the last: the row of column sums over all 80000 rows.
-/

set_option maxRecDepth 16384

noncomputable section

namespace Cert.KernelIdeal.Blocks0

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The users' first feature array. -/
abbrev f0 (c : Dev nD) : S80000x128.Idx → EReal := V c main_arg0
/-- The users' second feature array. -/
abbrev f1 (c : Dev nD) : S80000x128.Idx → EReal := V c main_arg2
/-- The users' third feature array. -/
abbrev f2 (c : Dev nD) : S80000x128.Idx → EReal := V c main_arg3
/-- The users' neighbour sums. -/
abbrev f3 (c : Dev nD) : S80000x128.Idx → EReal := V c main_v9
/-- The first affine map's matrix. -/
abbrev W0 (c : Dev nD) : S512x128.Idx → EReal := V c main_arg6
/-- The first affine map's bias, as a row. -/
abbrev c0 (c : Dev nD) : S1x128.Idx → EReal := V c main_v29
/-- The first layer's matrix. -/
abbrev W1 (c : Dev nD) : S128x1280.Idx → EReal := V c main_arg10
/-- The first layer's bias, as a row. -/
abbrev c1 (c : Dev nD) : S1x1280.Idx → EReal := V c main_v31
/-- The second layer's matrix. -/
abbrev W2 (c : Dev nD) : S1280x64.Idx → EReal := V c main_arg12
/-- The second layer's bias, as a row. -/
abbrev c2 (c : Dev nD) : S1x64.Idx → EReal := V c main_v32
/-- The third layer's matrix, its columns permuted. -/
abbrev W3 (c : Dev nD) : S64x1280.Idx → EReal := V c main_v25
/-- The third layer's bias, permuted, as a row. -/
abbrev c3 (c : Dev nD) : S1x1280.Idx → EReal := V c main_v33

/-- The row of user `u` before the mean is added, from the arrays as the launch finds them. -/
def urow (c : Dev nD) (u : Fin 80000) : Fin 1280 → EReal :=
  userRow (row (f0 V c) u) (row (f1 V c) u) (row (f2 V c) u) (row (f3 V c) u) (W0 V c) (row (c0 V c) 0) (W1 V c) (row (c1 V c) 0) (W2 V c) (row (c2 V c) 0) (W3 V c) (row (c3 V c) 0)

/-- The printed index maps over the grid: the row-blocked windows move by one block per point, the others stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = t.val ∧ win0_12.index t (1 : Fin 2) = 0
    ∧ win0_13.index t (0 : Fin 2) = 0 ∧ win0_13.index t (1 : Fin 2) = 0 :=
  (by decide +kernel : ∀ t : Fin grid0.N, _)

/-- Row `r` of window 0's block at point `t` is row `800 t + r` of its array. -/
theorem row_blk0 (c : Dev nD) (t : Fin cfg0.N) (r : Fin 800) :
    row (iblk0 V c 0 t : S800x128.Idx → EReal) r = row (f0 V c) (tileRow (T := 100) t r) := by
  obtain ⟨e0, e1, -, -, -, -, -, -, -, -, -, -, -, -, -, -, -, -, -, -, -, -, -, -, -, -, -, -⟩ := idx_facts t
  funext q
  show V c main_arg0 (((cfg0.win 0).blk t).view.emb (ix2 r q)) = V c main_arg0 (ix2 (tileRow (T := 100) t r) q)
  refine congrArg (V c main_arg0) (funext fun a => Fin.ext ?_)
  match a with
  | ⟨0, _⟩ => show win0_0.index t (0 : Fin 2) * 800 + 1 * r.val = t.val * 800 + r.val; rw [e0]; omega
  | ⟨1, _⟩ => show win0_0.index t (1 : Fin 2) * 128 + 1 * q.val = q.val; rw [e1]; omega

/-- Row `r` of window 1's block at point `t` is row `800 t + r` of its array. -/
theorem row_blk1 (c : Dev nD) (t : Fin cfg0.N) (r : Fin 800) :
    row (iblk0 V c 1 t : S800x128.Idx → EReal) r = row (f1 V c) (tileRow (T := 100) t r) := by
  obtain ⟨-, -, e0, e1, -, -, -, -, -, -, -, -, -, -, -, -, -, -, -, -, -, -, -, -, -, -, -, -⟩ := idx_facts t
  funext q
  show V c main_arg2 (((cfg0.win 1).blk t).view.emb (ix2 r q)) = V c main_arg2 (ix2 (tileRow (T := 100) t r) q)
  refine congrArg (V c main_arg2) (funext fun a => Fin.ext ?_)
  match a with
  | ⟨0, _⟩ => show win0_1.index t (0 : Fin 2) * 800 + 1 * r.val = t.val * 800 + r.val; rw [e0]; omega
  | ⟨1, _⟩ => show win0_1.index t (1 : Fin 2) * 128 + 1 * q.val = q.val; rw [e1]; omega

/-- Row `r` of window 2's block at point `t` is row `800 t + r` of its array. -/
theorem row_blk2 (c : Dev nD) (t : Fin cfg0.N) (r : Fin 800) :
    row (iblk0 V c 2 t : S800x128.Idx → EReal) r = row (f2 V c) (tileRow (T := 100) t r) := by
  obtain ⟨-, -, -, -, e0, e1, -, -, -, -, -, -, -, -, -, -, -, -, -, -, -, -, -, -, -, -, -, -⟩ := idx_facts t
  funext q
  show V c main_arg3 (((cfg0.win 2).blk t).view.emb (ix2 r q)) = V c main_arg3 (ix2 (tileRow (T := 100) t r) q)
  refine congrArg (V c main_arg3) (funext fun a => Fin.ext ?_)
  match a with
  | ⟨0, _⟩ => show win0_2.index t (0 : Fin 2) * 800 + 1 * r.val = t.val * 800 + r.val; rw [e0]; omega
  | ⟨1, _⟩ => show win0_2.index t (1 : Fin 2) * 128 + 1 * q.val = q.val; rw [e1]; omega

/-- Row `r` of window 3's block at point `t` is row `800 t + r` of its array. -/
theorem row_blk3 (c : Dev nD) (t : Fin cfg0.N) (r : Fin 800) :
    row (iblk0 V c 3 t : S800x128.Idx → EReal) r = row (f3 V c) (tileRow (T := 100) t r) := by
  obtain ⟨-, -, -, -, -, -, e0, e1, -, -, -, -, -, -, -, -, -, -, -, -, -, -, -, -, -, -, -, -⟩ := idx_facts t
  funext q
  show V c main_v9 (((cfg0.win 3).blk t).view.emb (ix2 r q)) = V c main_v9 (ix2 (tileRow (T := 100) t r) q)
  refine congrArg (V c main_v9) (funext fun a => Fin.ext ?_)
  match a with
  | ⟨0, _⟩ => show win0_3.index t (0 : Fin 2) * 800 + 1 * r.val = t.val * 800 + r.val; rw [e0]; omega
  | ⟨1, _⟩ => show win0_3.index t (1 : Fin 2) * 128 + 1 * q.val = q.val; rw [e1]; omega

/-- Window 4's block at any point is its whole array. -/
theorem whole_blk4 (c : Dev nD) (t : Fin cfg0.N) :
    (iblk0 V c 4 t : S512x128.Idx → EReal) = W0 V c := by
  obtain ⟨-, -, -, -, -, -, -, -, e0, e1, -, -, -, -, -, -, -, -, -, -, -, -, -, -, -, -, -, -⟩ := idx_facts t
  funext y
  show V c main_arg6 (((cfg0.win 4).blk t).view.emb y) = V c main_arg6 y
  refine congrArg (V c main_arg6) (funext fun a => Fin.ext ?_)
  match a with
  | ⟨0, _⟩ => show win0_4.index t (0 : Fin 2) * 512 + 1 * (y 0).val = (y 0).val; rw [e0]; omega
  | ⟨1, _⟩ => show win0_4.index t (1 : Fin 2) * 128 + 1 * (y 1).val = (y 1).val; rw [e1]; omega

/-- Window 5's block at any point is its whole array. -/
theorem whole_blk5 (c : Dev nD) (t : Fin cfg0.N) :
    (iblk0 V c 5 t : S1x128.Idx → EReal) = c0 V c := by
  obtain ⟨-, -, -, -, -, -, -, -, -, -, e0, e1, -, -, -, -, -, -, -, -, -, -, -, -, -, -, -, -⟩ := idx_facts t
  funext y
  show V c main_v29 (((cfg0.win 5).blk t).view.emb y) = V c main_v29 y
  refine congrArg (V c main_v29) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Window 6's block at any point is its whole array. -/
theorem whole_blk6 (c : Dev nD) (t : Fin cfg0.N) :
    (iblk0 V c 6 t : S128x1280.Idx → EReal) = W1 V c := by
  obtain ⟨-, -, -, -, -, -, -, -, -, -, -, -, e0, e1, -, -, -, -, -, -, -, -, -, -, -, -, -, -⟩ := idx_facts t
  funext y
  show V c main_arg10 (((cfg0.win 6).blk t).view.emb y) = V c main_arg10 y
  refine congrArg (V c main_arg10) (funext fun a => Fin.ext ?_)
  match a with
  | ⟨0, _⟩ => show win0_6.index t (0 : Fin 2) * 128 + 1 * (y 0).val = (y 0).val; rw [e0]; omega
  | ⟨1, _⟩ => show win0_6.index t (1 : Fin 2) * 1280 + 1 * (y 1).val = (y 1).val; rw [e1]; omega

/-- Window 7's block at any point is its whole array. -/
theorem whole_blk7 (c : Dev nD) (t : Fin cfg0.N) :
    (iblk0 V c 7 t : S1x1280.Idx → EReal) = c1 V c := by
  obtain ⟨-, -, -, -, -, -, -, -, -, -, -, -, -, -, e0, e1, -, -, -, -, -, -, -, -, -, -, -, -⟩ := idx_facts t
  funext y
  show V c main_v31 (((cfg0.win 7).blk t).view.emb y) = V c main_v31 y
  refine congrArg (V c main_v31) (funext fun a => Fin.ext ?_)
  match a with
  | ⟨0, _⟩ => show win0_7.index t (0 : Fin 2) * 1 + 1 * (y 0).val = (y 0).val; rw [e0]; omega
  | ⟨1, _⟩ => show win0_7.index t (1 : Fin 2) * 1280 + 1 * (y 1).val = (y 1).val; rw [e1]; omega

/-- Window 8's block at any point is its whole array. -/
theorem whole_blk8 (c : Dev nD) (t : Fin cfg0.N) :
    (iblk0 V c 8 t : S1280x64.Idx → EReal) = W2 V c := by
  obtain ⟨-, -, -, -, -, -, -, -, -, -, -, -, -, -, -, -, e0, e1, -, -, -, -, -, -, -, -, -, -⟩ := idx_facts t
  funext y
  show V c main_arg12 (((cfg0.win 8).blk t).view.emb y) = V c main_arg12 y
  refine congrArg (V c main_arg12) (funext fun a => Fin.ext ?_)
  match a with
  | ⟨0, _⟩ => show win0_8.index t (0 : Fin 2) * 1280 + 1 * (y 0).val = (y 0).val; rw [e0]; omega
  | ⟨1, _⟩ => show win0_8.index t (1 : Fin 2) * 64 + 1 * (y 1).val = (y 1).val; rw [e1]; omega

/-- Window 9's block at any point is its whole array. -/
theorem whole_blk9 (c : Dev nD) (t : Fin cfg0.N) :
    (iblk0 V c 9 t : S1x64.Idx → EReal) = c2 V c := by
  obtain ⟨-, -, -, -, -, -, -, -, -, -, -, -, -, -, -, -, -, -, e0, e1, -, -, -, -, -, -, -, -⟩ := idx_facts t
  funext y
  show V c main_v32 (((cfg0.win 9).blk t).view.emb y) = V c main_v32 y
  refine congrArg (V c main_v32) (funext fun a => Fin.ext ?_)
  match a with
  | ⟨0, _⟩ => show win0_9.index t (0 : Fin 2) * 1 + 1 * (y 0).val = (y 0).val; rw [e0]; omega
  | ⟨1, _⟩ => show win0_9.index t (1 : Fin 2) * 64 + 1 * (y 1).val = (y 1).val; rw [e1]; omega

/-- Window 10's block at any point is its whole array. -/
theorem whole_blk10 (c : Dev nD) (t : Fin cfg0.N) :
    (iblk0 V c 10 t : S64x1280.Idx → EReal) = W3 V c := by
  obtain ⟨-, -, -, -, -, -, -, -, -, -, -, -, -, -, -, -, -, -, -, -, e0, e1, -, -, -, -, -, -⟩ := idx_facts t
  funext y
  show V c main_v25 (((cfg0.win 10).blk t).view.emb y) = V c main_v25 y
  refine congrArg (V c main_v25) (funext fun a => Fin.ext ?_)
  match a with
  | ⟨0, _⟩ => show win0_10.index t (0 : Fin 2) * 64 + 1 * (y 0).val = (y 0).val; rw [e0]; omega
  | ⟨1, _⟩ => show win0_10.index t (1 : Fin 2) * 1280 + 1 * (y 1).val = (y 1).val; rw [e1]; omega

/-- Window 11's block at any point is its whole array. -/
theorem whole_blk11 (c : Dev nD) (t : Fin cfg0.N) :
    (iblk0 V c 11 t : S1x1280.Idx → EReal) = c3 V c := by
  obtain ⟨-, -, -, -, -, -, -, -, -, -, -, -, -, -, -, -, -, -, -, -, -, -, e0, e1, -, -, -, -⟩ := idx_facts t
  funext y
  show V c main_v33 (((cfg0.win 11).blk t).view.emb y) = V c main_v33 y
  refine congrArg (V c main_v33) (funext fun a => Fin.ext ?_)
  match a with
  | ⟨0, _⟩ => show win0_11.index t (0 : Fin 2) * 1 + 1 * (y 0).val = (y 0).val; rw [e0]; omega
  | ⟨1, _⟩ => show win0_11.index t (1 : Fin 2) * 1280 + 1 * (y 1).val = (y 1).val; rw [e1]; omega

/-- The rows' block the body computes at point `t`: row `r` is the row of user `800 t + r`. -/
theorem blk_meta (c : Dev nD) (t : Fin cfg0.N) (r : Fin 800) (j : Fin 1280) :
    k0_pay1 (F := Ideal) (k0_pay4 (iblk0 V c 0 t) (iblk0 V c 1 t) (iblk0 V c 2 t) (iblk0 V c 3 t) (iblk0 V c 4 t) (iblk0 V c 5 t) (iblk0 V c 6 t) (iblk0 V c 7 t) (iblk0 V c 8 t)) (k0_pay5 (iblk0 V c 9 t)) (iblk0 V c 10 t) (iblk0 V c 11 t) (ix2 r j) = urow V c (tileRow (T := 100) t r) j := by
  refine (Cert.KPayU.meta_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) r j).trans ?_
  unfold urow
  rw [row_blk0 V c t r, row_blk1 V c t r, row_blk2 V c t r, row_blk3 V c t r, whole_blk4 V c t, whole_blk5 V c t, whole_blk6 V c t, whole_blk7 V c t, whole_blk8 V c t, whole_blk9 V c t, whole_blk10 V c t, whole_blk11 V c t]

/-- The accumulator row the body stores at point `t` over the contents `prev`: `prev` plus the block's column sums. -/
theorem blk_acc (c : Dev nD) (t : Fin cfg0.N) (prev : Vec Ideal S1x1280 .f32) (j : Fin 1280) :
    k0_pay2 (F := Ideal) (k0_pay4 (iblk0 V c 0 t) (iblk0 V c 1 t) (iblk0 V c 2 t) (iblk0 V c 3 t) (iblk0 V c 4 t) (iblk0 V c 5 t) (iblk0 V c 6 t) (iblk0 V c 7 t) (iblk0 V c 8 t)) (k0_pay5 (iblk0 V c 9 t)) (iblk0 V c 10 t) (iblk0 V c 11 t) prev (ix2 (0 : Fin 1) j)
      = prev (ix2 (0 : Fin 1) j) + ∑ r : Fin 800, urow V c (tileRow (T := 100) t r) j := by
  refine (Cert.KPayU.acc_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) prev j).trans ?_
  refine congrArg (prev (ix2 (0 : Fin 1) j) + ·) (Finset.sum_congr rfl fun r _ => ?_)
  unfold urow
  rw [row_blk0 V c t r, row_blk1 V c t r, row_blk2 V c t r, row_blk3 V c t r, whole_blk4 V c t, whole_blk5 V c t, whole_blk6 V c t, whole_blk7 V c t, whole_blk8 V c t, whole_blk9 V c t, whole_blk10 V c t, whole_blk11 V c t]

/-- What the two output buffers hold after the first point. -/
theorem step_A (c : Dev nD) (t : Fin cfg0.N) (h0 : t.val % 100 = 0) :
    outsAt0 V c t.val t.isLt = (k0_pay1 (F := Ideal) (k0_pay4 (iblk0 V c 0 t) (iblk0 V c 1 t) (iblk0 V c 2 t) (iblk0 V c 3 t) (iblk0 V c 4 t) (iblk0 V c 5 t) (iblk0 V c 6 t) (iblk0 V c 7 t) (iblk0 V c 8 t)) (k0_pay5 (iblk0 V c 9 t)) (iblk0 V c 10 t) (iblk0 V c 11 t), k0_pay2 (F := Ideal) (k0_pay4 (iblk0 V c 0 t) (iblk0 V c 1 t) (iblk0 V c 2 t) (iblk0 V c 3 t) (iblk0 V c 4 t) (iblk0 V c 5 t) (iblk0 V c 6 t) (iblk0 V c 7 t) (iblk0 V c 8 t)) (k0_pay5 (iblk0 V c 9 t)) (iblk0 V c 10 t) (iblk0 V c 11 t) (k0_pay3 (F := Ideal))) := by
  rw [outsAt0_A V c t h0,
    Cert.KernelIdeal.Cases0.out_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t),
    Cert.KernelIdeal.Cases0.out_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)]

/-- What the two output buffers hold after a later point, over what the point before left in the accumulator. -/
theorem step_B (c : Dev nD) (t : Fin cfg0.N) (h0 : ¬t.val % 100 = 0) :
    outsAt0 V c t.val t.isLt = (k0_pay1 (F := Ideal) (k0_pay4 (iblk0 V c 0 t) (iblk0 V c 1 t) (iblk0 V c 2 t) (iblk0 V c 3 t) (iblk0 V c 4 t) (iblk0 V c 5 t) (iblk0 V c 6 t) (iblk0 V c 7 t) (iblk0 V c 8 t)) (k0_pay5 (iblk0 V c 9 t)) (iblk0 V c 10 t) (iblk0 V c 11 t), k0_pay2 (F := Ideal) (k0_pay4 (iblk0 V c 0 t) (iblk0 V c 1 t) (iblk0 V c 2 t) (iblk0 V c 3 t) (iblk0 V c 4 t) (iblk0 V c 5 t) (iblk0 V c 6 t) (iblk0 V c 7 t) (iblk0 V c 8 t)) (k0_pay5 (iblk0 V c 9 t)) (iblk0 V c 10 t) (iblk0 V c 11 t) (outsAt0 V c (t.val - 1) (Nat.lt_of_le_of_lt (Nat.sub_le _ _) t.isLt)).2) := by
  rw [outsAt0_B V c t h0,
    Cert.KernelIdeal.Cases0.out_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (outsAt0 V c (t.val - 1) (Nat.lt_of_le_of_lt (Nat.sub_le _ _) t.isLt)).2,
    Cert.KernelIdeal.Cases0.out_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (outsAt0 V c (t.val - 1) (Nat.lt_of_le_of_lt (Nat.sub_le _ _) t.isLt)).2]

/-- The column sums of tile `t'` (rows `800 t' … 800 t' + 799`) at column `j`; zero past the last tile. -/
def tile (c : Dev nD) (j : Fin 1280) (t' : ℕ) : EReal :=
  if h : t' < 100 then ∑ r : Fin 800, urow V c ⟨t' * 800 + r.val, by have := r.isLt; omega⟩ j else 0

theorem tile_eq (c : Dev nD) (j : Fin 1280) (t : Fin cfg0.N) :
    tile V c j t.val = ∑ r : Fin 800, urow V c (tileRow (T := 100) t r) j := by
  have hN : cfg0.N = 100 := N_0
  unfold tile
  rw [dif_pos (by have := t.isLt; omega)]
  rfl

/-- After point `n`: the rows' buffer holds the rows of tile `n`, the accumulator the column sums of tiles `0 … n`. -/
theorem outs_eq (c : Dev nD) : ∀ (n : ℕ) (hn : n < cfg0.N),
    (∀ (r : Fin 800) (j : Fin 1280), (outsAt0 V c n hn).1 (ix2 r j) = urow V c (tileRow (T := 100) (⟨n, hn⟩ : Fin cfg0.N) r) j)
    ∧ (∀ j : Fin 1280, (outsAt0 V c n hn).2 (ix2 (0 : Fin 1) j) = ∑ t' ∈ Finset.range (n + 1), tile V c j t')
  | 0, hn => by
    have e : outsAt0 V c 0 hn = _ := step_A V c ⟨0, hn⟩ (Nat.zero_mod _)
    refine ⟨fun r j => ?_, fun j => ?_⟩
    · rw [e]
      exact blk_meta V c ⟨0, hn⟩ r j
    · rw [e]
      refine (blk_acc V c ⟨0, hn⟩ _ j).trans ?_
      rw [Cert.KPayU.zero_apply, zero_add, Finset.sum_range_one]
      exact (tile_eq V c j ⟨0, hn⟩).symm
  | n + 1, hn => by
    have hN : cfg0.N = 100 := N_0
    have hB : ¬(⟨n + 1, hn⟩ : Fin cfg0.N).val % 100 = 0 := by dsimp only; omega
    have e : outsAt0 V c (n + 1) hn = _ := step_B V c ⟨n + 1, hn⟩ hB
    refine ⟨fun r j => ?_, fun j => ?_⟩
    · rw [e]
      exact blk_meta V c ⟨n + 1, hn⟩ r j
    · rw [e]
      refine (blk_acc V c ⟨n + 1, hn⟩ _ j).trans ?_
      rw [Finset.sum_range_succ _ (n + 1), ← tile_eq V c j ⟨n + 1, hn⟩]
      exact congrArg (· + tile V c j (n + 1)) ((outs_eq c n (Nat.lt_of_succ_lt hn)).2 j)

/-! ## The two arrays the launch leaves -/

/-- What point `t` writes back of the rows' output is its block of the array of all rows. -/
theorem flushed_rows (c : Dev nD) (t : Fin cfg0.N) :
    (dat0 V c).flushed 12 t = ((cfg0.win 12).blk t).view.read (Elt Ideal) (arr2 fun (u : Fin 80000) (j : Fin 1280) => urow V c u j) := by
  show (cfg0.win 12).cut (grid0.coords t) ((dat0 V c).after 12 t) = _
  rw [after0_12]
  obtain ⟨-, -, -, -, -, -, -, -, -, -, -, -, -, -, -, -, -, -, -, -, -, -, -, -, e0, e1, -, -⟩ := idx_facts t
  funext y
  obtain ⟨r, j, rfl⟩ : ∃ (r : Fin 800) (j : Fin 1280), y = ix2 r j := ⟨y 0, y 1, eq_ix2 y⟩
  have hemb : ((cfg0.win 12).blk t).view.emb (ix2 r j) = ix2 (tileRow (T := 100) t r) j := by
    funext a; apply Fin.ext
    match a with
    | ⟨0, _⟩ => show win0_12.index t (0 : Fin 2) * 800 + 1 * r.val = t.val * 800 + r.val; rw [e0]; omega
    | ⟨1, _⟩ => show win0_12.index t (1 : Fin 2) * 1280 + 1 * j.val = j.val; rw [e1]; omega
  show (outsAt0 V c t.val t.isLt).1 (ix2 r j) = (arr2 fun (u : Fin 80000) (j : Fin 1280) => urow V c u j) (((cfg0.win 12).blk t).view.emb (ix2 r j))
  rw [hemb, arr2_ix2]
  exact (outs_eq V c t.val t.isLt).1 r j

theorem mem_blk_rows (t : Fin cfg0.N) (i : S80000x1280.Idx) :
    i ∈ ((cfg0.win 12).blk t).view.set ↔ ∀ a : Fin 2, win0_12.index t a * S800x1280.size a ≤ (i a).val ∧ (i a).val < win0_12.index t a * S800x1280.size a + S800x1280.size a := by
  show i ∈ ((View.whole main_v37_0).slice (win0_12.rect t)).set ↔ _
  rw [View.set_slice_whole, Rect.mem_set_unit]
  exact Iff.rfl

/-- The rows' output array: row `u` is the row of user `u`. -/
theorem final_rows (c : Dev nD) : (dat0 V c).arrAt 12 cfg0.N = arr2 fun (u : Fin 80000) (j : Fin 1280) => urow V c u j :=
  (dat0 V c).arrAt_eq_of_cover 12 _ (fun t _ => flushed_rows V c t) fun i => by
    have hi0 : (i 0).val < 80000 := (i 0).isLt
    have hi1 : (i 1).val < 1280 := (i 1).isLt
    have hN : cfg0.N = 100 := N_0
    refine ⟨⟨(i 0).val / 800, by rw [hN]; omega⟩, flush0_12 _, ?_⟩
    rw [mem_blk_rows]
    obtain ⟨-, -, -, -, -, -, -, -, -, -, -, -, -, -, -, -, -, -, -, -, -, -, -, -, e0, e1, -, -⟩ := idx_facts ⟨(i 0).val / 800, by rw [hN]; omega⟩
    intro a
    match a with
    | ⟨0, _⟩ => show win0_12.index _ (0 : Fin 2) * 800 ≤ (i 0).val ∧ (i 0).val < win0_12.index _ (0 : Fin 2) * 800 + 800; rw [e0]; dsimp only; omega
    | ⟨1, _⟩ => show win0_12.index _ (1 : Fin 2) * 1280 ≤ (i 1).val ∧ (i 1).val < win0_12.index _ (1 : Fin 2) * 1280 + 1280; rw [e1]; omega

/-- The sum over all rows of column `j`, tile by tile. -/
theorem sum_all (c : Dev nD) (j : Fin 1280) : ∑ t' ∈ Finset.range 100, tile V c j t' = ∑ u : Fin 80000, urow V c u j :=
  Cert.SpecLaws.sum_tiles_users (fun u => urow V c u j)

set_option maxRecDepth 131072 in
/-- The one write-back of the accumulator, after the last point, writes the row of column sums over all rows. -/
theorem flushed_acc (c : Dev nD) (t : Fin cfg0.N) (hf : (cfg0.win 13).flush t = true) :
    (dat0 V c).flushed 13 t = ((cfg0.win 13).blk t).view.read (Elt Ideal) (arr2 fun (_ : Fin 1) (j : Fin 1280) => ∑ u : Fin 80000, urow V c u j) := by
  have hN : cfg0.N = 100 := N_0
  have hlast : t.val = 99 := by have := (flush0_13 t).mp hf; have := t.isLt; omega
  show (cfg0.win 13).cut (grid0.coords t) ((dat0 V c).after 13 t) = _
  rw [after0_13]
  obtain ⟨-, -, -, -, -, -, -, -, -, -, -, -, -, -, -, -, -, -, -, -, -, -, -, -, -, -, e0, e1⟩ := idx_facts t
  funext y
  obtain ⟨z, j, rfl⟩ : ∃ (z : Fin 1) (j : Fin 1280), y = ix2 z j := ⟨y 0, y 1, eq_ix2 y⟩
  obtain rfl : z = 0 := Subsingleton.elim _ _
  have hemb : ((cfg0.win 13).blk t).view.emb (ix2 (0 : Fin 1) j) = ix2 (0 : Fin 1) j := by
    funext a; apply Fin.ext
    match a with
    | ⟨0, _⟩ => show win0_13.index t (0 : Fin 2) * 1 + 1 * 0 = 0; rw [e0]
    | ⟨1, _⟩ => show win0_13.index t (1 : Fin 2) * 1280 + 1 * j.val = j.val; rw [e1]; omega
  show (outsAt0 V c t.val t.isLt).2 (ix2 (0 : Fin 1) j) = (arr2 fun (_ : Fin 1) (j : Fin 1280) => ∑ u : Fin 80000, urow V c u j) (((cfg0.win 13).blk t).view.emb (ix2 (0 : Fin 1) j))
  rw [hemb, arr2_ix2, (outs_eq V c t.val t.isLt).2 j, hlast]
  exact sum_all V c j

theorem mem_blk_acc (t : Fin cfg0.N) (i : S1x1280.Idx) :
    i ∈ ((cfg0.win 13).blk t).view.set ↔ ∀ a : Fin 2, win0_13.index t a * S1x1280.size a ≤ (i a).val ∧ (i a).val < win0_13.index t a * S1x1280.size a + S1x1280.size a := by
  show i ∈ ((View.whole main_v37_1).slice (win0_13.rect t)).set ↔ _
  rw [View.set_slice_whole, Rect.mem_set_unit]
  exact Iff.rfl

/-- The accumulator's array: the row of column sums over all rows. -/
theorem final_acc (c : Dev nD) : (dat0 V c).arrAt 13 cfg0.N = arr2 fun (_ : Fin 1) (j : Fin 1280) => ∑ u : Fin 80000, urow V c u j :=
  (dat0 V c).arrAt_eq_of_cover 13 _ (flushed_acc V c) fun i => by
    have hi0 : (i 0).val < 1 := (i 0).isLt
    have hi1 : (i 1).val < 1280 := (i 1).isLt
    have hN : cfg0.N = 100 := N_0
    refine ⟨⟨99, by rw [hN]; omega⟩, (flush0_13 _).mpr rfl, ?_⟩
    rw [mem_blk_acc]
    obtain ⟨-, -, -, -, -, -, -, -, -, -, -, -, -, -, -, -, -, -, -, -, -, -, -, -, -, -, e0, e1⟩ := idx_facts ⟨99, by rw [hN]; omega⟩
    intro a
    match a with
    | ⟨0, _⟩ => show win0_13.index _ (0 : Fin 2) * 1 ≤ (i 0).val ∧ (i 0).val < win0_13.index _ (0 : Fin 2) * 1 + 1; rw [e0]; omega
    | ⟨1, _⟩ => show win0_13.index _ (1 : Fin 2) * 1280 ≤ (i 1).val ∧ (i 1).val < win0_13.index _ (1 : Fin 2) * 1280 + 1280; rw [e1]; omega

end Cert.KernelIdeal.Blocks0

end
-- ==== Proof.KPayI.lean ====
/-
  The second kernel's arithmetic, entry by entry, at the extended reals.

  One block of 800 items: the two feature blocks side by side go through the first affine map, two affine maps each
  followed by tanh, a third affine map, and every row is divided by its Euclidean length (kept at least a small
  constant). Entry `(r, j)` of the block the kernel stores is entry `j` of the specification's `itemRow` of the two
  feature rows `r`; the one-row accumulator it stores gains, at column `j`, the sum of these over the 800 rows; and
  the accumulator starts from zero.
-/
import proofs.«173914_j18305150615650_2_alg».proof.Proof.Gen.KernelIdeal.Skeleton
import proofs.«173914_j18305150615650_2_alg».proof.Proof.Spec
import proofs.«173914_j18305150615650_2_alg».proof.Proof.LibPayRows

noncomputable section

namespace Cert.KPayI

open Cert.KernelIdeal Cert.KernelIdeal.Gen Cert.Spec Idealize.ShloMosaic Idealize.ShloMosaic.ValueIdx

variable (v3 v4 : Vec Ideal S800x128 .f32) (v8 : Vec Ideal S256x128 .f32) (v11 : Vec Ideal S1x128 .f32)
  (v16 : Vec Ideal S128x1280 .f32) (v19 : Vec Ideal S1x1280 .f32) (v25 : Vec Ideal S1280x64 .f32) (v28 : Vec Ideal S1x64 .f32)
  (v34 : Vec Ideal S64x1280 .f32) (v37 : Vec Ideal S1x1280 .f32)

/-- The second tanh layer: at `(r, h)`, tanh of the affine map of the first layer's tanh (the narrowing to 16 bits
    that follows changes no extended real). -/
theorem pay4_apply (r : Fin 800) (h : Fin 64) :
    k1_pay4 (F := Ideal) v3 v4 v8 v11 v16 v19 v25 v28 (ix2 r h)
      = Ideal.tanh (affine (fun j => Ideal.tanh (affine (affine (cat2 (row v3 r) (row v4 r)) v8 (row v11 0)) v16 (row v19 0) j))
          v25 (row v28 0) h) := by
  unfold k1_pay4
  refine congrArg Ideal.tanh ?_
  refine Cert.LibPayRows.layer_apply dot_S800x1280_S1280x64_S800x64_1_0_0_1_n_n rfl rfl rfl rfl rfl rfl _ _ _ _ r h _ v25 (row v28 0)
    (fun k => congrArg Ideal.tanh ?_) (fun _ _ => rfl) (fun n => congrFun (shapeCast_self v28 shapeCasts_S1x64_S1x64) (ix2 (0 : Fin 1) n))
  refine Cert.LibPayRows.layer_apply dot_S800x128_S128x1280_S800x1280_1_0_0_1_n_n rfl rfl rfl rfl rfl rfl _ _ _ _ r k _ v16 (row v19 0)
    (fun k' => ?_) (fun _ _ => rfl) (fun n => congrFun (shapeCast_self v19 shapeCasts_S1x1280_S1x1280) (ix2 (0 : Fin 1) n))
  refine Cert.LibPayRows.layer_apply dot_S800x256_S256x128_S800x128_1_0_0_1_n_n rfl rfl rfl rfl rfl rfl _ _ _ _ r k' _ v8 (row v11 0)
    (fun q => ?_) (fun _ _ => rfl) (fun n => congrFun (shapeCast_self v11 shapeCasts_S1x128_S1x128) (ix2 (0 : Fin 1) n))
  refine (Cert.LibPayRows.concat2_row (a := 800) v3 (shapeCast S800x128 v4 shapeCasts_S800x128_S800x128)
    concatenates_S800x128_S800x128_S800x256_d1 r q).trans ?_
  rw [shapeCast_self v4 shapeCasts_S800x128_S800x128]

/-- THE STORED BLOCK at `(r, j)`: the specification's row of item `r` at `j`. -/
theorem meta_apply (r : Fin 800) (j : Fin 1280) :
    k1_pay1 (F := Ideal) (k1_pay4 v3 v4 v8 v11 v16 v19 v25 v28) v34 v37 (ix2 r j)
      = itemRow (row v3 r) (row v4 r) v8 (row v11 0) v16 (row v19 0) v25 (row v28 0) v34 (row v37 0) j := by
  unfold k1_pay1
  refine (Cert.LibPayRows.unitize_rows_apply _ reduces_S800x1280_S800 _ _ shapeCasts_S800_S800x1 broadcasts_S800x1_S800x1280 r j).trans ?_
  unfold itemRow mlp3
  refine congrArg (fun v => unitize v j) (funext fun q => ?_)
  exact Cert.LibPayRows.layer_apply dot_S800x64_S64x1280_S800x1280_1_0_0_1_n_n rfl rfl rfl rfl rfl rfl _ _ _ _ r q _ v34 (row v37 0)
    (fun h => pay4_apply v3 v4 v8 v11 v16 v19 v25 v28 r h) (fun _ _ => rfl)
    (fun n => congrFun (shapeCast_self v37 shapeCasts_S1x1280_S1x1280) (ix2 (0 : Fin 1) n))

/-- THE STORED ACCUMULATOR at column `j`: what it held plus the sum of the 800 rows' entries `j`. -/
theorem acc_apply (v50 : Vec Ideal S1x1280 .f32) (j : Fin 1280) :
    k1_pay2 (F := Ideal) (k1_pay4 v3 v4 v8 v11 v16 v19 v25 v28) v34 v37 v50 (ix2 (0 : Fin 1) j)
      = v50 (ix2 (0 : Fin 1) j) + ∑ r : Fin 800, itemRow (row v3 r) (row v4 r) v8 (row v11 0) v16 (row v19 0) v25 (row v28 0)
          v34 (row v37 0) j := by
  unfold k1_pay2
  refine (Cert.LibPayRows.colsum_acc_apply _ v50 shapeCasts_S1x1280_S1x1280 reduces_S800x1280_S1280 _ _ shapeCasts_S1280_S1x1280 j).trans ?_
  exact congrArg (v50 (ix2 (0 : Fin 1) j) + ·) (Finset.sum_congr rfl fun r _ => meta_apply v3 v4 v8 v11 v16 v19 v25 v28 v34 v37 r j)

/-- The accumulator's first value: zero in every column. -/
theorem zero_apply (j : Fin 1280) : k1_pay3 (F := Ideal) (ix2 (0 : Fin 1) j) = 0 := Ideal.ofBits_zero_f32

end Cert.KPayI

end
-- ==== Proof.KCases1.lean ====
import proofs.«173914_j18305150615650_2_alg».proof.Proof.Gen.KernelIdeal.Frame
import Idealize.ShloMosaic.Lib.Pipeline.Value
import Idealize.ShloMosaic.Lib.Tactic

/-!
  The second grid launch (items' rows), case by case: what the body leaves in its two output buffers.

  At every point the body stores the block of normalized rows computed from the point's input blocks; into the one-row
  accumulator it stores the accumulator's previous contents plus the column sums of that block, the previous contents
  being the zero row at the first point (where the body has just stored it) and what the point before left otherwise.
  Each buffer is covered by one store through the whole buffer (the accumulator's, at the first point, by the zero
  row's store and then the sum's), so what it holds afterwards is that store's value; the loads read whole buffers.
-/

set_option maxRecDepth 16384

noncomputable section

namespace Cert.KernelIdeal.Cases1

open Cert.KernelIdeal Cert.KernelIdeal.Gen
open Idealize.ShloMosaic Idealize.ShloMosaic.TcCoe Idealize.SL.Sem
open Idealize.ShloMosaic.Pipeline (Dat)
open Idealize.ShloMosaic.Tactic

variable {F : FTy → Type} [FloatOps F]

/-- The zero offsets of a whole-buffer access. -/
theorem hz : (![0, 0] : Fin 2 → Nat) = fun _ => 0 := funext fun a => by fin_cases a <;> rfl

/-- First point: the rows' buffer holds the block of normalized rows. -/
theorem out_A_10 (c : Dev nD) (i : grid1.Coords) (a1 : Memref sig .tc .vmem S800x128 .f32) (h1 : a1.IsWhole) (a2 : Memref sig .tc .vmem S800x128 .f32) (h2 : a2.IsWhole) (a3 : Memref sig .tc .vmem S256x128 .f32) (h3 : a3.IsWhole) (a4 : Memref sig .tc .vmem S1x128 .f32) (h4 : a4.IsWhole) (a5 : Memref sig .tc .vmem S128x1280 .f32) (h5 : a5.IsWhole) (a6 : Memref sig .tc .vmem S1x1280 .f32) (h6 : a6.IsWhole) (a7 : Memref sig .tc .vmem S1280x64 .f32) (h7 : a7.IsWhole) (a8 : Memref sig .tc .vmem S1x64 .f32) (h8 : a8.IsWhole) (a9 : Memref sig .tc .vmem S64x1280 .f32) (h9 : a9.IsWhole) (a10 : Memref sig .tc .vmem S1x1280 .f32) (h10 : a10.IsWhole) (a11 : Memref sig .tc .vmem S800x1280 .f32) (h11 : a11.IsWhole) (a12 : Memref sig .tc .vmem S1x1280 .f32) (h12 : a12.IsWhole) (hc : cond1_0 i) (x0 : Vec F S800x128 .f32) (x1 : Vec F S800x128 .f32) (x2 : Vec F S256x128 .f32) (x3 : Vec F S1x128 .f32) (x4 : Vec F S128x1280 .f32) (x5 : Vec F S1x1280 .f32) (x6 : Vec F S1280x64 .f32) (x7 : Vec F S1x64 .f32) (x8 : Vec F S64x1280 .f32) (x9 : Vec F S1x1280 .f32) :
    out1_A_10 c i a1 h1 a2 h2 a3 h3 a4 h4 a5 h5 a6 h6 a7 h7 a8 h8 a9 h9 a10 h10 a11 h11 a12 h12 hc x0 x1 x2 x3 x4 x5 x6 x7 x8 x9 = k1_pay1 (k1_pay4 x0 x1 x2 x3 x4 x5 x6 x7) x8 x9 := by
  unfold out1_A_10
  rw [View.read_writes_eq_canon _ _ _ (cover1_A_10 c i a1 h1 a2 h2 a3 h3 a4 h4 a5 h5 a6 h6 a7 h7 a8 h8 a9 h9 a10 h10 a11 h11 a12 h12 hc x0 x1 x2 x3 x4 x5 x6 x7 x8 x9)]
  unfold kernelRun1_A
  dsimp only
  rw [View.canon_unit_zero hz]
  sl_unfold_run_names
  simp only [View.readAt_eq_ld, h1.read_unread, h2.read_unread, h3.read_unread, h4.read_unread, h5.read_unread, h6.read_unread, h7.read_unread, h8.read_unread, h9.read_unread, h10.read_unread,
    View.ld_unit_zero (S := S800x128) hz, View.ld_unit_zero (S := S256x128) hz, View.ld_unit_zero (S := S1x128) hz, View.ld_unit_zero (S := S128x1280) hz, View.ld_unit_zero (S := S1x1280) hz, View.ld_unit_zero (S := S1280x64) hz, View.ld_unit_zero (S := S1x64) hz, View.ld_unit_zero (S := S64x1280) hz]

/-- First point: the accumulator holds the zero row plus the block's column sums. -/
theorem out_A_11 (c : Dev nD) (i : grid1.Coords) (a1 : Memref sig .tc .vmem S800x128 .f32) (h1 : a1.IsWhole) (a2 : Memref sig .tc .vmem S800x128 .f32) (h2 : a2.IsWhole) (a3 : Memref sig .tc .vmem S256x128 .f32) (h3 : a3.IsWhole) (a4 : Memref sig .tc .vmem S1x128 .f32) (h4 : a4.IsWhole) (a5 : Memref sig .tc .vmem S128x1280 .f32) (h5 : a5.IsWhole) (a6 : Memref sig .tc .vmem S1x1280 .f32) (h6 : a6.IsWhole) (a7 : Memref sig .tc .vmem S1280x64 .f32) (h7 : a7.IsWhole) (a8 : Memref sig .tc .vmem S1x64 .f32) (h8 : a8.IsWhole) (a9 : Memref sig .tc .vmem S64x1280 .f32) (h9 : a9.IsWhole) (a10 : Memref sig .tc .vmem S1x1280 .f32) (h10 : a10.IsWhole) (a11 : Memref sig .tc .vmem S800x1280 .f32) (h11 : a11.IsWhole) (a12 : Memref sig .tc .vmem S1x1280 .f32) (h12 : a12.IsWhole) (hc : cond1_0 i) (x0 : Vec F S800x128 .f32) (x1 : Vec F S800x128 .f32) (x2 : Vec F S256x128 .f32) (x3 : Vec F S1x128 .f32) (x4 : Vec F S128x1280 .f32) (x5 : Vec F S1x1280 .f32) (x6 : Vec F S1280x64 .f32) (x7 : Vec F S1x64 .f32) (x8 : Vec F S64x1280 .f32) (x9 : Vec F S1x1280 .f32) :
    out1_A_11 c i a1 h1 a2 h2 a3 h3 a4 h4 a5 h5 a6 h6 a7 h7 a8 h8 a9 h9 a10 h10 a11 h11 a12 h12 hc x0 x1 x2 x3 x4 x5 x6 x7 x8 x9 = k1_pay2 (k1_pay4 x0 x1 x2 x3 x4 x5 x6 x7) x8 x9 (k1_pay3 (F := F)) := by
  unfold out1_A_11
  rw [View.read_writes_eq_canon _ _ _ (cover1_A_11 c i a1 h1 a2 h2 a3 h3 a4 h4 a5 h5 a6 h6 a7 h7 a8 h8 a9 h9 a10 h10 a11 h11 a12 h12 hc x0 x1 x2 x3 x4 x5 x6 x7 x8 x9)]
  unfold kernelRun1_A
  dsimp only
  rw [View.canon_cons_unit_zero (S := S1x1280) hz]
  sl_unfold_run_names
  rw [View.readCov_unit_zero (S := S1x1280) _ hz]
  simp only [View.readAt_eq_ld, h1.read_unread, h2.read_unread, h3.read_unread, h4.read_unread, h5.read_unread, h6.read_unread, h7.read_unread, h8.read_unread, h9.read_unread, h10.read_unread,
    View.ld_unit_zero (S := S800x128) hz, View.ld_unit_zero (S := S256x128) hz, View.ld_unit_zero (S := S1x128) hz, View.ld_unit_zero (S := S128x1280) hz, View.ld_unit_zero (S := S1x1280) hz, View.ld_unit_zero (S := S1280x64) hz, View.ld_unit_zero (S := S1x64) hz, View.ld_unit_zero (S := S64x1280) hz]

/-- A later point: the rows' buffer holds the block of normalized rows. -/
theorem out_B_10 (c : Dev nD) (i : grid1.Coords) (a1 : Memref sig .tc .vmem S800x128 .f32) (h1 : a1.IsWhole) (a2 : Memref sig .tc .vmem S800x128 .f32) (h2 : a2.IsWhole) (a3 : Memref sig .tc .vmem S256x128 .f32) (h3 : a3.IsWhole) (a4 : Memref sig .tc .vmem S1x128 .f32) (h4 : a4.IsWhole) (a5 : Memref sig .tc .vmem S128x1280 .f32) (h5 : a5.IsWhole) (a6 : Memref sig .tc .vmem S1x1280 .f32) (h6 : a6.IsWhole) (a7 : Memref sig .tc .vmem S1280x64 .f32) (h7 : a7.IsWhole) (a8 : Memref sig .tc .vmem S1x64 .f32) (h8 : a8.IsWhole) (a9 : Memref sig .tc .vmem S64x1280 .f32) (h9 : a9.IsWhole) (a10 : Memref sig .tc .vmem S1x1280 .f32) (h10 : a10.IsWhole) (a11 : Memref sig .tc .vmem S800x1280 .f32) (h11 : a11.IsWhole) (a12 : Memref sig .tc .vmem S1x1280 .f32) (h12 : a12.IsWhole) (hc : ¬cond1_0 i) (x0 : Vec F S800x128 .f32) (x1 : Vec F S800x128 .f32) (x2 : Vec F S256x128 .f32) (x3 : Vec F S1x128 .f32) (x4 : Vec F S128x1280 .f32) (x5 : Vec F S1x1280 .f32) (x6 : Vec F S1280x64 .f32) (x7 : Vec F S1x64 .f32) (x8 : Vec F S64x1280 .f32) (x9 : Vec F S1x1280 .f32) (xo11 : Vec F S1x1280 .f32) :
    out1_B_10 c i a1 h1 a2 h2 a3 h3 a4 h4 a5 h5 a6 h6 a7 h7 a8 h8 a9 h9 a10 h10 a11 h11 a12 h12 hc x0 x1 x2 x3 x4 x5 x6 x7 x8 x9 xo11 = k1_pay1 (k1_pay4 x0 x1 x2 x3 x4 x5 x6 x7) x8 x9 := by
  unfold out1_B_10
  rw [View.read_writes_eq_canon _ _ _ (cover1_B_10 c i a1 h1 a2 h2 a3 h3 a4 h4 a5 h5 a6 h6 a7 h7 a8 h8 a9 h9 a10 h10 a11 h11 a12 h12 hc x0 x1 x2 x3 x4 x5 x6 x7 x8 x9 xo11)]
  unfold kernelRun1_B
  dsimp only
  rw [View.canon_unit_zero hz]
  sl_unfold_run_names
  simp only [View.readAt_eq_ld, h1.read_unread, h2.read_unread, h3.read_unread, h4.read_unread, h5.read_unread, h6.read_unread, h7.read_unread, h8.read_unread, h9.read_unread, h10.read_unread,
    View.ld_unit_zero (S := S800x128) hz, View.ld_unit_zero (S := S256x128) hz, View.ld_unit_zero (S := S1x128) hz, View.ld_unit_zero (S := S128x1280) hz, View.ld_unit_zero (S := S1x1280) hz, View.ld_unit_zero (S := S1280x64) hz, View.ld_unit_zero (S := S1x64) hz, View.ld_unit_zero (S := S64x1280) hz]

/-- A later point: the accumulator holds what the point before left plus the block's column sums. -/
theorem out_B_11 (c : Dev nD) (i : grid1.Coords) (a1 : Memref sig .tc .vmem S800x128 .f32) (h1 : a1.IsWhole) (a2 : Memref sig .tc .vmem S800x128 .f32) (h2 : a2.IsWhole) (a3 : Memref sig .tc .vmem S256x128 .f32) (h3 : a3.IsWhole) (a4 : Memref sig .tc .vmem S1x128 .f32) (h4 : a4.IsWhole) (a5 : Memref sig .tc .vmem S128x1280 .f32) (h5 : a5.IsWhole) (a6 : Memref sig .tc .vmem S1x1280 .f32) (h6 : a6.IsWhole) (a7 : Memref sig .tc .vmem S1280x64 .f32) (h7 : a7.IsWhole) (a8 : Memref sig .tc .vmem S1x64 .f32) (h8 : a8.IsWhole) (a9 : Memref sig .tc .vmem S64x1280 .f32) (h9 : a9.IsWhole) (a10 : Memref sig .tc .vmem S1x1280 .f32) (h10 : a10.IsWhole) (a11 : Memref sig .tc .vmem S800x1280 .f32) (h11 : a11.IsWhole) (a12 : Memref sig .tc .vmem S1x1280 .f32) (h12 : a12.IsWhole) (hc : ¬cond1_0 i) (x0 : Vec F S800x128 .f32) (x1 : Vec F S800x128 .f32) (x2 : Vec F S256x128 .f32) (x3 : Vec F S1x128 .f32) (x4 : Vec F S128x1280 .f32) (x5 : Vec F S1x1280 .f32) (x6 : Vec F S1280x64 .f32) (x7 : Vec F S1x64 .f32) (x8 : Vec F S64x1280 .f32) (x9 : Vec F S1x1280 .f32) (xo11 : Vec F S1x1280 .f32) :
    out1_B_11 c i a1 h1 a2 h2 a3 h3 a4 h4 a5 h5 a6 h6 a7 h7 a8 h8 a9 h9 a10 h10 a11 h11 a12 h12 hc x0 x1 x2 x3 x4 x5 x6 x7 x8 x9 xo11 = k1_pay2 (k1_pay4 x0 x1 x2 x3 x4 x5 x6 x7) x8 x9 xo11 := by
  unfold out1_B_11
  rw [View.read_writes_eq_canon _ _ _ (cover1_B_11 c i a1 h1 a2 h2 a3 h3 a4 h4 a5 h5 a6 h6 a7 h7 a8 h8 a9 h9 a10 h10 a11 h11 a12 h12 hc x0 x1 x2 x3 x4 x5 x6 x7 x8 x9 xo11)]
  unfold kernelRun1_B
  dsimp only
  rw [View.canon_unit_zero hz]
  sl_unfold_run_names
  simp only [View.readAt_eq_ld, h1.read_unread, h2.read_unread, h3.read_unread, h4.read_unread, h5.read_unread, h6.read_unread, h7.read_unread, h8.read_unread, h9.read_unread, h10.read_unread, h12.read_unread,
    View.ld_unit_zero (S := S800x128) hz, View.ld_unit_zero (S := S256x128) hz, View.ld_unit_zero (S := S1x128) hz, View.ld_unit_zero (S := S128x1280) hz, View.ld_unit_zero (S := S1x1280) hz, View.ld_unit_zero (S := S1280x64) hz, View.ld_unit_zero (S := S1x64) hz, View.ld_unit_zero (S := S64x1280) hz]

end Cert.KernelIdeal.Cases1

end
-- ==== Proof.KBlocks1.lean ====
import proofs.«173914_j18305150615650_2_alg».proof.Proof.Gen.KernelIdeal.Frame
import proofs.«173914_j18305150615650_2_alg».proof.Proof.SpecIdx
import proofs.«173914_j18305150615650_2_alg».proof.Proof.SpecLaws
import proofs.«173914_j18305150615650_2_alg».proof.Proof.KPayI
import proofs.«173914_j18305150615650_2_alg».proof.Proof.KCases1
import Idealize.ShloMosaic.Lib.Pipeline.Value

/-!
  The second grid launch (items' rows), block by block, as two arrays.

  Point `t` of the grid reads rows `800 t … 800 t + 799` of the two feature arrays and all of the weights, writes the
  same rows of the 40000 × 1280 output — row `i` is the item's row through the affine map, the three layers and the
  division by its length — and adds the block's column sums to a one-row accumulator that starts from zero at the
  first point and is written back after the last: the row of column sums over all 40000 rows.
-/

set_option maxRecDepth 16384

noncomputable section

namespace Cert.KernelIdeal.Blocks1

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The items' feature array. -/
abbrev f0 (c : Dev nD) : S40000x128.Idx → EReal := V c main_arg1
/-- The items' neighbour sums. -/
abbrev f1 (c : Dev nD) : S40000x128.Idx → EReal := V c main_v22
/-- The first affine map's matrix. -/
abbrev W0 (c : Dev nD) : S256x128.Idx → EReal := V c main_arg8
/-- The first affine map's bias, as a row. -/
abbrev c0 (c : Dev nD) : S1x128.Idx → EReal := V c main_v30
/-- The first layer's matrix. -/
abbrev W1 (c : Dev nD) : S128x1280.Idx → EReal := V c main_arg16
/-- The first layer's bias, as a row. -/
abbrev c1 (c : Dev nD) : S1x1280.Idx → EReal := V c main_v34
/-- The second layer's matrix. -/
abbrev W2 (c : Dev nD) : S1280x64.Idx → EReal := V c main_arg18
/-- The second layer's bias, as a row. -/
abbrev c2 (c : Dev nD) : S1x64.Idx → EReal := V c main_v35
/-- The third layer's matrix. -/
abbrev W3 (c : Dev nD) : S64x1280.Idx → EReal := V c main_arg20
/-- The third layer's bias, as a row. -/
abbrev c3 (c : Dev nD) : S1x1280.Idx → EReal := V c main_v36

/-- The row of item `u` before the mean is added, from the arrays as the launch finds them. -/
def urow (c : Dev nD) (u : Fin 40000) : Fin 1280 → EReal :=
  itemRow (row (f0 V c) u) (row (f1 V c) u) (W0 V c) (row (c0 V c) 0) (W1 V c) (row (c1 V c) 0) (W2 V c) (row (c2 V c) 0) (W3 V c) (row (c3 V c) 0)

/-- The printed index maps over the grid: the row-blocked windows move by one block per point, the others stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0
    ∧ win1_11.index t (0 : Fin 2) = 0 ∧ win1_11.index t (1 : Fin 2) = 0 :=
  (by decide +kernel : ∀ t : Fin grid1.N, _)

/-- Row `r` of window 0's block at point `t` is row `800 t + r` of its array. -/
theorem row_blk0 (c : Dev nD) (t : Fin cfg1.N) (r : Fin 800) :
    row (iblk1 V c 0 t : S800x128.Idx → EReal) r = row (f0 V c) (tileRow (T := 50) t r) := by
  obtain ⟨e0, e1, -, -, -, -, -, -, -, -, -, -, -, -, -, -, -, -, -, -, -, -, -, -⟩ := idx_facts t
  funext q
  show V c main_arg1 (((cfg1.win 0).blk t).view.emb (ix2 r q)) = V c main_arg1 (ix2 (tileRow (T := 50) t r) q)
  refine congrArg (V c main_arg1) (funext fun a => Fin.ext ?_)
  match a with
  | ⟨0, _⟩ => show win1_0.index t (0 : Fin 2) * 800 + 1 * r.val = t.val * 800 + r.val; rw [e0]; omega
  | ⟨1, _⟩ => show win1_0.index t (1 : Fin 2) * 128 + 1 * q.val = q.val; rw [e1]; omega

/-- Row `r` of window 1's block at point `t` is row `800 t + r` of its array. -/
theorem row_blk1 (c : Dev nD) (t : Fin cfg1.N) (r : Fin 800) :
    row (iblk1 V c 1 t : S800x128.Idx → EReal) r = row (f1 V c) (tileRow (T := 50) t r) := by
  obtain ⟨-, -, e0, e1, -, -, -, -, -, -, -, -, -, -, -, -, -, -, -, -, -, -, -, -⟩ := idx_facts t
  funext q
  show V c main_v22 (((cfg1.win 1).blk t).view.emb (ix2 r q)) = V c main_v22 (ix2 (tileRow (T := 50) t r) q)
  refine congrArg (V c main_v22) (funext fun a => Fin.ext ?_)
  match a with
  | ⟨0, _⟩ => show win1_1.index t (0 : Fin 2) * 800 + 1 * r.val = t.val * 800 + r.val; rw [e0]; omega
  | ⟨1, _⟩ => show win1_1.index t (1 : Fin 2) * 128 + 1 * q.val = q.val; rw [e1]; omega

/-- Window 2's block at any point is its whole array. -/
theorem whole_blk2 (c : Dev nD) (t : Fin cfg1.N) :
    (iblk1 V c 2 t : S256x128.Idx → EReal) = W0 V c := by
  obtain ⟨-, -, -, -, e0, e1, -, -, -, -, -, -, -, -, -, -, -, -, -, -, -, -, -, -⟩ := idx_facts t
  funext y
  show V c main_arg8 (((cfg1.win 2).blk t).view.emb y) = V c main_arg8 y
  refine congrArg (V c main_arg8) (funext fun a => Fin.ext ?_)
  match a with
  | ⟨0, _⟩ => show win1_2.index t (0 : Fin 2) * 256 + 1 * (y 0).val = (y 0).val; rw [e0]; omega
  | ⟨1, _⟩ => show win1_2.index t (1 : Fin 2) * 128 + 1 * (y 1).val = (y 1).val; rw [e1]; omega

/-- Window 3's block at any point is its whole array. -/
theorem whole_blk3 (c : Dev nD) (t : Fin cfg1.N) :
    (iblk1 V c 3 t : S1x128.Idx → EReal) = c0 V c := by
  obtain ⟨-, -, -, -, -, -, e0, e1, -, -, -, -, -, -, -, -, -, -, -, -, -, -, -, -⟩ := idx_facts t
  funext y
  show V c main_v30 (((cfg1.win 3).blk t).view.emb y) = V c main_v30 y
  refine congrArg (V c main_v30) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- Window 4's block at any point is its whole array. -/
theorem whole_blk4 (c : Dev nD) (t : Fin cfg1.N) :
    (iblk1 V c 4 t : S128x1280.Idx → EReal) = W1 V c := by
  obtain ⟨-, -, -, -, -, -, -, -, e0, e1, -, -, -, -, -, -, -, -, -, -, -, -, -, -⟩ := idx_facts t
  funext y
  show V c main_arg16 (((cfg1.win 4).blk t).view.emb y) = V c main_arg16 y
  refine congrArg (V c main_arg16) (funext fun a => Fin.ext ?_)
  match a with
  | ⟨0, _⟩ => show win1_4.index t (0 : Fin 2) * 128 + 1 * (y 0).val = (y 0).val; rw [e0]; omega
  | ⟨1, _⟩ => show win1_4.index t (1 : Fin 2) * 1280 + 1 * (y 1).val = (y 1).val; rw [e1]; omega

/-- Window 5's block at any point is its whole array. -/
theorem whole_blk5 (c : Dev nD) (t : Fin cfg1.N) :
    (iblk1 V c 5 t : S1x1280.Idx → EReal) = c1 V c := by
  obtain ⟨-, -, -, -, -, -, -, -, -, -, e0, e1, -, -, -, -, -, -, -, -, -, -, -, -⟩ := idx_facts t
  funext y
  show V c main_v34 (((cfg1.win 5).blk t).view.emb y) = V c main_v34 y
  refine congrArg (V c main_v34) (funext fun a => Fin.ext ?_)
  match a with
  | ⟨0, _⟩ => show win1_5.index t (0 : Fin 2) * 1 + 1 * (y 0).val = (y 0).val; rw [e0]; omega
  | ⟨1, _⟩ => show win1_5.index t (1 : Fin 2) * 1280 + 1 * (y 1).val = (y 1).val; rw [e1]; omega

/-- Window 6's block at any point is its whole array. -/
theorem whole_blk6 (c : Dev nD) (t : Fin cfg1.N) :
    (iblk1 V c 6 t : S1280x64.Idx → EReal) = W2 V c := by
  obtain ⟨-, -, -, -, -, -, -, -, -, -, -, -, e0, e1, -, -, -, -, -, -, -, -, -, -⟩ := idx_facts t
  funext y
  show V c main_arg18 (((cfg1.win 6).blk t).view.emb y) = V c main_arg18 y
  refine congrArg (V c main_arg18) (funext fun a => Fin.ext ?_)
  match a with
  | ⟨0, _⟩ => show win1_6.index t (0 : Fin 2) * 1280 + 1 * (y 0).val = (y 0).val; rw [e0]; omega
  | ⟨1, _⟩ => show win1_6.index t (1 : Fin 2) * 64 + 1 * (y 1).val = (y 1).val; rw [e1]; omega

/-- Window 7's block at any point is its whole array. -/
theorem whole_blk7 (c : Dev nD) (t : Fin cfg1.N) :
    (iblk1 V c 7 t : S1x64.Idx → EReal) = c2 V c := by
  obtain ⟨-, -, -, -, -, -, -, -, -, -, -, -, -, -, e0, e1, -, -, -, -, -, -, -, -⟩ := idx_facts t
  funext y
  show V c main_v35 (((cfg1.win 7).blk t).view.emb y) = V c main_v35 y
  refine congrArg (V c main_v35) (funext fun a => Fin.ext ?_)
  match a with
  | ⟨0, _⟩ => show win1_7.index t (0 : Fin 2) * 1 + 1 * (y 0).val = (y 0).val; rw [e0]; omega
  | ⟨1, _⟩ => show win1_7.index t (1 : Fin 2) * 64 + 1 * (y 1).val = (y 1).val; rw [e1]; omega

/-- Window 8's block at any point is its whole array. -/
theorem whole_blk8 (c : Dev nD) (t : Fin cfg1.N) :
    (iblk1 V c 8 t : S64x1280.Idx → EReal) = W3 V c := by
  obtain ⟨-, -, -, -, -, -, -, -, -, -, -, -, -, -, -, -, e0, e1, -, -, -, -, -, -⟩ := idx_facts t
  funext y
  show V c main_arg20 (((cfg1.win 8).blk t).view.emb y) = V c main_arg20 y
  refine congrArg (V c main_arg20) (funext fun a => Fin.ext ?_)
  match a with
  | ⟨0, _⟩ => show win1_8.index t (0 : Fin 2) * 64 + 1 * (y 0).val = (y 0).val; rw [e0]; omega
  | ⟨1, _⟩ => show win1_8.index t (1 : Fin 2) * 1280 + 1 * (y 1).val = (y 1).val; rw [e1]; omega

/-- Window 9's block at any point is its whole array. -/
theorem whole_blk9 (c : Dev nD) (t : Fin cfg1.N) :
    (iblk1 V c 9 t : S1x1280.Idx → EReal) = c3 V c := by
  obtain ⟨-, -, -, -, -, -, -, -, -, -, -, -, -, -, -, -, -, -, e0, e1, -, -, -, -⟩ := idx_facts t
  funext y
  show V c main_v36 (((cfg1.win 9).blk t).view.emb y) = V c main_v36 y
  refine congrArg (V c main_v36) (funext fun a => Fin.ext ?_)
  match a with
  | ⟨0, _⟩ => show win1_9.index t (0 : Fin 2) * 1 + 1 * (y 0).val = (y 0).val; rw [e0]; omega
  | ⟨1, _⟩ => show win1_9.index t (1 : Fin 2) * 1280 + 1 * (y 1).val = (y 1).val; rw [e1]; omega

/-- The rows' block the body computes at point `t`: row `r` is the row of item `800 t + r`. -/
theorem blk_meta (c : Dev nD) (t : Fin cfg1.N) (r : Fin 800) (j : Fin 1280) :
    k1_pay1 (F := Ideal) (k1_pay4 (iblk1 V c 0 t) (iblk1 V c 1 t) (iblk1 V c 2 t) (iblk1 V c 3 t) (iblk1 V c 4 t) (iblk1 V c 5 t) (iblk1 V c 6 t) (iblk1 V c 7 t)) (iblk1 V c 8 t) (iblk1 V c 9 t) (ix2 r j) = urow V c (tileRow (T := 50) t r) j := by
  refine (Cert.KPayI.meta_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) r j).trans ?_
  unfold urow
  rw [row_blk0 V c t r, row_blk1 V c t r, whole_blk2 V c t, whole_blk3 V c t, whole_blk4 V c t, whole_blk5 V c t, whole_blk6 V c t, whole_blk7 V c t, whole_blk8 V c t, whole_blk9 V c t]

/-- The accumulator row the body stores at point `t` over the contents `prev`: `prev` plus the block's column sums. -/
theorem blk_acc (c : Dev nD) (t : Fin cfg1.N) (prev : Vec Ideal S1x1280 .f32) (j : Fin 1280) :
    k1_pay2 (F := Ideal) (k1_pay4 (iblk1 V c 0 t) (iblk1 V c 1 t) (iblk1 V c 2 t) (iblk1 V c 3 t) (iblk1 V c 4 t) (iblk1 V c 5 t) (iblk1 V c 6 t) (iblk1 V c 7 t)) (iblk1 V c 8 t) (iblk1 V c 9 t) prev (ix2 (0 : Fin 1) j)
      = prev (ix2 (0 : Fin 1) j) + ∑ r : Fin 800, urow V c (tileRow (T := 50) t r) j := by
  refine (Cert.KPayI.acc_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) prev j).trans ?_
  refine congrArg (prev (ix2 (0 : Fin 1) j) + ·) (Finset.sum_congr rfl fun r _ => ?_)
  unfold urow
  rw [row_blk0 V c t r, row_blk1 V c t r, whole_blk2 V c t, whole_blk3 V c t, whole_blk4 V c t, whole_blk5 V c t, whole_blk6 V c t, whole_blk7 V c t, whole_blk8 V c t, whole_blk9 V c t]

/-- What the two output buffers hold after the first point. -/
theorem step_A (c : Dev nD) (t : Fin cfg1.N) (h0 : t.val % 50 = 0) :
    outsAt1 V c t.val t.isLt = (k1_pay1 (F := Ideal) (k1_pay4 (iblk1 V c 0 t) (iblk1 V c 1 t) (iblk1 V c 2 t) (iblk1 V c 3 t) (iblk1 V c 4 t) (iblk1 V c 5 t) (iblk1 V c 6 t) (iblk1 V c 7 t)) (iblk1 V c 8 t) (iblk1 V c 9 t), k1_pay2 (F := Ideal) (k1_pay4 (iblk1 V c 0 t) (iblk1 V c 1 t) (iblk1 V c 2 t) (iblk1 V c 3 t) (iblk1 V c 4 t) (iblk1 V c 5 t) (iblk1 V c 6 t) (iblk1 V c 7 t)) (iblk1 V c 8 t) (iblk1 V c 9 t) (k1_pay3 (F := Ideal))) := by
  rw [outsAt1_A V c t h0,
    Cert.KernelIdeal.Cases1.out_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
    Cert.KernelIdeal.Cases1.out_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)]

/-- What the two output buffers hold after a later point, over what the point before left in the accumulator. -/
theorem step_B (c : Dev nD) (t : Fin cfg1.N) (h0 : ¬t.val % 50 = 0) :
    outsAt1 V c t.val t.isLt = (k1_pay1 (F := Ideal) (k1_pay4 (iblk1 V c 0 t) (iblk1 V c 1 t) (iblk1 V c 2 t) (iblk1 V c 3 t) (iblk1 V c 4 t) (iblk1 V c 5 t) (iblk1 V c 6 t) (iblk1 V c 7 t)) (iblk1 V c 8 t) (iblk1 V c 9 t), k1_pay2 (F := Ideal) (k1_pay4 (iblk1 V c 0 t) (iblk1 V c 1 t) (iblk1 V c 2 t) (iblk1 V c 3 t) (iblk1 V c 4 t) (iblk1 V c 5 t) (iblk1 V c 6 t) (iblk1 V c 7 t)) (iblk1 V c 8 t) (iblk1 V c 9 t) (outsAt1 V c (t.val - 1) (Nat.lt_of_le_of_lt (Nat.sub_le _ _) t.isLt)).2) := by
  rw [outsAt1_B V c t h0,
    Cert.KernelIdeal.Cases1.out_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2,
    Cert.KernelIdeal.Cases1.out_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2]

/-- The column sums of tile `t'` (rows `800 t' … 800 t' + 799`) at column `j`; zero past the last tile. -/
def tile (c : Dev nD) (j : Fin 1280) (t' : ℕ) : EReal :=
  if h : t' < 50 then ∑ r : Fin 800, urow V c ⟨t' * 800 + r.val, by have := r.isLt; omega⟩ j else 0

theorem tile_eq (c : Dev nD) (j : Fin 1280) (t : Fin cfg1.N) :
    tile V c j t.val = ∑ r : Fin 800, urow V c (tileRow (T := 50) t r) j := by
  have hN : cfg1.N = 50 := N_1
  unfold tile
  rw [dif_pos (by have := t.isLt; omega)]
  rfl

/-- After point `n`: the rows' buffer holds the rows of tile `n`, the accumulator the column sums of tiles `0 … n`. -/
theorem outs_eq (c : Dev nD) : ∀ (n : ℕ) (hn : n < cfg1.N),
    (∀ (r : Fin 800) (j : Fin 1280), (outsAt1 V c n hn).1 (ix2 r j) = urow V c (tileRow (T := 50) (⟨n, hn⟩ : Fin cfg1.N) r) j)
    ∧ (∀ j : Fin 1280, (outsAt1 V c n hn).2 (ix2 (0 : Fin 1) j) = ∑ t' ∈ Finset.range (n + 1), tile V c j t')
  | 0, hn => by
    have e : outsAt1 V c 0 hn = _ := step_A V c ⟨0, hn⟩ (Nat.zero_mod _)
    refine ⟨fun r j => ?_, fun j => ?_⟩
    · rw [e]
      exact blk_meta V c ⟨0, hn⟩ r j
    · rw [e]
      refine (blk_acc V c ⟨0, hn⟩ _ j).trans ?_
      rw [Cert.KPayI.zero_apply, zero_add, Finset.sum_range_one]
      exact (tile_eq V c j ⟨0, hn⟩).symm
  | n + 1, hn => by
    have hN : cfg1.N = 50 := N_1
    have hB : ¬(⟨n + 1, hn⟩ : Fin cfg1.N).val % 50 = 0 := by dsimp only; omega
    have e : outsAt1 V c (n + 1) hn = _ := step_B V c ⟨n + 1, hn⟩ hB
    refine ⟨fun r j => ?_, fun j => ?_⟩
    · rw [e]
      exact blk_meta V c ⟨n + 1, hn⟩ r j
    · rw [e]
      refine (blk_acc V c ⟨n + 1, hn⟩ _ j).trans ?_
      rw [Finset.sum_range_succ _ (n + 1), ← tile_eq V c j ⟨n + 1, hn⟩]
      exact congrArg (· + tile V c j (n + 1)) ((outs_eq c n (Nat.lt_of_succ_lt hn)).2 j)

/-! ## The two arrays the launch leaves -/

/-- What point `t` writes back of the rows' output is its block of the array of all rows. -/
theorem flushed_rows (c : Dev nD) (t : Fin cfg1.N) :
    (dat1 V c).flushed 10 t = ((cfg1.win 10).blk t).view.read (Elt Ideal) (arr2 fun (u : Fin 40000) (j : Fin 1280) => urow V c u j) := by
  show (cfg1.win 10).cut (grid1.coords t) ((dat1 V c).after 10 t) = _
  rw [after1_10]
  obtain ⟨-, -, -, -, -, -, -, -, -, -, -, -, -, -, -, -, -, -, -, -, e0, e1, -, -⟩ := idx_facts t
  funext y
  obtain ⟨r, j, rfl⟩ : ∃ (r : Fin 800) (j : Fin 1280), y = ix2 r j := ⟨y 0, y 1, eq_ix2 y⟩
  have hemb : ((cfg1.win 10).blk t).view.emb (ix2 r j) = ix2 (tileRow (T := 50) t r) j := by
    funext a; apply Fin.ext
    match a with
    | ⟨0, _⟩ => show win1_10.index t (0 : Fin 2) * 800 + 1 * r.val = t.val * 800 + r.val; rw [e0]; omega
    | ⟨1, _⟩ => show win1_10.index t (1 : Fin 2) * 1280 + 1 * j.val = j.val; rw [e1]; omega
  show (outsAt1 V c t.val t.isLt).1 (ix2 r j) = (arr2 fun (u : Fin 40000) (j : Fin 1280) => urow V c u j) (((cfg1.win 10).blk t).view.emb (ix2 r j))
  rw [hemb, arr2_ix2]
  exact (outs_eq V c t.val t.isLt).1 r j

theorem mem_blk_rows (t : Fin cfg1.N) (i : S40000x1280.Idx) :
    i ∈ ((cfg1.win 10).blk t).view.set ↔ ∀ a : Fin 2, win1_10.index t a * S800x1280.size a ≤ (i a).val ∧ (i a).val < win1_10.index t a * S800x1280.size a + S800x1280.size a := by
  show i ∈ ((View.whole main_v38_0).slice (win1_10.rect t)).set ↔ _
  rw [View.set_slice_whole, Rect.mem_set_unit]
  exact Iff.rfl

/-- The rows' output array: row `u` is the row of item `u`. -/
theorem final_rows (c : Dev nD) : (dat1 V c).arrAt 10 cfg1.N = arr2 fun (u : Fin 40000) (j : Fin 1280) => urow V c u j :=
  (dat1 V c).arrAt_eq_of_cover 10 _ (fun t _ => flushed_rows V c t) fun i => by
    have hi0 : (i 0).val < 40000 := (i 0).isLt
    have hi1 : (i 1).val < 1280 := (i 1).isLt
    have hN : cfg1.N = 50 := N_1
    refine ⟨⟨(i 0).val / 800, by rw [hN]; omega⟩, flush1_10 _, ?_⟩
    rw [mem_blk_rows]
    obtain ⟨-, -, -, -, -, -, -, -, -, -, -, -, -, -, -, -, -, -, -, -, e0, e1, -, -⟩ := idx_facts ⟨(i 0).val / 800, by rw [hN]; omega⟩
    intro a
    match a with
    | ⟨0, _⟩ => show win1_10.index _ (0 : Fin 2) * 800 ≤ (i 0).val ∧ (i 0).val < win1_10.index _ (0 : Fin 2) * 800 + 800; rw [e0]; dsimp only; omega
    | ⟨1, _⟩ => show win1_10.index _ (1 : Fin 2) * 1280 ≤ (i 1).val ∧ (i 1).val < win1_10.index _ (1 : Fin 2) * 1280 + 1280; rw [e1]; omega

/-- The sum over all rows of column `j`, tile by tile. -/
theorem sum_all (c : Dev nD) (j : Fin 1280) : ∑ t' ∈ Finset.range 50, tile V c j t' = ∑ u : Fin 40000, urow V c u j :=
  Cert.SpecLaws.sum_tiles_items (fun u => urow V c u j)

set_option maxRecDepth 131072 in
/-- The one write-back of the accumulator, after the last point, writes the row of column sums over all rows. -/
theorem flushed_acc (c : Dev nD) (t : Fin cfg1.N) (hf : (cfg1.win 11).flush t = true) :
    (dat1 V c).flushed 11 t = ((cfg1.win 11).blk t).view.read (Elt Ideal) (arr2 fun (_ : Fin 1) (j : Fin 1280) => ∑ u : Fin 40000, urow V c u j) := by
  have hN : cfg1.N = 50 := N_1
  have hlast : t.val = 49 := by have := (flush1_11 t).mp hf; have := t.isLt; omega
  show (cfg1.win 11).cut (grid1.coords t) ((dat1 V c).after 11 t) = _
  rw [after1_11]
  obtain ⟨-, -, -, -, -, -, -, -, -, -, -, -, -, -, -, -, -, -, -, -, -, -, e0, e1⟩ := idx_facts t
  funext y
  obtain ⟨z, j, rfl⟩ : ∃ (z : Fin 1) (j : Fin 1280), y = ix2 z j := ⟨y 0, y 1, eq_ix2 y⟩
  obtain rfl : z = 0 := Subsingleton.elim _ _
  have hemb : ((cfg1.win 11).blk t).view.emb (ix2 (0 : Fin 1) j) = ix2 (0 : Fin 1) j := by
    funext a; apply Fin.ext
    match a with
    | ⟨0, _⟩ => show win1_11.index t (0 : Fin 2) * 1 + 1 * 0 = 0; rw [e0]
    | ⟨1, _⟩ => show win1_11.index t (1 : Fin 2) * 1280 + 1 * j.val = j.val; rw [e1]; omega
  show (outsAt1 V c t.val t.isLt).2 (ix2 (0 : Fin 1) j) = (arr2 fun (_ : Fin 1) (j : Fin 1280) => ∑ u : Fin 40000, urow V c u j) (((cfg1.win 11).blk t).view.emb (ix2 (0 : Fin 1) j))
  rw [hemb, arr2_ix2, (outs_eq V c t.val t.isLt).2 j, hlast]
  exact sum_all V c j

theorem mem_blk_acc (t : Fin cfg1.N) (i : S1x1280.Idx) :
    i ∈ ((cfg1.win 11).blk t).view.set ↔ ∀ a : Fin 2, win1_11.index t a * S1x1280.size a ≤ (i a).val ∧ (i a).val < win1_11.index t a * S1x1280.size a + S1x1280.size a := by
  show i ∈ ((View.whole main_v38_1).slice (win1_11.rect t)).set ↔ _
  rw [View.set_slice_whole, Rect.mem_set_unit]
  exact Iff.rfl

/-- The accumulator's array: the row of column sums over all rows. -/
theorem final_acc (c : Dev nD) : (dat1 V c).arrAt 11 cfg1.N = arr2 fun (_ : Fin 1) (j : Fin 1280) => ∑ u : Fin 40000, urow V c u j :=
  (dat1 V c).arrAt_eq_of_cover 11 _ (flushed_acc V c) fun i => by
    have hi0 : (i 0).val < 1 := (i 0).isLt
    have hi1 : (i 1).val < 1280 := (i 1).isLt
    have hN : cfg1.N = 50 := N_1
    refine ⟨⟨49, by rw [hN]; omega⟩, (flush1_11 _).mpr rfl, ?_⟩
    rw [mem_blk_acc]
    obtain ⟨-, -, -, -, -, -, -, -, -, -, -, -, -, -, -, -, -, -, -, -, -, -, e0, e1⟩ := idx_facts ⟨49, by rw [hN]; omega⟩
    intro a
    match a with
    | ⟨0, _⟩ => show win1_11.index _ (0 : Fin 2) * 1 ≤ (i 0).val ∧ (i 0).val < win1_11.index _ (0 : Fin 2) * 1 + 1; rw [e0]; omega
    | ⟨1, _⟩ => show win1_11.index _ (1 : Fin 2) * 1280 ≤ (i 1).val ∧ (i 1).val < win1_11.index _ (1 : Fin 2) * 1280 + 1280; rw [e1]; omega

end Cert.KernelIdeal.Blocks1

end
-- ==== Proof.LibMiddleAxis.lean ====
/-
  A unit axis in the middle, and the two ways a rank-3 broadcast fills around it, read at an index.

  A matrix `[a, c]` viewed as `[a, 1, c]` has, at `(p, u, q)`, the matrix entry `(p, q)`; repeated `b` times along
  the middle axis it has, at `(p, k, q)`, the entry `(p, q)` still. A column `[b, 1]` viewed as `[1, b, 1]` has, at
  `(u, k, u')`, the column's entry `k`; repeated along the first and last axes to `[a, b, c]` it has, at `(p, k, q)`,
  the entry `k`. Together: a table `f(p, q) ∘ g(k)` laid out with `k` on the middle axis. Last, the one element of a
  `[1, 1]` array taken out by position.
-/
import Idealize.ShloMosaic.Lib.ValueIdx
import Idealize.ShloMosaic.Lib.Pipeline.Value

namespace Cert.LibMiddleAxis

open Idealize.ShloMosaic Idealize.ShloMosaic.ValueIdx

variable {α : Type}

/-- An `[a, c]` array cast to `[a, 1, c]` reads, at `(p, u, q)`, the operand at `(p, q)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- A `[b, 1]` column cast to `[1, b, 1]` reads, at `(u, k, u')`, the column's entry `k`. -/
theorem shapeCast_b1_1b1_apply {b : ℕ} (x : (⟨2, ![b, 1]⟩ : Shape).Idx → α)
    (h : (⟨2, ![b, 1]⟩ : Shape).ShapeCasts ⟨3, ![1, b, 1]⟩) (u : Fin 1) (k : Fin b) (u' : Fin 1) :
    shapeCast ⟨3, ![1, b, 1]⟩ x h (ix3 u k u') = x (ix2 k (0 : Fin 1)) :=
  shapeCast_apply x h _ _ (by
    have hu : u.val = 0 := by omega
    have hu' : u'.val = 0 := by omega
    rw [Shape.rowMajor_val_three, Shape.rowMajor_val_two]
    show k.val * 1 + 0 = (u.val * b + k.val) * 1 + u'.val
    rw [hu, hu', Nat.zero_mul, Nat.zero_add])

/-- An `[a, 1, c]` array broadcast to `[a, b, c]` reads, at `(p, k, q)`, the operand at `(p, 0, q)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ v h (ix3 p k q) = v (ix3 p (0 : Fin 1) q) := by
  refine broadcastTo_apply v h (ix3 p k q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A `[1, b, 1]` array broadcast to `[a, b, c]` reads, at `(p, k, q)`, the operand at `(0, k, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (k : Fin b) (q : Fin c) :
    broadcastTo ⟨3, ![a, b, c]⟩ v h (ix3 p k q) = v (ix3 (0 : Fin 1) k (0 : Fin 1)) := by
  refine broadcastTo_apply v h (ix3 p k q) (ix3 (0 : Fin 1) k (0 : Fin 1)) fun ax => ?_
  match ax with
  | ⟨0, _⟩ => rfl
  | ⟨1, _⟩ =>
    show k.val = if b = 1 then 0 else k.val
    split
    · have := k.isLt; omega
    · rfl
  | ⟨2, _⟩ => rfl

/-- The element of a `[1, 1]` array taken out at position (0, 0) is its entry `(0, 0)`. -/
theorem extractAt_11 (x : (⟨2, ![1, 1]⟩ : Shape).Idx → α)
    (h : ∀ d, (![0, 0] : Fin 2 → Nat) d < (⟨2, ![1, 1]⟩ : Shape).size d) :
    extractAt ![0, 0] x h = x (ix2 (0 : Fin 1) (0 : Fin 1)) := by
  unfold extractAt
  exact congrArg x (funext fun d => Fin.ext (by match d with | ⟨0, _⟩ => rfl | ⟨1, _⟩ => rfl))

end Cert.LibMiddleAxis
-- ==== Proof.KSoft.lean ====
/-
  A softmax along one of the two axes the 1280 columns split into, read entry by entry on the extended reals.

  Both bodies add a bias row to an 800 × 1280 block, view the 1280 columns as 10 × 128 (column k·128 + d sits at
  (k, d)), and along one axis take the greatest entry, subtract it, exponentiate, and divide by the sum of the
  exponentials. The first does so along the 128 axis, then swaps the last two axes and flattens back, so that its
  column d·10 + k holds the quotient at (k, d); the second does so along the 10 axis and keeps the three axes.
  Each entry of either result is the softmax of the family of sums "block entry + bias entry" along that axis.

  The steps, each over variables first: the two column splittings as casts; a unit axis added last and repeated
  (the unit axis in the middle is a lemma file's); the greatest entry and the sum along the last or the middle axis
  as a fold of max from ⊥ and a finite sum over that axis's coordinate; then the softmax along either axis.
-/
import proofs.«173914_j18305150615650_2_alg».proof.Proof.Gen.KernelIdeal.Skeleton
import proofs.«173914_j18305150615650_2_alg».proof.Proof.Spec
import proofs.«173914_j18305150615650_2_alg».proof.Proof.LibMiddleAxis
import Idealize.ShloMosaic.Lib.ValueIdx
import Idealize.ShloMosaic.Lib.ValueLayout
import Idealize.ShloMosaic.Lib.Pipeline.Value
import Idealize.ShloMosaic.PureOps.Ideal.Laws

noncomputable section

namespace Cert.KSoft

open Cert.KernelIdeal Cert.KernelIdeal.Gen Cert.Spec Idealize.ShloMosaic Idealize.ShloMosaic.ValueIdx

/-- The word of minus infinity is the least extended real. -/
theorem ofBits_neg_inf_f32 : Ideal.ofBits .f32 0xFF800000#32 = ⊥ := by simp [Ideal.ofBits, Ideal.ieee]

section layout
variable {α : Type}

/-- An 800 × 1280 array viewed as 800 × 10 × 128 reads, at `(r, k, d)`, the operand's column `k * 128 + d`. -/
theorem cast_kd (x : (⟨2, ![800, 1280]⟩ : Shape).Idx → α)
    (h : (⟨2, ![800, 1280]⟩ : Shape).ShapeCasts ⟨3, ![800, 10, 128]⟩) (r : Fin 800) (k : Fin 10) (d : Fin 128) :
    shapeCast ⟨3, ![800, 10, 128]⟩ x h (ix3 r k d) = x (ix2 r (kd k d)) :=
  shapeCast_apply x h _ _ (by
    rw [Shape.rowMajor_val_three, Shape.rowMajor_val_two]
    show r.val * 1280 + (k.val * 128 + d.val) = (r.val * 10 + k.val) * 128 + d.val
    omega)

/-- An 800 × 128 × 10 array flattened to 800 × 1280 reads, at column `d * 10 + k`, the operand at `(r, d, k)`. -/
theorem cast_dk (y : (⟨3, ![800, 128, 10]⟩ : Shape).Idx → α)
    (h : (⟨3, ![800, 128, 10]⟩ : Shape).ShapeCasts ⟨2, ![800, 1280]⟩) (r : Fin 800) (d : Fin 128) (k : Fin 10) :
    shapeCast ⟨2, ![800, 1280]⟩ y h (ix2 r (dk d k)) = y (ix3 r d k) :=
  shapeCast_apply y h _ _ (by
    rw [Shape.rowMajor_val_three, Shape.rowMajor_val_two]
    show (r.val * 128 + d.val) * 10 + k.val = r.val * 1280 + (d.val * 10 + k.val)
    omega)

/-- An `[a, b]` array cast to `[a, b, 1]` reads, at `(p, q, u)`, the operand at `(p, q)`. -/
theorem cast_ab_ab1 {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, w)`, the operand at `(p, q, 0)`. -/
theorem bcast_ab1_abc {a b c : ℕ} (v : (⟨3, ![a, b, 1]⟩ : Shape).Idx → α)
    (h : (⟨3, ![a, b, 1]⟩ : Shape).Broadcasts ⟨3, ![a, b, c]⟩) (p : Fin a) (q : Fin b) (w : Fin c) :
    broadcastTo ⟨3, ![a, b, c]⟩ v h (ix3 p q w) = v (ix3 p q (0 : Fin 1)) := by
  refine broadcastTo_apply v h (ix3 p q w) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end layout

/-! ## The greatest entry and the sum along the last and the middle axis -/

/-- The index a reduction over the last axis lifts `(p, q)` and the position `w` to is `(p, q, w)`. -/
theorem lift_last {a b c : ℕ} (h : (⟨3, ![a, b, c]⟩ : Shape).Reduces [2] ⟨2, ![a, b]⟩) (p : Fin a) (q : Fin b) (w : Fin c) :
    h.lift (ix2 p q) w = ix3 p q w := by
  funext ax
  apply Fin.ext
  show h.liftVal (ix2 p q) w.val ax = (ix3 p q w ax).val
  match ax with
  | ⟨0, _⟩ => simp [Shape.Reduces.liftVal]
  | ⟨1, _⟩ => simp [Shape.Reduces.liftVal]
  | ⟨2, _⟩ => simp [Shape.Reduces.liftVal]

/-- The index a reduction over the middle axis lifts `(p, w)` and the position `q` to is `(p, q, w)`. -/
theorem lift_mid {a b c : ℕ} (h : (⟨3, ![a, b, c]⟩ : Shape).Reduces [1] ⟨2, ![a, c]⟩) (p : Fin a) (q : Fin b) (w : Fin c) :
    h.lift (ix2 p w) q = ix3 p q w := by
  funext ax
  apply Fin.ext
  show h.liftVal (ix2 p w) q.val ax = (ix3 p q w ax).val
  match ax with
  | ⟨0, _⟩ => simp [Shape.Reduces.liftVal]
  | ⟨1, _⟩ => simp [Shape.Reduces.liftVal]
  | ⟨2, _⟩ => simp [Shape.Reduces.liftVal]

/-- The maximum along the last axis from minus infinity, at `(p, q)`: the fold of max from ⊥ over the entries `(p, q, ·)`. -/
theorem max_last {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec 32) = FKind.maximumf.neutral .f32 hφ) (p : Fin a) (q : Fin b) :
    multiReduction .maximumf [2] ⟨2, ![a, b]⟩ src 0xFF800000#32 h hφ hacc (ix2 p q)
      = Finset.univ.fold max ⊥ (fun w : Fin c => src (ix3 p q w)) := by
  refine (Ideal.multiReduction_maximumf_single src _ h hφ hacc (ix2 p q)).trans ?_
  show Finset.univ.fold max (Ideal.ofBits .f32 0xFF800000#32) (src ∘ h.lift (ix2 p q)) = _
  rw [ofBits_neg_inf_f32]
  exact congrArg (Finset.univ.fold max ⊥) (funext fun w => congrArg src (lift_last h p q w))

/-- The sum along the last axis from zero, at `(p, q)`: the sum of the entries `(p, q, ·)`. -/
theorem sum_last {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ src 0x00000000#32 h hφ hacc (ix2 p q)
      = ∑ w : Fin c, src (ix3 p q w) :=
  (Ideal.multiReduction_add_single src _ h hφ hacc (ix2 p q)).trans
    (Finset.sum_congr rfl fun w _ => congrArg src (lift_last h p q w))

/-- The maximum along the middle axis from minus infinity, at `(p, w)`: the fold of max from ⊥ over the entries `(p, ·, w)`. -/
theorem max_mid {a b c : ℕ} (src : FVec Ideal ⟨3, ![a, b, c]⟩ .f32)
    (h : (⟨3, ![a, b, c]⟩ : Shape).Reduces [1] ⟨2, ![a, c]⟩) (hφ : FKind.Formats .f32)
    (hacc : (0xFF800000#32 : BitVec 32) = FKind.maximumf.neutral .f32 hφ) (p : Fin a) (w : Fin c) :
    multiReduction .maximumf [1] ⟨2, ![a, c]⟩ src 0xFF800000#32 h hφ hacc (ix2 p w)
      = Finset.univ.fold max ⊥ (fun q : Fin b => src (ix3 p q w)) := by
  refine (Ideal.multiReduction_maximumf_single src _ h hφ hacc (ix2 p w)).trans ?_
  show Finset.univ.fold max (Ideal.ofBits .f32 0xFF800000#32) (src ∘ h.lift (ix2 p w)) = _
  rw [ofBits_neg_inf_f32]
  exact congrArg (Finset.univ.fold max ⊥) (funext fun q => congrArg src (lift_mid h p q w))

/-- The sum along the middle axis from zero, at `(p, w)`: the sum of the entries `(p, ·, w)`. -/
theorem sum_mid {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (w : Fin c) :
    multiReduction .add [1] ⟨2, ![a, c]⟩ src 0x00000000#32 h hφ hacc (ix2 p w)
      = ∑ q : Fin b, src (ix3 p q w) :=
  (Ideal.multiReduction_add_single src _ h hφ hacc (ix2 p w)).trans
    (Finset.sum_congr rfl fun q _ => congrArg src (lift_mid h p q w))

/-! ## The softmax along the last and along the middle axis -/

/-- Subtract the greatest entry along the last axis, exponentiate, divide by the sum along the last axis: at `(p, q, w)`
    the softmax of the entries `(p, q, ·)` at `w`. -/
theorem soft_last {a b c : ℕ} (v : FVec Ideal ⟨3, ![a, b, c]⟩ .f32)
    (hr : (⟨3, ![a, b, c]⟩ : Shape).Reduces [2] ⟨2, ![a, b]⟩) (hφ hφ' : FKind.Formats .f32)
    (hmax : (0xFF800000#32 : BitVec 32) = FKind.maximumf.neutral .f32 hφ)
    (hadd : (0x00000000#32 : BitVec 32) = FKind.add.neutral .f32 hφ')
    (hc : (⟨2, ![a, b]⟩ : Shape).ShapeCasts ⟨3, ![a, b, 1]⟩)
    (hb : (⟨3, ![a, b, 1]⟩ : Shape).Broadcasts ⟨3, ![a, b, c]⟩) (p : Fin a) (q : Fin b) (w : Fin c) :
    divf
      (exp (subf v (broadcastTo ⟨3, ![a, b, c]⟩ (shapeCast ⟨3, ![a, b, 1]⟩
        (multiReduction .maximumf [2] ⟨2, ![a, b]⟩ v 0xFF800000#32 hr hφ hmax) hc) hb)))
      (broadcastTo ⟨3, ![a, b, c]⟩ (shapeCast ⟨3, ![a, b, 1]⟩
        (multiReduction .add [2] ⟨2, ![a, b]⟩
          (exp (subf v (broadcastTo ⟨3, ![a, b, c]⟩ (shapeCast ⟨3, ![a, b, 1]⟩
            (multiReduction .maximumf [2] ⟨2, ![a, b]⟩ v 0xFF800000#32 hr hφ hmax) hc) hb)))
          0x00000000#32 hr hφ' hadd) hc) hb) (ix3 p q w)
      = gate (fun w' : Fin c => v (ix3 p q w')) w := by
  have hM : ∀ w' : Fin c,
      broadcastTo ⟨3, ![a, b, c]⟩ (shapeCast ⟨3, ![a, b, 1]⟩
        (multiReduction .maximumf [2] ⟨2, ![a, b]⟩ v 0xFF800000#32 hr hφ hmax) hc) hb (ix3 p q w')
        = Finset.univ.fold max ⊥ (fun w'' : Fin c => v (ix3 p q w'')) := fun w' =>
    (bcast_ab1_abc _ hb p q w').trans ((cast_ab_ab1 _ hc p q 0).trans (max_last v hr hφ hmax p q))
  have hE : ∀ w' : Fin c,
      exp (subf v (broadcastTo ⟨3, ![a, b, c]⟩ (shapeCast ⟨3, ![a, b, 1]⟩
        (multiReduction .maximumf [2] ⟨2, ![a, b]⟩ v 0xFF800000#32 hr hφ hmax) hc) hb)) (ix3 p q w')
        = Ideal.exp (v (ix3 p q w') - Finset.univ.fold max ⊥ (fun w'' : Fin c => v (ix3 p q w''))) := fun w' =>
    congrArg (fun m => Ideal.exp (v (ix3 p q w') - m)) (hM w')
  unfold gate
  refine congrArg₂ Ideal.div (hE w) ?_
  refine ((bcast_ab1_abc _ hb p q w).trans ((cast_ab_ab1 _ hc p q 0).trans (sum_last _ hr hφ' hadd p q))).trans ?_
  exact Finset.sum_congr rfl fun w' _ => hE w'

/-- The same along the middle axis: at `(p, q, w)` the softmax of the entries `(p, ·, w)` at `q`. -/
theorem soft_mid {a b c : ℕ} (v : FVec Ideal ⟨3, ![a, b, c]⟩ .f32)
    (hr : (⟨3, ![a, b, c]⟩ : Shape).Reduces [1] ⟨2, ![a, c]⟩) (hφ hφ' : FKind.Formats .f32)
    (hmax : (0xFF800000#32 : BitVec 32) = FKind.maximumf.neutral .f32 hφ)
    (hadd : (0x00000000#32 : BitVec 32) = FKind.add.neutral .f32 hφ')
    (hc : (⟨2, ![a, c]⟩ : Shape).ShapeCasts ⟨3, ![a, 1, c]⟩)
    (hb : (⟨3, ![a, 1, c]⟩ : Shape).Broadcasts ⟨3, ![a, b, c]⟩) (p : Fin a) (q : Fin b) (w : Fin c) :
    divf
      (exp (subf v (broadcastTo ⟨3, ![a, b, c]⟩ (shapeCast ⟨3, ![a, 1, c]⟩
        (multiReduction .maximumf [1] ⟨2, ![a, c]⟩ v 0xFF800000#32 hr hφ hmax) hc) hb)))
      (broadcastTo ⟨3, ![a, b, c]⟩ (shapeCast ⟨3, ![a, 1, c]⟩
        (multiReduction .add [1] ⟨2, ![a, c]⟩
          (exp (subf v (broadcastTo ⟨3, ![a, b, c]⟩ (shapeCast ⟨3, ![a, 1, c]⟩
            (multiReduction .maximumf [1] ⟨2, ![a, c]⟩ v 0xFF800000#32 hr hφ hmax) hc) hb)))
          0x00000000#32 hr hφ' hadd) hc) hb) (ix3 p q w)
      = gate (fun q' : Fin b => v (ix3 p q' w)) q := by
  have hM : ∀ q' : Fin b,
      broadcastTo ⟨3, ![a, b, c]⟩ (shapeCast ⟨3, ![a, 1, c]⟩
        (multiReduction .maximumf [1] ⟨2, ![a, c]⟩ v 0xFF800000#32 hr hφ hmax) hc) hb (ix3 p q' w)
        = Finset.univ.fold max ⊥ (fun q'' : Fin b => v (ix3 p q'' w)) := fun q' =>
    (LibMiddleAxis.broadcastTo_a1c_abc_apply _ hb p q' w).trans
      ((LibMiddleAxis.shapeCast_ac_a1c_apply _ hc p 0 w).trans (max_mid v hr hφ hmax p w))
  have hE : ∀ q' : Fin b,
      exp (subf v (broadcastTo ⟨3, ![a, b, c]⟩ (shapeCast ⟨3, ![a, 1, c]⟩
        (multiReduction .maximumf [1] ⟨2, ![a, c]⟩ v 0xFF800000#32 hr hφ hmax) hc) hb)) (ix3 p q' w)
        = Ideal.exp (v (ix3 p q' w) - Finset.univ.fold max ⊥ (fun q'' : Fin b => v (ix3 p q'' w))) := fun q' =>
    congrArg (fun m => Ideal.exp (v (ix3 p q' w) - m)) (hM q')
  unfold gate
  refine congrArg₂ Ideal.div (hE q) ?_
  refine ((LibMiddleAxis.broadcastTo_a1c_abc_apply _ hb p q w).trans
    ((LibMiddleAxis.shapeCast_ac_a1c_apply _ hc p 0 w).trans (sum_mid _ hr hφ' hadd p w))).trans ?_
  exact Finset.sum_congr rfl fun q' _ => hE q'

/-! ## The two bodies -/

/-- The block with the bias row added, viewed as 800 × 10 × 128, at `(r, k, d)`: the block's entry in column
    `k * 128 + d` plus the bias entry there. -/
theorem biased_apply (x0 : Vec Ideal S800x1280 .f32) (x1 : Vec Ideal S1x1280 .f32)
    (h0 : S800x1280.ShapeCasts S800x1280) (h1 : S1x1280.ShapeCasts S1x1280) (hb : S1x1280.Broadcasts S800x1280)
    (hc : S800x1280.ShapeCasts S800x10x128) (r : Fin 800) (k : Fin 10) (d : Fin 128) :
    shapeCast S800x10x128 (addf (shapeCast S800x1280 x0 h0 : FVec Ideal S800x1280 .f32)
        (broadcastTo S800x1280 (shapeCast S1x1280 x1 h1 : FVec Ideal S1x1280 .f32) hb)) hc (ix3 r k d)
      = x0 (ix2 r (kd k d)) + x1 (ix2 (0 : Fin 1) (kd k d)) := by
  refine (cast_kd _ hc r k d).trans ?_
  rw [shapeCast_self, shapeCast_self]
  exact congrArg (x0 (ix2 r (kd k d)) + ·) (broadcastTo_1b_ab_apply x1 hb r (kd k d))

/-- The users' gate: column `d * 10 + k` of row `r` holds the softmax over `d` of the biased entries `(k, ·)`. -/
theorem userGate_apply (x0 : Vec Ideal S800x1280 .f32) (x1 : Vec Ideal S1x1280 .f32) (r : Fin 800) (d : Fin 128)
    (k : Fin 10) :
    k2_pay1 (F := Ideal) x0 x1 (ix2 r (dk d k))
      = gate (fun d' : Fin 128 => x0 (ix2 r (kd k d')) + x1 (ix2 (0 : Fin 1) (kd k d'))) d := by
  unfold k2_pay1
  refine (cast_dk _ _ r d k).trans ?_
  refine (transpose_ix3_021_apply _ _ r d k).trans ?_
  refine (soft_last _ _ _ _ _ _ _ _ r k d).trans ?_
  exact congrArg (fun s => gate s d) (funext fun d' => biased_apply x0 x1 _ _ _ _ r k d')

/-- The items' gate: entry `(r, k, d)` holds the softmax over `k` of the biased entries `(·, d)`. -/
theorem itemGate_apply (x0 : Vec Ideal S800x1280 .f32) (x1 : Vec Ideal S1x1280 .f32) (r : Fin 800) (d : Fin 128)
    (k : Fin 10) :
    k3_pay1 (F := Ideal) x0 x1 (ix3 r k d)
      = gate (fun k' : Fin 10 => x0 (ix2 r (kd k' d)) + x1 (ix2 (0 : Fin 1) (kd k' d))) k := by
  unfold k3_pay1
  refine (soft_mid _ _ _ _ _ _ _ _ r k d).trans ?_
  exact congrArg (fun s => gate s k) (funext fun k' => biased_apply x0 x1 _ _ _ _ r k' d)

end Cert.KSoft

end
-- ==== Proof.KBlocks2.lean ====
import proofs.«173914_j18305150615650_2_alg».proof.Proof.Gen.KernelIdeal.Frame
import proofs.«173914_j18305150615650_2_alg».proof.Proof.SpecIdx
import proofs.«173914_j18305150615650_2_alg».proof.Proof.KSoft
import Idealize.ShloMosaic.Lib.Pipeline.Value

/-!
  The third grid launch (users' softmax), block by block, as one array.

  Point `t` of the grid reads rows `800 t … 800 t + 799` of the 80000 × 1280 input and the one bias row, and writes
  the same rows of the output: entry `(u, d·10 + k)` is the softmax over `d'` of the input's entries
  `(u, k·128 + d')` plus the bias at `k·128 + d'`, taken at `d`. The 100 blocks tile the array.
-/

set_option maxRecDepth 16384

noncomputable section

namespace Cert.KernelIdeal.Blocks2

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The launch's input array and bias row as it finds them. -/
abbrev inp (c : Dev nD) : S80000x1280.Idx → EReal := V c main_v37_0
abbrev bias (c : Dev nD) : S1x1280.Idx → EReal := V c main_v40

theorem hz : (![0, 0] : Fin 2 → Nat) = fun _ => 0 := funext fun a => by fin_cases a <;> rfl

/-- The gated array: entry `(u, j)`, with `j = d·10 + k`, from the input `X` and the bias row `B`. -/
def gated (X : S80000x1280.Idx → EReal) (B : S1x1280.Idx → EReal) : S80000x1280.Idx → EReal :=
  arr2 fun (u : Fin 80000) (j : Fin 1280) =>
    gate (fun d' : Fin 128 => X (ix2 u (kd (dkK j) d')) + B (ix2 (0 : Fin 1) (kd (dkK j) d'))) (dkD j)

/-- The printed index maps over the grid: the input and the output move by one block of rows per point; the bias
    row does not move. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input block at point `t`, entry `(r, q)`: the array's entry `(800 t + r, q)`. -/
theorem iblk_in (c : Dev nD) (t : Fin cfg2.N) (r : Fin 800) (q : Fin 1280) :
    iblk2 V c 0 t (ix2 r q) = V c main_v37_0 (ix2 (tileRow (T := 100) t r) q) := by
  obtain ⟨e0, e1, -, -, -, -⟩ := idx_facts t
  show V c main_v37_0 (((cfg2.win 0).blk t).view.emb (ix2 r q)) = V c main_v37_0 (ix2 (tileRow (T := 100) t r) q)
  refine congrArg (V c main_v37_0) (funext fun a => Fin.ext ?_)
  match a with
  | ⟨0, _⟩ => show win2_0.index t (0 : Fin 2) * 800 + 1 * r.val = t.val * 800 + r.val; rw [e0]; omega
  | ⟨1, _⟩ => show win2_0.index t (1 : Fin 2) * 1280 + 1 * q.val = q.val; rw [e1]; omega

/-- The bias block at any point is the bias row. -/
theorem iblk_bias (c : Dev nD) (t : Fin cfg2.N) (q : Fin 1280) :
    iblk2 V c 1 t (ix2 (0 : Fin 1) q) = V c main_v40 (ix2 (0 : Fin 1) q) := by
  obtain ⟨-, -, e2, e3, -, -⟩ := idx_facts t
  show V c main_v40 (((cfg2.win 1).blk t).view.emb (ix2 (0 : Fin 1) q)) = V c main_v40 (ix2 (0 : Fin 1) q)
  refine congrArg (V c main_v40) (funext fun a => Fin.ext ?_)
  match a with
  | ⟨0, _⟩ => show win2_1.index t (0 : Fin 2) * 1 + 1 * 0 = 0; rw [e2]
  | ⟨1, _⟩ => show win2_1.index t (1 : Fin 2) * 1280 + 1 * q.val = q.val; rw [e3]; omega

/-- What point `t` writes back is its block of the gated array. -/
theorem flushed_eq (c : Dev nD) (t : Fin cfg2.N) :
    (dat2 V c).flushed 2 t = ((cfg2.win 2).blk t).view.read (Elt Ideal) (gated (V c main_v37_0) (V c main_v40)) := by
  show (cfg2.win 2).cut (grid2.coords t) ((dat2 V c).after 2 t) = _
  rw [after2_2]
  unfold out2_2
  rw [View.canon_unit_zero hz]
  simp only [View.ld_unit_zero (S := S800x1280) hz, View.ld_unit_zero (S := S1x1280) hz]
  obtain ⟨-, -, -, -, e4, e5⟩ := idx_facts t
  funext y
  obtain ⟨r, j, rfl⟩ : ∃ (r : Fin 800) (j : Fin 1280), y = ix2 r j := ⟨y 0, y 1, eq_ix2 y⟩
  have hemb : ((cfg2.win 2).blk t).view.emb (ix2 r j) = ix2 (tileRow (T := 100) t r) j := by
    funext a; apply Fin.ext
    match a with
    | ⟨0, _⟩ => show win2_2.index t (0 : Fin 2) * 800 + 1 * r.val = t.val * 800 + r.val; rw [e4]; omega
    | ⟨1, _⟩ => show win2_2.index t (1 : Fin 2) * 1280 + 1 * j.val = j.val; rw [e5]; omega
  show k2_pay1 (F := Ideal) (iblk2 V c 0 t) (iblk2 V c 1 t) (ix2 r j) = gated (V c main_v37_0) (V c main_v40) (((cfg2.win 2).blk t).view.emb (ix2 r j))
  rw [hemb]
  unfold gated
  rw [arr2_ix2]
  rw [← dk_dkD_dkK j]
  refine (Cert.KSoft.userGate_apply (iblk2 V c 0 t) (iblk2 V c 1 t) r (dkD j) (dkK j)).trans ?_
  rw [dkK_dk, dkD_dk]
  refine congrArg (fun s => gate s (dkD j)) (funext fun d' => ?_)
  rw [iblk_in, iblk_bias]

/-- An index of the array is in point `t`'s block iff each coordinate is in the block's range on its axis. -/
theorem mem_blk (t : Fin cfg2.N) (i : S80000x1280.Idx) :
    i ∈ ((cfg2.win 2).blk t).view.set ↔ ∀ a : Fin 2, win2_2.index t a * S800x1280.size a ≤ (i a).val ∧ (i a).val < win2_2.index t a * S800x1280.size a + S800x1280.size a := by
  show i ∈ ((View.whole main_v43).slice (win2_2.rect t)).set ↔ _
  rw [View.set_slice_whole, Rect.mem_set_unit]
  exact Iff.rfl

/-- The array the launch leaves: the gated array. -/
theorem final (c : Dev nD) : (dat2 V c).arrAt 2 cfg2.N = gated (V c main_v37_0) (V c main_v40) :=
  (dat2 V c).arrAt_eq_of_cover 2 _ (fun t _ => flushed_eq V c t) fun i => by
    have hi0 : (i 0).val < 80000 := (i 0).isLt
    have hi1 : (i 1).val < 1280 := (i 1).isLt
    have hN : cfg2.N = 100 := N_2
    refine ⟨⟨(i 0).val / 800, by rw [hN]; omega⟩, flush2_2 _, ?_⟩
    rw [mem_blk]
    obtain ⟨-, -, -, -, e4, e5⟩ := idx_facts ⟨(i 0).val / 800, by rw [hN]; omega⟩
    intro a
    match a with
    | ⟨0, _⟩ => show win2_2.index _ (0 : Fin 2) * 800 ≤ (i 0).val ∧ (i 0).val < win2_2.index _ (0 : Fin 2) * 800 + 800; rw [e4]; dsimp only; omega
    | ⟨1, _⟩ => show win2_2.index _ (1 : Fin 2) * 1280 ≤ (i 1).val ∧ (i 1).val < win2_2.index _ (1 : Fin 2) * 1280 + 1280; rw [e5]; omega

/-- Entry `(u, d·10 + k)` of the array the launch leaves. -/
theorem final_apply (c : Dev nD) (u : Fin 80000) (d : Fin 128) (k : Fin 10) :
    (dat2 V c).arrAt 2 cfg2.N (ix2 u (dk d k))
      = gate (fun d' : Fin 128 => inp V c (ix2 u (kd k d')) + bias V c (ix2 (0 : Fin 1) (kd k d'))) d := by
  rw [final]; unfold gated; rw [arr2_ix2, dkK_dk, dkD_dk]

end Cert.KernelIdeal.Blocks2

end
-- ==== Proof.KBlocks3.lean ====
import proofs.«173914_j18305150615650_2_alg».proof.Proof.Gen.KernelIdeal.Frame
import proofs.«173914_j18305150615650_2_alg».proof.Proof.SpecIdx
import proofs.«173914_j18305150615650_2_alg».proof.Proof.KSoft
import Idealize.ShloMosaic.Lib.Pipeline.Value

/-!
  The fourth grid launch (items' softmax), block by block, as one array.

  Point `t` of the grid reads rows `800 t … 800 t + 799` of the 40000 × 1280 input and the one bias row, and writes
  the same slabs of the 40000 × 10 × 128 output: entry `(i, k, d)` is the softmax over `k'` of the input's entries
  `(i, k'·128 + d)` plus the bias at `k'·128 + d`, taken at `k`. The 50 blocks tile the array.
-/

set_option maxRecDepth 16384

noncomputable section

namespace Cert.KernelIdeal.Blocks3

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The launch's input array and bias row as it finds them. -/
abbrev inp (c : Dev nD) : S40000x1280.Idx → EReal := V c main_v38_0
abbrev bias (c : Dev nD) : S1x1280.Idx → EReal := V c main_v42

theorem hz : (![0, 0] : Fin 2 → Nat) = fun _ => 0 := funext fun a => by fin_cases a <;> rfl
theorem hz3 : (![0, 0, 0] : Fin 3 → Nat) = fun _ => 0 := funext fun a => by fin_cases a <;> rfl

/-- The gated array: entry `(i, k, d)` from the input `X` and the bias row `B`. -/
def gated (X : S40000x1280.Idx → EReal) (B : S1x1280.Idx → EReal) : S40000x10x128.Idx → EReal :=
  arr3 fun (i : Fin 40000) (k : Fin 10) (d : Fin 128) =>
    gate (fun k' : Fin 10 => X (ix2 i (kd k' d)) + B (ix2 (0 : Fin 1) (kd k' d))) k

/-- The printed index maps over the grid: the input and the output move by one block of rows per point; the bias
    row does not move. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 3) = t.val ∧ win3_2.index t (1 : Fin 3) = 0 ∧ win3_2.index t (2 : Fin 3) = 0 :=
  (by decide +kernel : ∀ t : Fin grid3.N, _)

/-- The input block at point `t`, entry `(r, q)`: the array's entry `(800 t + r, q)`. -/
theorem iblk_in (c : Dev nD) (t : Fin cfg3.N) (r : Fin 800) (q : Fin 1280) :
    iblk3 V c 0 t (ix2 r q) = V c main_v38_0 (ix2 (tileRow (T := 50) t r) q) := by
  obtain ⟨e0, e1, -, -, -, -, -⟩ := idx_facts t
  show V c main_v38_0 (((cfg3.win 0).blk t).view.emb (ix2 r q)) = V c main_v38_0 (ix2 (tileRow (T := 50) t r) q)
  refine congrArg (V c main_v38_0) (funext fun a => Fin.ext ?_)
  match a with
  | ⟨0, _⟩ => show win3_0.index t (0 : Fin 2) * 800 + 1 * r.val = t.val * 800 + r.val; rw [e0]; omega
  | ⟨1, _⟩ => show win3_0.index t (1 : Fin 2) * 1280 + 1 * q.val = q.val; rw [e1]; omega

/-- The bias block at any point is the bias row. -/
theorem iblk_bias (c : Dev nD) (t : Fin cfg3.N) (q : Fin 1280) :
    iblk3 V c 1 t (ix2 (0 : Fin 1) q) = V c main_v42 (ix2 (0 : Fin 1) q) := by
  obtain ⟨-, -, e2, e3, -, -, -⟩ := idx_facts t
  show V c main_v42 (((cfg3.win 1).blk t).view.emb (ix2 (0 : Fin 1) q)) = V c main_v42 (ix2 (0 : Fin 1) q)
  refine congrArg (V c main_v42) (funext fun a => Fin.ext ?_)
  match a with
  | ⟨0, _⟩ => show win3_1.index t (0 : Fin 2) * 1 + 1 * 0 = 0; rw [e2]
  | ⟨1, _⟩ => show win3_1.index t (1 : Fin 2) * 1280 + 1 * q.val = q.val; rw [e3]; omega

/-- What point `t` writes back is its block of the gated array. -/
theorem flushed_eq (c : Dev nD) (t : Fin cfg3.N) :
    (dat3 V c).flushed 2 t = ((cfg3.win 2).blk t).view.read (Elt Ideal) (gated (V c main_v38_0) (V c main_v42)) := by
  show (cfg3.win 2).cut (grid3.coords t) ((dat3 V c).after 2 t) = _
  rw [after3_2]
  unfold out3_2
  rw [View.canon_unit_zero hz3]
  simp only [View.ld_unit_zero (S := S800x1280) hz, View.ld_unit_zero (S := S1x1280) hz]
  obtain ⟨-, -, -, -, e4, e5, e6⟩ := idx_facts t
  funext y
  obtain ⟨r, k, d, rfl⟩ : ∃ (r : Fin 800) (k : Fin 10) (d : Fin 128), y = ix3 r k d := ⟨y 0, y 1, y 2, eq_ix3 y⟩
  have hemb : ((cfg3.win 2).blk t).view.emb (ix3 r k d) = ix3 (tileRow (T := 50) t r) k d := by
    funext a; apply Fin.ext
    match a with
    | ⟨0, _⟩ => show win3_2.index t (0 : Fin 3) * 800 + 1 * r.val = t.val * 800 + r.val; rw [e4]; omega
    | ⟨1, _⟩ => show win3_2.index t (1 : Fin 3) * 10 + 1 * k.val = k.val; rw [e5]; omega
    | ⟨2, _⟩ => show win3_2.index t (2 : Fin 3) * 128 + 1 * d.val = d.val; rw [e6]; omega
  show k3_pay1 (F := Ideal) (iblk3 V c 0 t) (iblk3 V c 1 t) (ix3 r k d) = gated (V c main_v38_0) (V c main_v42) (((cfg3.win 2).blk t).view.emb (ix3 r k d))
  rw [hemb]
  unfold gated
  rw [arr3_ix3]
  refine (Cert.KSoft.itemGate_apply (iblk3 V c 0 t) (iblk3 V c 1 t) r d k).trans ?_
  refine congrArg (fun s => gate s k) (funext fun k' => ?_)
  rw [iblk_in, iblk_bias]

/-- An index of the array is in point `t`'s block iff each coordinate is in the block's range on its axis. -/
theorem mem_blk (t : Fin cfg3.N) (i : S40000x10x128.Idx) :
    i ∈ ((cfg3.win 2).blk t).view.set ↔ ∀ a : Fin 3, win3_2.index t a * S800x10x128.size a ≤ (i a).val ∧ (i a).val < win3_2.index t a * S800x10x128.size a + S800x10x128.size a := by
  show i ∈ ((View.whole main_v45).slice (win3_2.rect t)).set ↔ _
  rw [View.set_slice_whole, Rect.mem_set_unit]
  exact Iff.rfl

/-- The array the launch leaves: the gated array. -/
theorem final (c : Dev nD) : (dat3 V c).arrAt 2 cfg3.N = gated (V c main_v38_0) (V c main_v42) :=
  (dat3 V c).arrAt_eq_of_cover 2 _ (fun t _ => flushed_eq V c t) fun i => by
    have hi0 : (i 0).val < 40000 := (i 0).isLt
    have hi1 : (i 1).val < 10 := (i 1).isLt
    have hi2 : (i 2).val < 128 := (i 2).isLt
    have hN : cfg3.N = 50 := N_3
    refine ⟨⟨(i 0).val / 800, by rw [hN]; omega⟩, flush3_2 _, ?_⟩
    rw [mem_blk]
    obtain ⟨-, -, -, -, e4, e5, e6⟩ := idx_facts ⟨(i 0).val / 800, by rw [hN]; omega⟩
    intro a
    match a with
    | ⟨0, _⟩ => show win3_2.index _ (0 : Fin 3) * 800 ≤ (i 0).val ∧ (i 0).val < win3_2.index _ (0 : Fin 3) * 800 + 800; rw [e4]; dsimp only; omega
    | ⟨1, _⟩ => show win3_2.index _ (1 : Fin 3) * 10 ≤ (i 1).val ∧ (i 1).val < win3_2.index _ (1 : Fin 3) * 10 + 10; rw [e5]; omega
    | ⟨2, _⟩ => show win3_2.index _ (2 : Fin 3) * 128 ≤ (i 2).val ∧ (i 2).val < win3_2.index _ (2 : Fin 3) * 128 + 128; rw [e6]; omega

/-- Entry `(i, k, d)` of the array the launch leaves. -/
theorem final_apply (c : Dev nD) (i : Fin 40000) (k : Fin 10) (d : Fin 128) :
    (dat3 V c).arrAt 2 cfg3.N (ix3 i k d)
      = gate (fun k' : Fin 10 => inp V c (ix2 i (kd k' d)) + bias V c (ix2 (0 : Fin 1) (kd k' d))) k := by
  rw [final]; unfold gated; rw [arr3_ix3]

end Cert.KernelIdeal.Blocks3

end
-- ==== Proof.KFinal.lean ====
import proofs.«173914_j18305150615650_2_alg».proof.Proof.Gen.KernelIdeal.Frame
import proofs.«173914_j18305150615650_2_alg».proof.Proof.Gen.ReferenceIdeal.Read
import proofs.«173914_j18305150615650_2_alg».proof.Proof.SpecIdx
import proofs.«173914_j18305150615650_2_alg».proof.Proof.SpecLaws
import proofs.«173914_j18305150615650_2_alg».proof.Proof.KChain
import proofs.«173914_j18305150615650_2_alg».proof.Proof.KBlocks0
import proofs.«173914_j18305150615650_2_alg».proof.Proof.KBlocks1
import proofs.«173914_j18305150615650_2_alg».proof.Proof.KBlocks2
import proofs.«173914_j18305150615650_2_alg».proof.Proof.KBlocks3

/-!
  The idealized kernel program's two results, entry by entry, as the specification's functions of the arguments.
-/

set_option maxRecDepth 16384

noncomputable section

namespace Cert.KernelIdeal.Final

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The two result buffers after the run, as plain arrays. -/
abbrev resU : S80000x128x10.Idx → EReal := W7 m ρ c (Proc.devRef .tc main_v44)
abbrev resI : S40000x10x128.Idx → EReal := W7 m ρ c (Proc.devRef .tc main_v45)

/-- The users' rows before the mean is added, from the argument arrays (the neighbour sums as the host computes them). -/
def rowsU : Fin 80000 → Fin 1280 → EReal := fun u' =>
  userRow (row (m ((c : Thread nD τ).loc main_arg0)) u') (row (m ((c : Thread nD τ).loc main_arg2)) u') (row (m ((c : Thread nD τ).loc main_arg3)) u')
    (row (Cert.ReferenceIdeal.Read.val_main_v9 (F := Ideal) (m ((c : Thread nD τ).loc main_arg1)) (m ((c : Thread nD τ).loc main_arg4)) (m ((c : Thread nD τ).loc main_arg5))) u')
    (m ((c : Thread nD τ).loc main_arg6)) (vec (m ((c : Thread nD τ).loc main_arg7))) (m ((c : Thread nD τ).loc main_arg10)) (vec (m ((c : Thread nD τ).loc main_arg11))) (m ((c : Thread nD τ).loc main_arg12)) (vec (m ((c : Thread nD τ).loc main_arg13))) (m ((c : Thread nD τ).loc main_arg14)) (vec (m ((c : Thread nD τ).loc main_arg15)))

/-- The items' rows likewise. -/
def rowsI : Fin 40000 → Fin 1280 → EReal := fun i' =>
  itemRow (row (m ((c : Thread nD τ).loc main_arg1)) i')
    (row (Cert.ReferenceIdeal.Read.val_main_v27 (F := Ideal) (m ((c : Thread nD τ).loc main_arg0)) (m ((c : Thread nD τ).loc main_arg3)) (m ((c : Thread nD τ).loc main_arg4)) (m ((c : Thread nD τ).loc main_arg5))) i')
    (m ((c : Thread nD τ).loc main_arg8)) (vec (m ((c : Thread nD τ).loc main_arg9))) (m ((c : Thread nD τ).loc main_arg16)) (vec (m ((c : Thread nD τ).loc main_arg17))) (m ((c : Thread nD τ).loc main_arg18)) (vec (m ((c : Thread nD τ).loc main_arg19))) (m ((c : Thread nD τ).loc main_arg20)) (vec (m ((c : Thread nD τ).loc main_arg21)))

/-- The row of user `u'` as the first launch finds its arrays, when those arrays are given ones — the third layer's
    matrix and bias with their columns in the other order —, is the user's row from the given arrays, read at the
    other order's column. Stated over any contents the launch may find. -/
theorem urow_users_of (V : (c : Dev nD) → (b : Ref sig .tc) → Buf (Elt Ideal) ((c : Thread nD τ).loc b)) (c : Dev nD)
    (A0 A2 A3 A9 : Mat 80000 128) (A6 : Mat 512 128) (a7 : (⟨1, ![128]⟩ : Shape).Idx → EReal) (A10 : Mat 128 1280)
    (a11 : (⟨1, ![1280]⟩ : Shape).Idx → EReal) (A12 : Mat 1280 64) (a13 : (⟨1, ![64]⟩ : Shape).Idx → EReal)
    (A14 : Mat 64 1280) (a15 : (⟨1, ![1280]⟩ : Shape).Idx → EReal)
    (h0 : Blocks0.f0 V c = A0) (h1 : Blocks0.f1 V c = A2) (h2 : Blocks0.f2 V c = A3) (h3 : Blocks0.f3 V c = A9)
    (hW0 : Blocks0.W0 V c = A6) (hc0 : ∀ q : Fin 128, Blocks0.c0 V c (ix2 (0 : Fin 1) q) = a7 (ix1 q))
    (hW1 : Blocks0.W1 V c = A10) (hc1 : ∀ q : Fin 1280, Blocks0.c1 V c (ix2 (0 : Fin 1) q) = a11 (ix1 q))
    (hW2 : Blocks0.W2 V c = A12) (hc2 : ∀ q : Fin 64, Blocks0.c2 V c (ix2 (0 : Fin 1) q) = a13 (ix1 q))
    (hW3 : ∀ (h : Fin 64) (k : Fin 10) (d : Fin 128), Blocks0.W3 V c (ix2 h (kd k d)) = A14 (ix2 h (dk d k)))
    (hc3 : ∀ (k : Fin 10) (d : Fin 128), Blocks0.c3 V c (ix2 (0 : Fin 1) (kd k d)) = a15 (ix1 (dk d k)))
    (u' : Fin 80000) (k' : Fin 10) (d'' : Fin 128) :
    Blocks0.urow V c u' (kd k' d'')
      = userRow (row A0 u') (row A2 u') (row A3 u') (row A9 u') A6 (vec a7) A10 (vec a11) A12 (vec a13) A14 (vec a15)
          (dk d'' k') := by
  unfold Blocks0.urow
  rw [h0, h1, h2, h3, hW0, hW1, hW2,
    show row (Blocks0.c0 V c) (0 : Fin 1) = vec a7 from funext hc0,
    show row (Blocks0.c1 V c) (0 : Fin 1) = vec a11 from funext hc1,
    show row (Blocks0.c2 V c) (0 : Fin 1) = vec a13 from funext hc2]
  exact Cert.SpecLaws.userRow_perm _ _ _ _ _ _ _ _ _ _ A14 (Blocks0.W3 V c) (vec a15) (row (Blocks0.c3 V c) (0 : Fin 1))
    hW3 hc3 k' d''

/-- The row of item `i'` as the second launch finds its arrays, when those arrays are given ones, is the item's row from
    the given arrays. Stated over any contents the launch may find. -/
theorem urow_items_of (V : (c : Dev nD) → (b : Ref sig .tc) → Buf (Elt Ideal) ((c : Thread nD τ).loc b)) (c : Dev nD)
    (A1 A22 : Mat 40000 128) (A8 : Mat 256 128) (a9 : (⟨1, ![128]⟩ : Shape).Idx → EReal) (A16 : Mat 128 1280)
    (a17 : (⟨1, ![1280]⟩ : Shape).Idx → EReal) (A18 : Mat 1280 64) (a19 : (⟨1, ![64]⟩ : Shape).Idx → EReal)
    (A20 : Mat 64 1280) (a21 : (⟨1, ![1280]⟩ : Shape).Idx → EReal)
    (h0 : Blocks1.f0 V c = A1) (h1 : Blocks1.f1 V c = A22)
    (hW0 : Blocks1.W0 V c = A8) (hc0 : ∀ q : Fin 128, Blocks1.c0 V c (ix2 (0 : Fin 1) q) = a9 (ix1 q))
    (hW1 : Blocks1.W1 V c = A16) (hc1 : ∀ q : Fin 1280, Blocks1.c1 V c (ix2 (0 : Fin 1) q) = a17 (ix1 q))
    (hW2 : Blocks1.W2 V c = A18) (hc2 : ∀ q : Fin 64, Blocks1.c2 V c (ix2 (0 : Fin 1) q) = a19 (ix1 q))
    (hW3 : Blocks1.W3 V c = A20) (hc3 : ∀ q : Fin 1280, Blocks1.c3 V c (ix2 (0 : Fin 1) q) = a21 (ix1 q))
    (i' : Fin 40000) :
    Blocks1.urow V c i'
      = itemRow (row A1 i') (row A22 i') A8 (vec a9) A16 (vec a17) A18 (vec a19) A20 (vec a21) := by
  unfold Blocks1.urow
  rw [h0, h1, hW0, hW1, hW2, hW3,
    show row (Blocks1.c0 V c) (0 : Fin 1) = vec a9 from funext hc0,
    show row (Blocks1.c1 V c) (0 : Fin 1) = vec a17 from funext hc1,
    show row (Blocks1.c2 V c) (0 : Fin 1) = vec a19 from funext hc2,
    show row (Blocks1.c3 V c) (0 : Fin 1) = vec a21 from funext hc3]

/-- At the first launch's entry: the user's row there is the user's row from the argument arrays, at the other order's
    column. -/
theorem urow_users (u' : Fin 80000) (k' : Fin 10) (d'' : Fin 128) :
    Blocks0.urow (V1 m ρ) c u' (kd k' d'') = rowsU m c u' (dk d'' k') :=
  urow_users_of (V1 m ρ) c (m ((c : Thread nD τ).loc main_arg0)) (m ((c : Thread nD τ).loc main_arg2)) (m ((c : Thread nD τ).loc main_arg3))
    (Cert.ReferenceIdeal.Read.val_main_v9 (F := Ideal) (m ((c : Thread nD τ).loc main_arg1)) (m ((c : Thread nD τ).loc main_arg4)) (m ((c : Thread nD τ).loc main_arg5)))
    (m ((c : Thread nD τ).loc main_arg6)) (Chain.a7 m c) (m ((c : Thread nD τ).loc main_arg10)) (Chain.a11 m c) (m ((c : Thread nD τ).loc main_arg12)) (Chain.a13 m c) (Chain.a14 m c) (Chain.a15 m c)
    (Chain.V1_arg0 m ρ c) (Chain.V1_arg2 m ρ c) (Chain.V1_arg3 m ρ c) (Chain.V1_v9 m ρ c)
    (Chain.V1_arg6 m ρ c) (Chain.V1_v29_apply m ρ c) (Chain.V1_arg10 m ρ c) (Chain.V1_v31_apply m ρ c)
    (Chain.V1_arg12 m ρ c) (Chain.V1_v32_apply m ρ c) (Chain.V1_v25_apply m ρ c) (Chain.V1_v33_apply m ρ c) u' k' d''

/-- At the second launch's entry: the item's row there is the item's row from the argument arrays. -/
theorem urow_items (i' : Fin 40000) : Blocks1.urow (V2 m ρ) c i' = rowsI m c i' :=
  urow_items_of (V2 m ρ) c (m ((c : Thread nD τ).loc main_arg1))
    (Cert.ReferenceIdeal.Read.val_main_v27 (F := Ideal) (m ((c : Thread nD τ).loc main_arg0)) (m ((c : Thread nD τ).loc main_arg3)) (m ((c : Thread nD τ).loc main_arg4)) (m ((c : Thread nD τ).loc main_arg5)))
    (m ((c : Thread nD τ).loc main_arg8)) (Chain.a9 m c) (m ((c : Thread nD τ).loc main_arg16)) (Chain.a17 m c) (m ((c : Thread nD τ).loc main_arg18)) (Chain.a19 m c) (m ((c : Thread nD τ).loc main_arg20)) (Chain.a21 m c)
    (Chain.V2_arg1 m ρ c) (Chain.V2_v22 m ρ c)
    (Chain.V2_arg8 m ρ c) (Chain.V2_v30_apply m ρ c) (Chain.V2_arg16 m ρ c) (Chain.V2_v34_apply m ρ c)
    (Chain.V2_arg18 m ρ c) (Chain.V2_v35_apply m ρ c) (Chain.V2_arg20 m ρ c) (Chain.V2_v36_apply m ρ c) i'

/-- The users' result: the softmax over the 128 axis of each row plus the column means. -/
theorem user_result (u : Fin 80000) (d : Fin 128) (k : Fin 10) :
    resU m ρ c (ix3 u d k) = userOut (rowsU m c) u d k := by
  refine (Chain.W7_v44_apply m ρ c u d k).trans ?_
  refine (Blocks2.final_apply (V4 m ρ) c u d k).trans ?_
  unfold userOut colMean
  refine congrArg (fun s => gate s d) (funext fun d' => ?_)
  refine congrArg₂ (· + ·) ?_ ?_
  · exact (congrFun (Chain.V4_v37_0 m ρ c) (ix2 u (kd k d'))).trans
      ((congrFun (Blocks0.final_rows (V1 m ρ) c) (ix2 u (kd k d'))).trans
        ((arr2_ix2 _ u (kd k d')).trans (urow_users m ρ c u k d')))
  · refine (Chain.V4_v40_apply m ρ c (kd k d')).trans (congrArg (fun s => Ideal.div s cU) ?_)
    refine (congrFun (Blocks0.final_acc (V1 m ρ) c) (ix2 (0 : Fin 1) (kd k d'))).trans
      ((arr2_ix2 _ (0 : Fin 1) (kd k d')).trans ?_)
    exact Finset.sum_congr rfl fun u' _ => urow_users m ρ c u' k d'

/-- The items' result: the softmax over the 10 axis of each row plus the column means. -/
theorem item_result (i : Fin 40000) (k : Fin 10) (d : Fin 128) :
    resI m ρ c (ix3 i k d) = itemOut (rowsI m c) i k d := by
  refine (congrFun (Chain.W7_v45 m ρ c) (ix3 i k d)).trans ?_
  refine (Blocks3.final_apply (V6 m ρ) c i k d).trans ?_
  unfold itemOut colMean
  refine congrArg (fun s => gate s k) (funext fun k' => ?_)
  refine congrArg₂ (· + ·) ?_ ?_
  · exact (congrFun (Chain.V6_v38_0 m ρ c) (ix2 i (kd k' d))).trans
      ((congrFun (Blocks1.final_rows (V2 m ρ) c) (ix2 i (kd k' d))).trans
        ((arr2_ix2 _ i (kd k' d)).trans (congrFun (urow_items m ρ c i) (kd k' d))))
  · refine (Chain.V6_v42_apply m ρ c (kd k' d)).trans (congrArg (fun s => Ideal.div s cI) ?_)
    refine (congrFun (Blocks1.final_acc (V2 m ρ) c) (ix2 (0 : Fin 1) (kd k' d))).trans
      ((arr2_ix2 _ (0 : Fin 1) (kd k' d)).trans ?_)
    exact Finset.sum_congr rfl fun i' _ => congrFun (urow_items m ρ c i') (kd k' d)

end Cert.KernelIdeal.Final

end
-- ==== Proof.RefUser.lean ====
import proofs.«173914_j18305150615650_2_alg».proof.Proof.Gen.ReferenceIdeal.Read
import proofs.«173914_j18305150615650_2_alg».proof.Proof.Spec

/-!
  The reference program's first result read entry by entry.

  The program is read one operation at a time: the four feature arrays joined along the columns and the first affine
  map; the three layers; the division of each row by its length; the 128 × 10 split of the 1280 columns; the mean over
  the rows; the softmax along the 128. Each step is a statement at an index built from its coordinates, over the step
  before it as an opaque array. The array the scatter produces stays one opaque array throughout.
-/

noncomputable section

namespace Cert.RefUser

open Cert.ReferenceIdeal Cert.ReferenceIdeal.Gen Cert.ReferenceIdeal.Read Cert.Spec Idealize.ShloMosaic Idealize.ShloMosaic.ValueIdx

variable (x0 : (⟨S80000x128, .f32⟩ : BufTy).Contents (Elt Ideal)) (x1 : (⟨S40000x128, .f32⟩ : BufTy).Contents (Elt Ideal))
  (x2 x3 : (⟨S80000x128, .f32⟩ : BufTy).Contents (Elt Ideal)) (x4 x5 : (⟨S2000000, .i32⟩ : BufTy).Contents (Elt Ideal))
  (x6 : (⟨S512x128, .f32⟩ : BufTy).Contents (Elt Ideal)) (x7 : (⟨S128, .f32⟩ : BufTy).Contents (Elt Ideal))
  (x10 : (⟨S128x1280, .f32⟩ : BufTy).Contents (Elt Ideal)) (x11 : (⟨S1280, .f32⟩ : BufTy).Contents (Elt Ideal))
  (x12 : (⟨S1280x64, .f32⟩ : BufTy).Contents (Elt Ideal)) (x13 : (⟨S64, .f32⟩ : BufTy).Contents (Elt Ideal))
  (x14 : (⟨S64x1280, .f32⟩ : BufTy).Contents (Elt Ideal)) (x15 : (⟨S1280, .f32⟩ : BufTy).Contents (Elt Ideal))

/-! ## Index maps at coordinates

  Every index map of the program's reading lemmas is a case split on the axis; at an index built from literal
  coordinates each case is the coordinate itself. -/

local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

/-- The word of minus infinity is the least extended real. -/
theorem negInf : Ideal.ofBits .f32 0xFF800000#32 = (⊥ : EReal) := by simp [Ideal.ofBits, Ideal.ieee]

/-! ## The first affine map: the feature rows side by side -/

/-- Four `80000 × 128` arrays joined along the columns, at `(r, q)`: the four rows of `r` side by side at `q`. -/
theorem concat4_apply (h : Shape.Concatenates [S80000x128, S80000x128, S80000x128, S80000x128] S80000x512 1)
    (y0 y1 y2 y3 : S80000x128.Idx → EReal) (r : Fin 80000) (q : Fin 512) :
    concatenate S80000x512 1 [⟨S80000x128, y0⟩, ⟨S80000x128, y1⟩, ⟨S80000x128, y2⟩, ⟨S80000x128, y3⟩] h (ix2 r q)
      = cat4 (fun c => y0 (ix2 r c)) (fun c => y1 (ix2 r c)) (fun c => y2 (ix2 r c)) (fun c => y3 (ix2 r c)) q := by
  unfold cat4
  split
  · next h0 =>
    exact concatenate_apply_piece _ _ _ (ix2 r q) 0 (by show (0 : Nat) < 4; omega) S80000x128 y0 rfl rfl 0 rfl (ix2 r ⟨q.val, h0⟩)
      (fun b hb => by match b with | ⟨0, _⟩ => rfl | ⟨1, _⟩ => exact absurd (Fin.ext rfl) hb) (by show 0 + q.val = q.val; omega)
  · next h0 =>
    split
    · next h1 =>
      exact concatenate_apply_piece _ _ _ (ix2 r q) 1 (by show (1 : Nat) < 4; omega) S80000x128 y1 rfl rfl 128 rfl
        (ix2 r ⟨q.val - 128, by omega⟩)
        (fun b hb => by match b with | ⟨0, _⟩ => rfl | ⟨1, _⟩ => exact absurd (Fin.ext rfl) hb)
        (by show 128 + (q.val - 128) = q.val; omega)
    · next h1 =>
      split
      · next h2 =>
        exact concatenate_apply_piece _ _ _ (ix2 r q) 2 (by show (2 : Nat) < 4; omega) S80000x128 y2 rfl rfl 256 rfl
          (ix2 r ⟨q.val - 256, by omega⟩)
          (fun b hb => by match b with | ⟨0, _⟩ => rfl | ⟨1, _⟩ => exact absurd (Fin.ext rfl) hb)
          (by show 256 + (q.val - 256) = q.val; omega)
      · next h2 =>
        exact concatenate_apply_piece _ _ _ (ix2 r q) 3 (by show (3 : Nat) < 4; omega) S80000x128 y3 rfl rfl 384 rfl
          (ix2 r ⟨q.val - 384, by have := q.isLt; omega⟩)
          (fun b hb => by match b with | ⟨0, _⟩ => rfl | ⟨1, _⟩ => exact absurd (Fin.ext rfl) hb)
          (by show 384 + (q.val - 384) = q.val; omega)

/-- The program's joined array at `(r, q)`. -/
theorem cat0 (r : Fin 80000) (q : Fin 512) :
    val_main_v10 (F := Ideal) x0 x1 x2 x3 x4 x5 (ix2 r q) = cat4 (fun c => x0 (ix2 r c)) (fun c => x2 (ix2 r c)) (fun c => x3 (ix2 r c)) (fun c => val_main_v9 (F := Ideal) x1 x4 x5 (ix2 r c)) q :=
  concat4_apply _ x0 x2 x3 (val_main_v9 (F := Ideal) x1 x4 x5) r q

/-- The first affine map at `(r, n)`. -/
theorem lin0 (r : Fin 80000) (n : Fin 128) :
    val_main_v14 (F := Ideal) x0 x1 x2 x3 x4 x5 x6 x7 (ix2 r n) = affine (cat4 (fun c => x0 (ix2 r c)) (fun c => x2 (ix2 r c)) (fun c => x3 (ix2 r c)) (fun c => val_main_v9 (F := Ideal) x1 x4 x5 (ix2 r c))) x6 (vec x7) n := by
  rw [val_main_v14_apply, val_main_v11_apply, val_main_v13_apply, val_main_v12_apply]
  show ((∑ k : Fin 512, _ * _) + _ : EReal) = (∑ k : Fin 512, _ * _) + _
  refine congrArg₂ (· + ·) (Finset.sum_congr rfl fun k _ => ?_) (congrArg x7 (by idx1))
  have el : lidx_main_v11 (ix2 r n) k = ix2 r k := by idx2
  have er : ridx_main_v11 (ix2 r n) k = ix2 k n := by idx2
  rw [el, er, cat0]

/-! ## The three layers -/

/-- The second affine map at `(r, j)`, over the first's row. -/
theorem lin1 (r : Fin 80000) (j : Fin 1280) :
    val_main_v36 (F := Ideal) x0 x1 x2 x3 x4 x5 x6 x7 x10 x11 (ix2 r j) = affine (fun q => val_main_v14 (F := Ideal) x0 x1 x2 x3 x4 x5 x6 x7 (ix2 r q)) x10 (vec x11) j := by
  rw [val_main_v36_apply, val_main_v33_apply, val_main_v35_apply, val_main_v34_apply]
  show ((∑ k : Fin 128, _ * _) + _ : EReal) = (∑ k : Fin 128, _ * _) + _
  refine congrArg₂ (· + ·) (Finset.sum_congr rfl fun k _ => ?_) (congrArg x11 (by idx1))
  have el : lidx_main_v33 (ix2 r j) k = ix2 r k := by idx2
  have er : ridx_main_v33 (ix2 r j) k = ix2 k j := by idx2
  rw [el, er]

/-- The third affine map at `(r, h)`, over the tanh of the second's row. -/
theorem lin2 (r : Fin 80000) (h : Fin 64) :
    val_main_v41 (F := Ideal) x0 x1 x2 x3 x4 x5 x6 x7 x10 x11 x12 x13 (ix2 r h) = affine (fun q => val_main_v37 (F := Ideal) x0 x1 x2 x3 x4 x5 x6 x7 x10 x11 (ix2 r q)) x12 (vec x13) h := by
  rw [val_main_v41_apply, val_main_v38_apply, val_main_v40_apply, val_main_v39_apply]
  show ((∑ k : Fin 1280, _ * _) + _ : EReal) = (∑ k : Fin 1280, _ * _) + _
  refine congrArg₂ (· + ·) (Finset.sum_congr rfl fun k _ => ?_) (congrArg x13 (by idx1))
  have el : lidx_main_v38 (ix2 r h) k = ix2 r k := by idx2
  have er : ridx_main_v38 (ix2 r h) k = ix2 k h := by idx2
  rw [el, er]

/-- The fourth affine map at `(r, j)`, over the tanh of the third's row. -/
theorem lin3 (r : Fin 80000) (j : Fin 1280) :
    val_main_v46 (F := Ideal) x0 x1 x2 x3 x4 x5 x6 x7 x10 x11 x12 x13 x14 x15 (ix2 r j) = affine (fun q => val_main_v42 (F := Ideal) x0 x1 x2 x3 x4 x5 x6 x7 x10 x11 x12 x13 (ix2 r q)) x14 (vec x15) j := by
  rw [val_main_v46_apply, val_main_v43_apply, val_main_v45_apply, val_main_v44_apply]
  show ((∑ k : Fin 64, _ * _) + _ : EReal) = (∑ k : Fin 64, _ * _) + _
  refine congrArg₂ (· + ·) (Finset.sum_congr rfl fun k _ => ?_) (congrArg x15 (by idx1))
  have el : lidx_main_v43 (ix2 r j) k = ix2 r k := by idx2
  have er : ridx_main_v43 (ix2 r j) k = ix2 k j := by idx2
  rw [el, er]

/-- The row of `r` after the three layers. -/
theorem mlp (r : Fin 80000) (j : Fin 1280) :
    val_main_v46 (F := Ideal) x0 x1 x2 x3 x4 x5 x6 x7 x10 x11 x12 x13 x14 x15 (ix2 r j)
      = mlp3 (affine (cat4 (fun c => x0 (ix2 r c)) (fun c => x2 (ix2 r c)) (fun c => x3 (ix2 r c)) (fun c => val_main_v9 (F := Ideal) x1 x4 x5 (ix2 r c))) x6 (vec x7))
          x10 (vec x11) x12 (vec x13) x14 (vec x15) j := by
  rw [lin3]
  unfold mlp3
  refine congrFun (congrArg (fun f => affine f x14 (vec x15)) (funext fun h => ?_)) j
  show Ideal.tanh (val_main_v41 (F := Ideal) x0 x1 x2 x3 x4 x5 x6 x7 x10 x11 x12 x13 (ix2 r h)) = _
  rw [lin2]
  refine congrArg Ideal.tanh (congrFun (congrArg (fun f => affine f x12 (vec x13)) (funext fun q => ?_)) h)
  show Ideal.tanh (val_main_v36 (F := Ideal) x0 x1 x2 x3 x4 x5 x6 x7 x10 x11 (ix2 r q)) = _
  rw [lin1]
  refine congrArg Ideal.tanh (congrFun (congrArg (fun f => affine f x10 (vec x11)) (funext fun n => ?_)) q)
  exact lin0 x0 x1 x2 x3 x4 x5 x6 x7 r n

/-! ## Division by the length -/

/-- The row over its length at `(r, j)`. -/
theorem unit (r : Fin 80000) (j : Fin 1280) :
    val_main_v51 (F := Ideal) x0 x1 x2 x3 x4 x5 x6 x7 x10 x11 x12 x13 x14 x15 (ix2 r j) = unitize (fun q => val_main_v46 (F := Ideal) x0 x1 x2 x3 x4 x5 x6 x7 x10 x11 x12 x13 x14 x15 (ix2 r q)) j := by
  rw [val_main_v51_apply, val_main_v50_apply, val_main_v49_apply, val_main_v47_apply, val_main_call0_v2_apply,
    val_main_call0_v1_apply, val_main_v48_apply]
  show Ideal.div _ (max (Ideal.sqrt (Ideal.ofBits .f32 0x00000000#32 + ∑ k : Fin 1280, _)) (Ideal.ofBits .f32 0x2B8CBCCC#32)) = _
  rw [Ideal.ofBits_zero_f32, zero_add]
  unfold unitize eps
  refine congrArg (fun s => Ideal.div _ (max (Ideal.sqrt s) _)) (Finset.sum_congr rfl fun k _ => ?_)
  have e : idx_main_call0_v1 (idx_main_call0_v2 (idx_main_v50 (ix2 r j))) k = ix2 r k := by idx2
  rw [e, val_main_call0_v0_apply, Ideal.mulf_def]

/-! ## The 128 × 10 split, the mean over the rows, the softmax -/

/-- The reshaped array at `(r, d, k)` is the matrix at column `d * 10 + k`. -/
theorem resh (r : Fin 80000) (d : Fin 128) (k : Fin 10) :
    val_main_v52 (F := Ideal) x0 x1 x2 x3 x4 x5 x6 x7 x10 x11 x12 x13 x14 x15 (ix3 r d k) = val_main_v51 (F := Ideal) x0 x1 x2 x3 x4 x5 x6 x7 x10 x11 x12 x13 x14 x15 (ix2 r (dk d k)) := by
  rw [val_main_v52_apply]
  refine congrArg _ (funext fun a => Fin.ext ?_)
  have := r.isLt; have := d.isLt; have := k.isLt
  match a with
  | ⟨0, _⟩ => show ((r.val * 128 + d.val) * 10 + k.val) / 1280 = r.val; omega
  | ⟨1, _⟩ => show ((r.val * 128 + d.val) * 10 + k.val) % 1280 = d.val * 10 + k.val; omega

/-- The mean over the rows at `(d, k)`. -/
theorem mean (d : Fin 128) (k : Fin 10) :
    val_main_v75 (F := Ideal) x0 x1 x2 x3 x4 x5 x6 x7 x10 x11 x12 x13 x14 x15 (ix2 d k) = colMean (fun r' j => val_main_v51 (F := Ideal) x0 x1 x2 x3 x4 x5 x6 x7 x10 x11 x12 x13 x14 x15 (ix2 r' j)) cU (dk d k) := by
  rw [val_main_v75_apply, val_main_v73_apply, val_main_v74_apply]
  have hs : ∀ r' : Fin 80000, val_main_v52 (F := Ideal) x0 x1 x2 x3 x4 x5 x6 x7 x10 x11 x12 x13 x14 x15 (idx_main_v73 (ix2 d k) r') = val_main_v51 (F := Ideal) x0 x1 x2 x3 x4 x5 x6 x7 x10 x11 x12 x13 x14 x15 (ix2 r' (dk d k)) := fun r' => by
    have e : idx_main_v73 (ix2 d k) r' = ix3 r' d k := by idx3
    rw [e, resh]
  simp only [hs]
  show Ideal.div (Ideal.ofBits .f32 0x00000000#32 + _) (Ideal.ofBits .f32 0x479C4000#32) = _
  rw [Ideal.ofBits_zero_f32, zero_add]
  rfl

/-- The row plus the mean at `(r, d, k)`. -/
theorem addMean (r : Fin 80000) (d : Fin 128) (k : Fin 10) :
    val_main_v81 (F := Ideal) x0 x1 x2 x3 x4 x5 x6 x7 x10 x11 x12 x13 x14 x15 (ix3 r d k)
      = val_main_v51 (F := Ideal) x0 x1 x2 x3 x4 x5 x6 x7 x10 x11 x12 x13 x14 x15 (ix2 r (dk d k)) + colMean (fun r' j => val_main_v51 (F := Ideal) x0 x1 x2 x3 x4 x5 x6 x7 x10 x11 x12 x13 x14 x15 (ix2 r' j)) cU (dk d k) := by
  rw [val_main_v81_apply, val_main_v80_apply, val_main_v79_apply, resh]
  have e : idx_main_v79 (idx_main_v80 (ix3 r d k)) = ix2 d k := by idx2
  rw [e, mean, Ideal.addf_def]

/-- The host's reduction by maximum along the middle axis, from minus infinity, at `(r, k)`: the greatest of the
    entries `(r, m', k)`. -/
theorem reduceMax_mid (h' : S80000x128x10.ReducesTo [1] S80000x10) (hu : 0 < S_.numel) (y : FVec Ideal S80000x128x10 .f32)
    (r : Fin 80000) (k : Fin 10) :
    Host.reduce FloatOps.maximumf y (constant (F := Ideal) S_ .f32 0xFF800000#32) h' hu (ix2 r k)
      = Finset.univ.fold max ⊥ (fun m' : Fin 128 => y (ix3 r m' k)) := by
  have h : S80000x128x10.Reduces [1] S80000x10 := by decide
  rw [Host.reduce_eq_fold_single FloatOps.maximumf y _ h' h hu]
  have hf : (y ∘ h.lift (ix2 r k)) = fun m' : Fin 128 => y (ix3 r m' k) :=
    funext fun m' => congrArg y (funext fun a => Fin.ext (by match a with | ⟨0, _⟩ => rfl | ⟨1, _⟩ => rfl | ⟨2, _⟩ => rfl))
  rw [hf]
  show Finset.fold max (Ideal.ofBits .f32 0xFF800000#32) _ _ = _
  rw [negInf]
  rfl

/-- The greatest entry along the middle axis at `(r, k)` (the program takes the greater of minus infinity and it). -/
theorem rowMax (r : Fin 80000) (k : Fin 10) :
    val_main_v84 (F := Ideal) x0 x1 x2 x3 x4 x5 x6 x7 x10 x11 x12 x13 x14 x15 (ix2 r k) = Finset.univ.fold max ⊥ (fun m' : Fin 128 => val_main_v81 (F := Ideal) x0 x1 x2 x3 x4 x5 x6 x7 x10 x11 x12 x13 x14 x15 (ix3 r m' k)) := by
  rw [val_main_v84_apply, val_main_v83_apply]
  unfold val_main_v82 val_main_cst_11
  rw [reduceMax_mid]
  show max (Ideal.ofBits .f32 0xFF800000#32) _ = _
  rw [negInf]
  exact max_bot_left _

/-- The softmax along the middle axis at `(r, d, k)`. -/
theorem soft (r : Fin 80000) (d : Fin 128) (k : Fin 10) :
    val_main_v92 (F := Ideal) x0 x1 x2 x3 x4 x5 x6 x7 x10 x11 x12 x13 x14 x15 (ix3 r d k) = gate (fun m' => val_main_v81 (F := Ideal) x0 x1 x2 x3 x4 x5 x6 x7 x10 x11 x12 x13 x14 x15 (ix3 r m' k)) d := by
  have eexp : ∀ m' : Fin 128, val_main_v88 (F := Ideal) x0 x1 x2 x3 x4 x5 x6 x7 x10 x11 x12 x13 x14 x15 (ix3 r m' k)
      = Ideal.exp (val_main_v81 (F := Ideal) x0 x1 x2 x3 x4 x5 x6 x7 x10 x11 x12 x13 x14 x15 (ix3 r m' k)
          - Finset.univ.fold max ⊥ (fun m'' : Fin 128 => val_main_v81 (F := Ideal) x0 x1 x2 x3 x4 x5 x6 x7 x10 x11 x12 x13 x14 x15 (ix3 r m'' k))) := by
    intro m'
    rw [val_main_v88_apply, val_main_v87_apply, val_main_v86_apply, val_main_v85_apply]
    have e : idx_main_v85 (idx_main_v86 (ix3 r m' k)) = ix2 r k := by idx2
    rw [e, rowMax, Ideal.subf_def, Ideal.hostUnary_exp_def]
  rw [val_main_v92_apply, val_main_v91_apply, val_main_v90_apply, val_main_v89_apply]
  have e : idx_main_v90 (idx_main_v91 (ix3 r d k)) = ix2 r k := by idx2
  rw [e, eexp]
  show Ideal.div _ (Ideal.ofBits .f32 0x00000000#32 + ∑ m' : Fin 128, _) = _
  rw [Ideal.ofBits_zero_f32, zero_add]
  unfold gate
  refine congrArg (Ideal.div _) (Finset.sum_congr rfl fun m' _ => ?_)
  have e' : idx_main_v89 (ix2 r k) m' = ix3 r m' k := by idx3
  rw [e', eexp]

/-! ## The result -/

/-- The reference's first result at `(u, d, k)`. -/
theorem user_apply (u : Fin 80000) (d : Fin 128) (k : Fin 10) :
    val_main_v92 (F := Ideal) x0 x1 x2 x3 x4 x5 x6 x7 x10 x11 x12 x13 x14 x15 (ix3 u d k)
      = userOut (fun u' : Fin 80000 => userRow (row x0 u') (row x2 u') (row x3 u') (row (val_main_v9 (F := Ideal) x1 x4 x5) u')
          x6 (vec x7) x10 (vec x11) x12 (vec x13) x14 (vec x15)) u d k := by
  have hM : ∀ (u' : Fin 80000) (j : Fin 1280), val_main_v51 (F := Ideal) x0 x1 x2 x3 x4 x5 x6 x7 x10 x11 x12 x13 x14 x15 (ix2 u' j)
      = userRow (row x0 u') (row x2 u') (row x3 u') (row (val_main_v9 (F := Ideal) x1 x4 x5) u')
          x6 (vec x7) x10 (vec x11) x12 (vec x13) x14 (vec x15) j := fun u' j => by
    rw [unit]
    unfold userRow
    exact congrFun (congrArg unitize (funext fun q => mlp x0 x1 x2 x3 x4 x5 x6 x7 x10 x11 x12 x13 x14 x15 u' q)) j
  have hF : (fun (r' : Fin 80000) (j : Fin 1280) => val_main_v51 (F := Ideal) x0 x1 x2 x3 x4 x5 x6 x7 x10 x11 x12 x13 x14 x15 (ix2 r' j))
      = fun u' : Fin 80000 => userRow (row x0 u') (row x2 u') (row x3 u') (row (val_main_v9 (F := Ideal) x1 x4 x5) u')
          x6 (vec x7) x10 (vec x11) x12 (vec x13) x14 (vec x15) :=
    funext fun u' => funext fun j => hM u' j
  rw [soft]
  unfold userOut
  refine congrFun (congrArg gate (funext fun d' => ?_)) d
  rw [addMean, hF, hM]

end Cert.RefUser
-- ==== Proof.RefItem.lean ====
import proofs.«173914_j18305150615650_2_alg».proof.Proof.Gen.ReferenceIdeal.Read
import proofs.«173914_j18305150615650_2_alg».proof.Proof.Spec
import Idealize.ShloMosaic.Lib.Pipeline.Value
import Idealize.ShloMosaic.Lib.ValueIdx
import Idealize.ShloMosaic.PureOps.Ideal.Laws

/-!
  The reference program's second result read entry by entry: entry (i, k, d) is the softmax over k of item i's
  normalised row at the columns k * 128 + d, each with the mean of its column over all items added.
-/

noncomputable section

namespace Cert.RefItem

open Cert.ReferenceIdeal Cert.ReferenceIdeal.Gen Cert.ReferenceIdeal.Read Cert.Spec Idealize.ShloMosaic
  Idealize.ShloMosaic.ValueIdx

/-- Two indices built coordinate by coordinate agree when each coordinate does. -/
local macro "idx_rfl1" : tactic => `(tactic| (funext a; match a with | ⟨0, _⟩ => rfl))
local macro "idx_rfl2" : tactic => `(tactic| (funext a; match a with | ⟨0, _⟩ => rfl | ⟨1, _⟩ => rfl))
local macro "idx_rfl3" : tactic => `(tactic| (funext a; match a with | ⟨0, _⟩ => rfl | ⟨1, _⟩ => rfl | ⟨2, _⟩ => rfl))

variable (x0 : (⟨S80000x128, .f32⟩ : BufTy).Contents (Elt Ideal)) (x1 : (⟨S40000x128, .f32⟩ : BufTy).Contents (Elt Ideal))
  (x3 : (⟨S80000x128, .f32⟩ : BufTy).Contents (Elt Ideal)) (x4 x5 : (⟨S2000000, .i32⟩ : BufTy).Contents (Elt Ideal))
  (x8 : (⟨S256x128, .f32⟩ : BufTy).Contents (Elt Ideal)) (x9 : (⟨S128, .f32⟩ : BufTy).Contents (Elt Ideal))
  (x16 : (⟨S128x1280, .f32⟩ : BufTy).Contents (Elt Ideal)) (x17 : (⟨S1280, .f32⟩ : BufTy).Contents (Elt Ideal))
  (x18 : (⟨S1280x64, .f32⟩ : BufTy).Contents (Elt Ideal)) (x19 : (⟨S64, .f32⟩ : BufTy).Contents (Elt Ideal))
  (x20 : (⟨S64x1280, .f32⟩ : BufTy).Contents (Elt Ideal)) (x21 : (⟨S1280, .f32⟩ : BufTy).Contents (Elt Ideal))

/-! ### The two feature rows side by side, and the first affine map -/

theorem cat_left (A : (⟨S40000x128, .f32⟩ : BufTy).Contents (Elt Ideal)) (i : Fin 40000) (q : Fin 256) (h0 : q.val < 128) :
    concatenate S40000x256 1 [⟨S40000x128, x1⟩, ⟨S40000x128, A⟩] concatenates_S40000x128_S40000x128_S40000x256_d1 (ix2 i q)
      = x1 (ix2 i ⟨q.val, h0⟩) :=
  concatenate_pair_apply_left 1 x1 A concatenates_S40000x128_S40000x128_S40000x256_d1 (ix2 i q) rfl
      (ix2 i ⟨q.val, h0⟩) (fun b => by
        match b with
        | ⟨0, _⟩ => rfl
        | ⟨1, _⟩ => rfl)

theorem cat_right (A : (⟨S40000x128, .f32⟩ : BufTy).Contents (Elt Ideal)) (i : Fin 40000) (q : Fin 256) (h0 : ¬ q.val < 128) :
    concatenate S40000x256 1 [⟨S40000x128, x1⟩, ⟨S40000x128, A⟩] concatenates_S40000x128_S40000x128_S40000x256_d1 (ix2 i q)
      = A (ix2 i ⟨q.val - 128, by have := q.isLt; omega⟩) :=
  concatenate_pair_apply_right 1 x1 A concatenates_S40000x128_S40000x128_S40000x256_d1 (ix2 i q) rfl rfl
      (ix2 i ⟨q.val - 128, by have := q.isLt; omega⟩)
      (fun b hb => by
        match b with
        | ⟨0, _⟩ => rfl
        | ⟨1, _⟩ => exact absurd rfl hb)
      (by show (q.val - 128) + 128 = q.val; omega)

theorem cat2_lo (a b : Fin 128 → EReal) (q : Fin 256) (h0 : q.val < 128) : cat2 a b q = a ⟨q.val, h0⟩ := by
  unfold cat2
  rw [dif_pos h0]

theorem cat2_hi (a b : Fin 128 → EReal) (q : Fin 256) (h0 : ¬ q.val < 128) :
    cat2 a b q = b ⟨q.val - 128, by have := q.isLt; omega⟩ := by
  unfold cat2
  rw [dif_neg h0]

theorem cat_at (A : (⟨S40000x128, .f32⟩ : BufTy).Contents (Elt Ideal)) (i : Fin 40000) (q : Fin 256) :
    concatenate S40000x256 1 [⟨S40000x128, x1⟩, ⟨S40000x128, A⟩] concatenates_S40000x128_S40000x128_S40000x256_d1 (ix2 i q)
      = cat2 (row x1 i) (row A i) q := by
  by_cases h0 : q.val < 128
  · exact (cat_left x1 A i q h0).trans (cat2_lo (row x1 i) (row A i) q h0).symm
  · exact (cat_right x1 A i q h0).trans (cat2_hi (row x1 i) (row A i) q h0).symm

/-- Row i of the concatenation is the two rows side by side. -/
theorem v28_at (i : Fin 40000) (q : Fin 256) :
    val_main_v28 (F := Ideal) x0 x1 x3 x4 x5 (ix2 i q)
      = cat2 (row x1 i) (row (val_main_v27 (F := Ideal) x0 x3 x4 x5) i) q := by
  unfold val_main_v28
  exact cat_at x1 (val_main_v27 (F := Ideal) x0 x3 x4 x5) i q

/-- Item i's row entering the three layers: the two feature rows side by side through the first affine map. -/
def inRow (i : Fin 40000) : Fin 128 → EReal :=
  affine (cat2 (row x1 i) (row (val_main_v27 (F := Ideal) x0 x3 x4 x5) i)) x8 (vec x9)

/-- Row i after the first affine map. -/
theorem v32_at (i : Fin 40000) (n : Fin 128) :
    val_main_v32 (F := Ideal) x0 x1 x3 x4 x5 x8 x9 (ix2 i n) = inRow x0 x1 x3 x4 x5 x8 x9 i n := by
  unfold inRow
  rw [val_main_v32_apply, val_main_v29_apply, val_main_v31_apply, val_main_v30_apply]
  refine congrArg₂ (· + ·) (Finset.sum_congr rfl fun k _ => ?_) (congrArg x9 (by idx_rfl1))
  rw [show lidx_main_v29 (ix2 i n) k = ix2 i k by idx_rfl2, show ridx_main_v29 (ix2 i n) k = ix2 k n by idx_rfl2, v28_at]

/-! ### The three layers -/

theorem v57_at (i : Fin 40000) (j : Fin 1280) :
    val_main_v57 (F := Ideal) x0 x1 x3 x4 x5 x8 x9 x16 x17 (ix2 i j)
      = Ideal.tanh (affine (inRow x0 x1 x3 x4 x5 x8 x9 i) x16 (vec x17) j) := by
  rw [val_main_v57_apply, val_main_v56_apply, val_main_v53_apply, val_main_v55_apply, val_main_v54_apply]
  refine congrArg Ideal.tanh (congrArg₂ (· + ·) (Finset.sum_congr rfl fun k _ => ?_) (congrArg x17 (by idx_rfl1)))
  rw [show lidx_main_v53 (ix2 i j) k = ix2 i k by idx_rfl2, show ridx_main_v53 (ix2 i j) k = ix2 k j by idx_rfl2, v32_at]

theorem v62_at (i : Fin 40000) (h : Fin 64) :
    val_main_v62 (F := Ideal) x0 x1 x3 x4 x5 x8 x9 x16 x17 x18 x19 (ix2 i h)
      = Ideal.tanh (affine (fun j => Ideal.tanh (affine (inRow x0 x1 x3 x4 x5 x8 x9 i) x16 (vec x17) j)) x18 (vec x19) h) := by
  rw [val_main_v62_apply, val_main_v61_apply, val_main_v58_apply, val_main_v60_apply, val_main_v59_apply]
  refine congrArg Ideal.tanh (congrArg₂ (· + ·) (Finset.sum_congr rfl fun k _ => ?_) (congrArg x19 (by idx_rfl1)))
  rw [show lidx_main_v58 (ix2 i h) k = ix2 i k by idx_rfl2, show ridx_main_v58 (ix2 i h) k = ix2 k h by idx_rfl2, v57_at]

theorem v66_at (i : Fin 40000) (j : Fin 1280) :
    val_main_v66 (F := Ideal) x0 x1 x3 x4 x5 x8 x9 x16 x17 x18 x19 x20 x21 (ix2 i j)
      = mlp3 (inRow x0 x1 x3 x4 x5 x8 x9 i) x16 (vec x17) x18 (vec x19) x20 (vec x21) j := by
  unfold mlp3
  rw [val_main_v66_apply, val_main_v63_apply, val_main_v65_apply, val_main_v64_apply]
  refine congrArg₂ (· + ·) (Finset.sum_congr rfl fun k _ => ?_) (congrArg x21 (by idx_rfl1))
  rw [show lidx_main_v63 (ix2 i j) k = ix2 i k by idx_rfl2, show ridx_main_v63 (ix2 i j) k = ix2 k j by idx_rfl2, v62_at]

/-! ### Division by the length -/

/-- The zero word added in front of a sum does nothing. -/
theorem zero_word_add (S : EReal) : FloatOps.ofBits (F := Ideal) .f32 0x00000000#32 + S = S := by
  rw [Ideal.ofBits_def, Ideal.ofBits_zero_f32, zero_add]

/-- The length of row i, kept at least the small constant. -/
theorem v69_at (i : Fin 40000) (u : Fin 1) :
    val_main_v69 (F := Ideal) x0 x1 x3 x4 x5 x8 x9 x16 x17 x18 x19 x20 x21 (ix2 i u)
      = max (Ideal.sqrt (∑ q : Fin 1280, val_main_v66 (F := Ideal) x0 x1 x3 x4 x5 x8 x9 x16 x17 x18 x19 x20 x21 (ix2 i q) * val_main_v66 (F := Ideal) x0 x1 x3 x4 x5 x8 x9 x16 x17 x18 x19 x20 x21 (ix2 i q))) eps := by
  rw [val_main_v69_apply, val_main_v67_apply, val_main_v68_apply, val_main_cst_6_apply, val_main_call1_v2_apply,
    val_main_call1_v1_apply, val_main_call1_cst_apply]
  refine congrArg₂ max (congrArg Ideal.sqrt ((zero_word_add _).trans (Finset.sum_congr rfl fun k _ => ?_))) rfl
  rw [show idx_main_call1_v1 (idx_main_call1_v2 (ix2 i u)) k = ix2 i k by idx_rfl2, val_main_call1_v0_apply]
  rfl

/-- The item's normalised row. -/
def M (i : Fin 40000) : Fin 1280 → EReal :=
  itemRow (row x1 i) (row (val_main_v27 (F := Ideal) x0 x3 x4 x5) i) x8 (vec x9) x16 (vec x17) x18 (vec x19) x20 (vec x21)

theorem v71_at (i : Fin 40000) (j : Fin 1280) :
    val_main_v71 (F := Ideal) x0 x1 x3 x4 x5 x8 x9 x16 x17 x18 x19 x20 x21 (ix2 i j) = M x0 x1 x3 x4 x5 x8 x9 x16 x17 x18 x19 x20 x21 i j := by
  have e : (fun q => val_main_v66 (F := Ideal) x0 x1 x3 x4 x5 x8 x9 x16 x17 x18 x19 x20 x21 (ix2 i q))
      = mlp3 (inRow x0 x1 x3 x4 x5 x8 x9 i) x16 (vec x17) x18 (vec x19) x20 (vec x21) := funext fun q => v66_at x0 x1 x3 x4 x5 x8 x9 x16 x17 x18 x19 x20 x21 i q
  rw [val_main_v71_apply, val_main_v70_apply, show idx_main_v70 (ix2 i j) = ix2 i (0 : Fin 1) by idx_rfl2, v69_at]
  show Ideal.div ((fun q => val_main_v66 (F := Ideal) x0 x1 x3 x4 x5 x8 x9 x16 x17 x18 x19 x20 x21 (ix2 i q)) j)
      (max (Ideal.sqrt (∑ q : Fin 1280, (fun q => val_main_v66 (F := Ideal) x0 x1 x3 x4 x5 x8 x9 x16 x17 x18 x19 x20 x21 (ix2 i q)) q
        * (fun q => val_main_v66 (F := Ideal) x0 x1 x3 x4 x5 x8 x9 x16 x17 x18 x19 x20 x21 (ix2 i q)) q)) eps) = _
  rw [e]
  rfl

/-! ### The mean over the items -/

theorem idx72 (i : Fin 40000) (k : Fin 10) (d : Fin 128) : idx_main_v72 (ix3 i k d) = ix2 i (kd k d) := by
  funext a
  match a with
  | ⟨0, _⟩ =>
    apply Fin.ext
    show ((i.val * 10 + k.val) * 128 + d.val) / 1280 = i.val
    have := k.isLt
    have := d.isLt
    omega
  | ⟨1, _⟩ =>
    apply Fin.ext
    show ((i.val * 10 + k.val) * 128 + d.val) % 1280 = k.val * 128 + d.val
    have := k.isLt
    have := d.isLt
    omega

theorem v72_at (i : Fin 40000) (k : Fin 10) (d : Fin 128) :
    val_main_v72 (F := Ideal) x0 x1 x3 x4 x5 x8 x9 x16 x17 x18 x19 x20 x21 (ix3 i k d) = M x0 x1 x3 x4 x5 x8 x9 x16 x17 x18 x19 x20 x21 i (kd k d) := by
  rw [val_main_v72_apply, idx72, v71_at]

theorem v78_at (k : Fin 10) (d : Fin 128) :
    val_main_v78 (F := Ideal) x0 x1 x3 x4 x5 x8 x9 x16 x17 x18 x19 x20 x21 (ix2 k d) = colMean (M x0 x1 x3 x4 x5 x8 x9 x16 x17 x18 x19 x20 x21) cI (kd k d) := by
  rw [val_main_v78_apply, val_main_v76_apply, val_main_v77_apply, val_main_cst_10_apply, val_main_cst_9_apply]
  refine congrArg₂ Ideal.div ((zero_word_add _).trans (Finset.sum_congr rfl fun i' _ => ?_)) rfl
  rw [show idx_main_v76 (ix2 k d) i' = ix3 i' k d by idx_rfl3, v72_at]

theorem v95_at (i : Fin 40000) (k : Fin 10) (d : Fin 128) :
    val_main_v95 (F := Ideal) x0 x1 x3 x4 x5 x8 x9 x16 x17 x18 x19 x20 x21 (ix3 i k d) = M x0 x1 x3 x4 x5 x8 x9 x16 x17 x18 x19 x20 x21 i (kd k d) + colMean (M x0 x1 x3 x4 x5 x8 x9 x16 x17 x18 x19 x20 x21) cI (kd k d) := by
  rw [val_main_v95_apply, val_main_v94_apply, val_main_v93_apply,
    show idx_main_v93 (idx_main_v94 (ix3 i k d)) = ix2 k d by idx_rfl2, v72_at, v78_at]
  rfl

/-! ### The softmax over the ten -/

/-- The word of minus infinity. -/
theorem neg_inf_word : FloatOps.ofBits (F := Ideal) .f32 0xFF800000#32 = (⊥ : EReal) := by
  rw [Ideal.ofBits_def]
  simp [Ideal.ofBits, Ideal.ieee]

/-- The maximum over the middle axis of a 40000 × 10 × 128 array, from minus infinity. -/
theorem max_reduce_at (y : S40000x10x128.Idx → Ideal .f32) (i : Fin 40000) (d : Fin 128) :
    Host.reduce (α := Ideal .f32) (FloatOps.maximumf (F := Ideal) (φ := .f32)) y (val_main_cst_14 (F := Ideal))
        reducesTo_S40000x10x128_S40000x128_d1 h_S_ (ix2 i d)
      = Finset.univ.fold max ⊥ (fun k : Fin 10 => y (ix3 i k d)) := by
  have h : S40000x10x128.Reduces [1] S40000x128 := by decide
  refine (Host.reduce_eq_fold_single (α := Ideal .f32) (FloatOps.maximumf (F := Ideal) (φ := .f32)) y _
    reducesTo_S40000x10x128_S40000x128_d1 h h_S_ (ix2 i d)).trans ?_
  have hf : (y ∘ h.lift (ix2 i d)) = fun k : Fin 10 => y (ix3 i k d) :=
    funext fun k => congrArg y (by
      funext c
      apply Fin.ext
      match c with
      | ⟨0, _⟩ => rfl
      | ⟨1, _⟩ => rfl
      | ⟨2, _⟩ => rfl)
  have e0 : (val_main_cst_14 (F := Ideal)) (Shape.Idx.first h_S_) = (⊥ : EReal) := neg_inf_word
  exact congrArg₂ (fun b f => Finset.fold max b f (Finset.univ : Finset (Fin 10))) e0 hf

theorem v98_at (i : Fin 40000) (d : Fin 128) :
    val_main_v98 (F := Ideal) x0 x1 x3 x4 x5 x8 x9 x16 x17 x18 x19 x20 x21 (ix2 i d)
      = Finset.univ.fold max ⊥ (fun k : Fin 10 => val_main_v95 (F := Ideal) x0 x1 x3 x4 x5 x8 x9 x16 x17 x18 x19 x20 x21 (ix3 i k d)) := by
  rw [val_main_v98_apply, val_main_v97_apply, val_main_cst_15_apply]
  unfold val_main_v96
  exact (congrArg₂ max neg_inf_word (max_reduce_at (val_main_v95 (F := Ideal) x0 x1 x3 x4 x5 x8 x9 x16 x17 x18 x19 x20 x21) i d)).trans (max_bot_left _)

theorem v102_at (i : Fin 40000) (k : Fin 10) (d : Fin 128) :
    val_main_v102 (F := Ideal) x0 x1 x3 x4 x5 x8 x9 x16 x17 x18 x19 x20 x21 (ix3 i k d)
      = Ideal.exp (val_main_v95 (F := Ideal) x0 x1 x3 x4 x5 x8 x9 x16 x17 x18 x19 x20 x21 (ix3 i k d)
          - Finset.univ.fold max ⊥ (fun k' : Fin 10 => val_main_v95 (F := Ideal) x0 x1 x3 x4 x5 x8 x9 x16 x17 x18 x19 x20 x21 (ix3 i k' d))) := by
  rw [val_main_v102_apply, val_main_v101_apply, val_main_v100_apply, val_main_v99_apply,
    show idx_main_v99 (idx_main_v100 (ix3 i k d)) = ix2 i d by idx_rfl2, v98_at]
  exact (Ideal.hostUnary_exp_def _).trans (congrArg Ideal.exp (Ideal.subf_def _ _))

theorem v106_at (i : Fin 40000) (k : Fin 10) (d : Fin 128) :
    val_main_v106 (F := Ideal) x0 x1 x3 x4 x5 x8 x9 x16 x17 x18 x19 x20 x21 (ix3 i k d)
      = Ideal.div (val_main_v102 (F := Ideal) x0 x1 x3 x4 x5 x8 x9 x16 x17 x18 x19 x20 x21 (ix3 i k d)) (∑ k' : Fin 10, val_main_v102 (F := Ideal) x0 x1 x3 x4 x5 x8 x9 x16 x17 x18 x19 x20 x21 (ix3 i k' d)) := by
  rw [val_main_v106_apply, val_main_v105_apply, val_main_v104_apply,
    show idx_main_v104 (idx_main_v105 (ix3 i k d)) = ix2 i d by idx_rfl2, val_main_v103_apply, val_main_cst_16_apply]
  refine congrArg (Ideal.div _) ((zero_word_add _).trans (Finset.sum_congr rfl fun k' _ => ?_))
  rw [show idx_main_v103 (ix2 i d) k' = ix3 i k' d by idx_rfl3]

/-- The result over the named rows. -/
theorem item_apply_M (i : Fin 40000) (k : Fin 10) (d : Fin 128) :
    val_main_v106 (F := Ideal) x0 x1 x3 x4 x5 x8 x9 x16 x17 x18 x19 x20 x21 (ix3 i k d) = itemOut (M x0 x1 x3 x4 x5 x8 x9 x16 x17 x18 x19 x20 x21) i k d := by
  have hs : (fun k' : Fin 10 => val_main_v95 (F := Ideal) x0 x1 x3 x4 x5 x8 x9 x16 x17 x18 x19 x20 x21 (ix3 i k' d))
      = fun k' => M x0 x1 x3 x4 x5 x8 x9 x16 x17 x18 x19 x20 x21 i (kd k' d) + colMean (M x0 x1 x3 x4 x5 x8 x9 x16 x17 x18 x19 x20 x21) cI (kd k' d) := funext fun k' => v95_at x0 x1 x3 x4 x5 x8 x9 x16 x17 x18 x19 x20 x21 i k' d
  have h102 : ∀ k' : Fin 10, val_main_v102 (F := Ideal) x0 x1 x3 x4 x5 x8 x9 x16 x17 x18 x19 x20 x21 (ix3 i k' d)
      = Ideal.exp ((fun k'' : Fin 10 => M x0 x1 x3 x4 x5 x8 x9 x16 x17 x18 x19 x20 x21 i (kd k'' d) + colMean (M x0 x1 x3 x4 x5 x8 x9 x16 x17 x18 x19 x20 x21) cI (kd k'' d)) k'
          - Finset.univ.fold max ⊥ (fun k'' : Fin 10 => M x0 x1 x3 x4 x5 x8 x9 x16 x17 x18 x19 x20 x21 i (kd k'' d) + colMean (M x0 x1 x3 x4 x5 x8 x9 x16 x17 x18 x19 x20 x21) cI (kd k'' d))) := fun k' => by
    rw [v102_at, hs, v95_at]
  rw [v106_at, h102 k, Finset.sum_congr rfl fun k' _ => h102 k']
  rfl

/-- The reference's second result, entry by entry. -/
theorem item_apply (i : Fin 40000) (k : Fin 10) (d : Fin 128) :
    val_main_v106 (F := Ideal) x0 x1 x3 x4 x5 x8 x9 x16 x17 x18 x19 x20 x21 (ix3 i k d)
      = itemOut (fun i' : Fin 40000 => itemRow (row x1 i') (row (val_main_v27 (F := Ideal) x0 x3 x4 x5) i') x8 (vec x9) x16 (vec x17) x18 (vec x19) x20 (vec x21)) i k d :=
  item_apply_M x0 x1 x3 x4 x5 x8 x9 x16 x17 x18 x19 x20 x21 i k d

end Cert.RefItem

end
-- ==== Proof.Claims.lean ====
/-
  The five claims, assembled.

  The two frame claims of the kernel program and of its idealization are their launches' runs. The reference's frame
  claim is its run with the two results dropped. The ideal pass rewrote nothing. The algebraic claim: on argument
  arrays that agree, the idealized kernel program's two result buffers and the reference's two result terms are, entry
  by entry, the same two functions of those arrays — each user's 128 × 10 entries the softmax over the 128 axis of the
  user's normalized row plus the column means, each item's 10 × 128 entries the softmax over the 10 axis likewise.
-/
import proofs.«173914_j18305150615650_2_alg».proof.Defs
import proofs.«173914_j18305150615650_2_alg».proof.Proof.Gen.Kernel.Frame
import proofs.«173914_j18305150615650_2_alg».proof.Proof.Gen.KernelIdeal.Frame
import proofs.«173914_j18305150615650_2_alg».proof.Proof.Gen.ReferenceIdeal.Read
import proofs.«173914_j18305150615650_2_alg».proof.Proof.Gen.Pre_finite_inputs
import proofs.«173914_j18305150615650_2_alg».proof.Proof.KRun
import proofs.«173914_j18305150615650_2_alg».proof.Proof.KFinal
import proofs.«173914_j18305150615650_2_alg».proof.Proof.RefUser
import proofs.«173914_j18305150615650_2_alg».proof.Proof.RefItem

set_option maxRecDepth 16384

noncomputable section

namespace Cert.Proof.Claims

open Idealize.ShloMosaic Idealize.ShloMosaic.ValueIdx Idealize.SL.Sem

/-- Two arrays of rank 3 that agree at every triple of coordinates are equal. -/
theorem funext_ix3 {α : Type} {n0 n1 n2 : ℕ} (f g : (⟨3, ![n0, n1, n2]⟩ : Shape).Idx → α)
    (h : ∀ a b c, f (ix3 a b c) = g (ix3 a b c)) : f = g :=
  funext fun j => by rw [eq_ix3 j]; exact h _ _ _

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- At the extended reals both programs' results are the specification's two functions of the argument arrays: the
    kernel program's by its run and the reading of its two result buffers, the reference's by its run and the reading of
    its two result terms; on arguments that agree these are the same functions of the same arrays. -/
theorem algebraic : Cert.algebraic_KernelIdeal_ReferenceIdeal := by
  intro m ρ m' ρ' _ hagree
  refine ⟨fun c => Cert.KernelIdeal.Gen.W7 m ρ c (Proc.devRef .tc Cert.KernelIdeal.main_v44),
    fun c => Cert.KernelIdeal.Gen.W7 m ρ c (Proc.devRef .tc Cert.KernelIdeal.main_v45),
    Cert.KernelIdeal.ValueRun.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v92_eq]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1]
    refine funext_ix3 (n0 := 80000) (n1 := 128) (n2 := 10) _ _ fun u d k => ?_
    exact (Cert.RefUser.user_apply _ _ _ _ _ _ _ _ _ _ _ _ _ _ u d k).trans (Cert.KernelIdeal.Final.user_result m ρ c u d k).symm
  · rw [Cert.ReferenceIdeal.Read.val_main_v106_eq]
    rw [(hagree c).1, (hagree c).2.1, (hagree c).2.2.2.1, (hagree c).2.2.2.2.1, (hagree c).2.2.2.2.2.1, (hagree c).2.2.2.2.2.2.2.2.1, (hagree c).2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]
    refine funext_ix3 (n0 := 40000) (n1 := 10) (n2 := 128) _ _ fun i k d => ?_
    exact (Cert.RefItem.item_apply _ _ _ _ _ _ _ _ _ _ _ _ _ i k d).trans (Cert.KernelIdeal.Final.item_result m ρ c i k d).symm

/-- The five claims together. -/
theorem claim_body : Cert.frame_Kernel ∧ Cert.frame_KernelIdeal ∧ Cert.frame_ReferenceIdeal
    ∧ Cert.preserves_Kernel_KernelIdeal ∧ Cert.algebraic_KernelIdeal_ReferenceIdeal :=
  ⟨frame_k, frame_ki, frame_ri, preserves, algebraic⟩

end Cert.Proof.Claims

end
-- ==== Proof.lean ====
/-
  Two ways of computing the same pair of softmax-gated tables agree on the extended reals.

  Both programs start from the same gather-and-scatter neighbour sums. A user's (an item's) feature rows are laid side
  by side and sent through an affine map, two affine maps each followed by tanh, a third affine map, and the
  result is divided by its Euclidean length (kept at least a small constant); the mean of these rows over all users
  (items) is added back to each row, and a softmax is taken along the 128 axis of the row viewed as 128 × 10 (users)
  or along the 10 axis of the row viewed as 10 × 128 (items).

  The kernel program does this in four grid launches: two that compute the rows 800 at a time while accumulating their
  column sums, and two that add the mean and take the softmax, 800 rows at a time; for the users it works with the
  third layer's columns permuted (column k·128 + d in place of d·10 + k) and undoes the permutation in the last
  launch. The reference does it in one pass over whole arrays. Entry by entry both are the same function of the
  arguments: matrix products are the same finite sums, a sum over all rows is the sum over tiles of the sums within
  tiles, the sum of squares of a row does not see a permutation of its columns, and the two softmaxes range over the
  same entries.

  The three runs terminate without a fault and leave the arguments unchanged; the idealization rewrote nothing.
-/
import proofs.«173914_j18305150615650_2_alg».proof.Defs
import proofs.«173914_j18305150615650_2_alg».proof.Proof.Gen.Kernel
import proofs.«173914_j18305150615650_2_alg».proof.Proof.Gen.KernelIdeal
import proofs.«173914_j18305150615650_2_alg».proof.Proof.Gen.ReferenceIdeal
import proofs.«173914_j18305150615650_2_alg».proof.Proof.Gen.Pre_finite_inputs
import proofs.«173914_j18305150615650_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Cert.Proof.Claims.claim_body⟩

end Cert.Proof

end
